-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x1024x4 : Shape := ⟨3, ![4096, 1024, 4]⟩
abbrev S4x4096x1024 : Shape := ⟨3, ![4, 4096, 1024]⟩
abbrev S4x4096 : Shape := ⟨2, ![4, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1024x4 : S_.BroadcastsInDim S4096x1024x4 (![] : Fin 0 → Fin S4096x1024x4.rank)
  reducesTo_S4096x1024x4_S_d0_1_2 : S4096x1024x4.ReducesTo [0, 1, 2] S_
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg4 : FVec F S4x4096x1024 .f32) (main_arg5 : FVec F S4x4096 .f32) (main_arg6 : FVec F S4x4096 .f32) (main_v13 : IVec S_ 1) (main_v16 : IVec S4x4096x1024 1) : IVec S_ 1 :=
  let main_c_5 : IVec S_ 1 := constantI S_ 1 1#1
  let main_v17 : IVec S_ 1 := (fun x v => Host.reduce IntOp.andi x v reducesTo_S4x4096x1024_S_d0_1_2 h_S_) main_v16 main_c_5
  let main_v18 : IVec S_ 1 := andi main_v13 main_v17
  let main_v19 : FVec F S4x4096x1024 .f32 := Host.absf main_arg4
  let main_cst_6 : FVec F S_ .f32 := constant S_ .f32 0x7F800000#32
  let main_v20 : FVec F S4x4096x1024 .f32 := broadcastInDim S4x4096x1024 ![] bcast_S_S4x4096x1024 main_cst_6
  let main_v21 : IVec S4x4096x1024 1 := cmpf .olt main_v19 main_v20
  let main_c_7 : IVec S_ 1 := constantI S_ 1 1#1
  let main_v22 : IVec S_ 1 := (fun x v => Host.reduce IntOp.andi x v reducesTo_S4x4096x1024_S_d0_1_2 h_S_) main_v21 main_c_7
  let main_v23 : IVec S_ 1 := andi main_v18 main_v22
  let main_v24 : FVec F S4x4096 .f32 := Host.absf main_arg5
  let main_cst_8 : FVec F S_ .f32 := constant S_ .f32 0x7F800000#32
  let main_v25 : FVec F S4x4096 .f32 := broadcastInDim S4x4096 ![] bcast_S_S4x4096 main_cst_8
  let main_v26 : IVec S4x4096 1 := cmpf .olt main_v24 main_v25
  let main_c_9 : IVec S_ 1 := constantI S_ 1 1#1
  let main_v27 : IVec S_ 1 := (fun x v => Host.reduce IntOp.andi x v reducesTo_S4x4096_S_d0_1 h_S_) main_v26 main_c_9
  let main_v28 : IVec S_ 1 := andi main_v23 main_v27
  let main_v29 : FVec F S4x4096 .f32 := Host.absf main_arg6
  let main_cst_10 : FVec F S_ .f32 := constant S_ .f32 0x7F800000#32
  let main_v30 : FVec F S4x4096 .f32 := broadcastInDim S4x4096 ![] bcast_S_S4x4096 main_cst_10
  let main_v31 : IVec S4x4096 1 := cmpf .olt main_v29 main_v30
  let main_c_11 : IVec S_ 1 := constantI S_ 1 1#1
  let main_v32 : IVec S_ 1 := (fun x v => Host.reduce IntOp.andi x v reducesTo_S4x4096_S_d0_1 h_S_) main_v31 main_c_11
  let main_v33 : IVec S_ 1 := andi main_v28 main_v32
  main_v33

def fn {F : FTy → Type} [FloatOps F] (main_arg0 : FVec F S4096x1024 .f32) (main_arg1 : FVec F S4096x1024x4 .f32) (main_arg2 : FVec F S4096x1024x4 .f32) (main_arg3 : FVec F S4x4096x1024 .f32) (main_arg4 : FVec F S4x4096x1024 .f32) (main_arg5 : FVec F S4x4096 .f32) (main_arg6 : FVec F S4x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024x4 .f32 := Host.absf main_arg1
  let main_cst_0 : FVec F S_ .f32 := constant S_ .f32 0x7F800000#32
  let main_v5 : FVec F S4096x1024x4 .f32 := broadcastInDim S4096x1024x4 ![] bcast_S_S4096x1024x4 main_cst_0
  let main_v6 : IVec S4096x1024x4 1 := cmpf .olt main_v4 main_v5
  let main_c_1 : IVec S_ 1 := constantI S_ 1 1#1
  let main_v7 : IVec S_ 1 := (fun x v => Host.reduce IntOp.andi x v reducesTo_S4096x1024x4_S_d0_1_2 h_S_) main_v6 main_c_1
  let main_v8 : IVec S_ 1 := andi main_v3 main_v7
  let main_v9 : FVec F S4096x1024x4 .f32 := Host.absf main_arg2
  let main_cst_2 : FVec F S_ .f32 := constant S_ .f32 0x7F800000#32
  let main_v10 : FVec F S4096x1024x4 .f32 := broadcastInDim S4096x1024x4 ![] bcast_S_S4096x1024x4 main_cst_2
  let main_v11 : IVec S4096x1024x4 1 := cmpf .olt main_v9 main_v10
  let main_c_3 : IVec S_ 1 := constantI S_ 1 1#1
  let main_v12 : IVec S_ 1 := (fun x v => Host.reduce IntOp.andi x v reducesTo_S4096x1024x4_S_d0_1_2 h_S_) main_v11 main_c_3
  let main_v13 : IVec S_ 1 := andi main_v8 main_v12
  let main_v14 : FVec F S4x4096x1024 .f32 := Host.absf main_arg3
  let main_cst_4 : FVec F S_ .f32 := constant S_ .f32 0x7F800000#32
  let main_v15 : FVec F S4x4096x1024 .f32 := broadcastInDim S4x4096x1024 ![] bcast_S_S4x4096x1024 main_cst_4
  let main_v16 : IVec S4x4096x1024 1 := cmpf .olt main_v14 main_v15
  fn_part1 (F := F) main_arg4 main_arg5 main_arg6 main_v13 main_v16
-- ==== Kernel.lean ====
abbrev S4096x1024 : Shape := ⟨2, ![4096, 1024]⟩
abbrev S4096x1024x4 : Shape := ⟨3, ![4096, 1024, 4]⟩
abbrev S4x4096x1024 : Shape := ⟨3, ![4, 4096, 1024]⟩
abbrev S4x4096 : Shape := ⟨2, ![4, 4096]⟩
abbrev S4x4096x2048 : Shape := ⟨3, ![4, 4096, 2048]⟩
abbrev S4x1x4096 : Shape := ⟨3, ![4, 1, 4096]⟩
abbrev S1x4096x1024 : Shape := ⟨3, ![1, 4096, 1024]⟩
abbrev S1x4096x2048 : Shape := ⟨3, ![1, 4096, 2048]⟩
abbrev S4096x2048 : Shape := ⟨2, ![4096, 2048]⟩
abbrev S1x1x4096 : Shape := ⟨3, ![1, 1, 4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩
abbrev S4096x1024x1 : Shape := ⟨3, ![4096, 1024, 1]⟩

abbrev nBuf : Space → Nat
  | .hbm => 63
  | .vmem => 48
  | .smem => 0
  | _ => 0

abbrev bufTy : (tb : Table) → Fin (tcTables nBuf tb) → BufTy
  | .hbm, ⟨0, _⟩ => ⟨S4096x1024, .f32⟩
  | .hbm, ⟨1, _⟩ => ⟨S4096x1024x4, .f32⟩
  | .hbm, ⟨2, _⟩ => ⟨S4096x1024x4, .f32⟩
  | .hbm, ⟨3, _⟩ => ⟨S4x4096x1024, .f32⟩
  | .hbm, ⟨4, _⟩ => ⟨S4x4096x1024, .f32⟩
  | .hbm, ⟨5, _⟩ => ⟨S4x4096, .f32⟩
  | .hbm, ⟨6, _⟩ => ⟨S4x4096, .f32⟩
  | .hbm, ⟨7, _⟩ => ⟨S4x4096x1024, .f32⟩
  | .hbm, ⟨8, _⟩ => ⟨S4x4096x1024, .f32⟩
  | .hbm, ⟨9, _⟩ => ⟨S4x4096x2048, .f32⟩
  | .hbm, ⟨10, _⟩ => ⟨S4x4096x2048, .bf16⟩
  | .hbm, ⟨11, _⟩ => ⟨S4x4096, .f32⟩
  | .hbm, ⟨12, _⟩ => ⟨S4x1x4096, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S1x4096x2048, .bf16⟩
  | .hbm, ⟨18, _⟩ => ⟨S4096x2048, .bf16⟩
  | .hbm, ⟨19, _⟩ => ⟨S1x1x4096, .f32⟩
  | .hbm, ⟨20, _⟩ => ⟨S1x4096, .f32⟩
  | .hbm, ⟨21, _⟩ => ⟨S4096x1024, .f32⟩
  | .hbm, ⟨22, _⟩ => ⟨S4096x1024, .f32⟩
  | .hbm, ⟨23, _⟩ => ⟨S1x4096x1024, .f32⟩
  | .hbm, ⟨24, _⟩ => ⟨S4096x1024, .f32⟩
  | .hbm, ⟨25, _⟩ => ⟨S1x4096x1024, .f32⟩
  | .hbm, ⟨26, _⟩ => ⟨S4096x1024, .f32⟩
  | .hbm, ⟨27, _⟩ => ⟨S1x4096x2048, .bf16⟩
  | .hbm, ⟨28, _⟩ => ⟨S4096x2048, .bf16⟩
  | .hbm, ⟨29, _⟩ => ⟨S1x1x4096, .f32⟩
  | .hbm, ⟨30, _⟩ => ⟨S1x4096, .f32⟩
  | .hbm, ⟨31, _⟩ => ⟨S4096x1024, .f32⟩
  | .hbm, ⟨32, _⟩ => ⟨S4096x1024, .f32⟩
  | .hbm, ⟨33, _⟩ => ⟨S1x4096x1024, .f32⟩
  | .hbm, ⟨34, _⟩ => ⟨S4096x1024, .f32⟩
  | .hbm, ⟨35, _⟩ => ⟨S1x4096x1024, .f32⟩
  | .hbm, ⟨36, _⟩ => ⟨S4096x1024, .f32⟩
  | .hbm, ⟨37, _⟩ => ⟨S1x4096x2048, .bf16⟩
  | .hbm, ⟨38, _⟩ => ⟨S4096x2048, .bf16⟩
  | .hbm, ⟨39, _⟩ => ⟨S1x1x4096, .f32⟩
  | .hbm, ⟨40, _⟩ => ⟨S1x4096, .f32⟩
  | .hbm, ⟨41, _⟩ => ⟨S4096x1024, .f32⟩
  | .hbm, ⟨42, _⟩ => ⟨S4096x1024, .f32⟩
  | .hbm, ⟨43, _⟩ => ⟨S1x4096x1024, .f32⟩
  | .hbm, ⟨44, _⟩ => ⟨S4096x1024, .f32⟩
  | .hbm, ⟨45, _⟩ => ⟨S1x4096x1024, .f32⟩
  | .hbm, ⟨46, _⟩ => ⟨S4096x1024, .f32⟩
  | .hbm, ⟨47, _⟩ => ⟨S1x4096x2048, .bf16⟩
  | .hbm, ⟨48, _⟩ => ⟨S4096x2048, .bf16⟩
  | .hbm, ⟨49, _⟩ => ⟨S1x1x4096, .f32⟩
  | .hbm, ⟨50, _⟩ => ⟨S1x4096, .f32⟩
  | .hbm, ⟨51, _⟩ => ⟨S4096x1024, .f32⟩
  | .hbm, ⟨52, _⟩ => ⟨S4096x1024, .f32⟩
  | .hbm, ⟨53, _⟩ => ⟨S4096x1024x1, .f32⟩
  | .hbm, ⟨54, _⟩ => ⟨S4096x1024x1, .f32⟩
  | .hbm, ⟨55, _⟩ => ⟨S4096x1024x1, .f32⟩
  | .hbm, ⟨56, _⟩ => ⟨S4096x1024x1, .f32⟩
  | .hbm, ⟨57, _⟩ => ⟨S4096x1024x4, .f32⟩
  | .hbm, ⟨58, _⟩ => ⟨S4096x1024x1, .f32⟩
  | .hbm, ⟨59, _⟩ => ⟨S4096x1024x1, .f32⟩
  | .hbm, ⟨60, _⟩ => ⟨S4096x1024x1, .f32⟩
  | .hbm, ⟨61, _⟩ => ⟨S4096x1024x1, .f32⟩
  | .hbm, ⟨62, _⟩ => ⟨S4096x1024x4, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S4096x2048, .bf16⟩
  | .local _ .vmem, ⟨19, _⟩ => ⟨S1x4096, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S4096x2048, .bf16⟩
  | .local _ .vmem, ⟨31, _⟩ => ⟨S1x4096, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S4096x2048, .bf16⟩
  | .local _ .vmem, ⟨43, _⟩ => ⟨S1x4096, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S4096x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S4096x1024x4_S4x4096x1024_2_0_1 : S4096x1024x4.Transposes [2, 0, 1] S4x4096x1024
  concatenates_S4x4096x1024_S4x4096x1024_S4x4096x2048_d2 : Shape.Concatenates [S4x4096x1024, S4x4096x1024] S4x4096x2048 2
  bitsLt_bf16_f32 : FTy.bits .bf16 < FTy.bits .f32
  shapeCasts_S4x4096_S4x1x4096 : S4x4096.ShapeCasts S4x1x4096
  slices_S4x4096x1024_S1x4096x1024_0_0_0 : S4x4096x1024.Slices ![0, 0, 0] S1x4096x1024
  shapeCasts_S1x4096x1024_S4096x1024 : S1x4096x1024.ShapeCasts S4096x1024
  slices_S4x4096x2048_S1x4096x2048_0_0_0 : S4x4096x2048.Slices ![0, 0, 0] S1x4096x2048
  shapeCasts_S1x4096x2048_S4096x2048 : S1x4096x2048.ShapeCasts S4096x2048
  slices_S4x1x4096_S1x1x4096_0_0_0 : S4x1x4096.Slices ![0, 0, 0] S1x1x4096
  shapeCasts_S1x1x4096_S1x4096 : S1x1x4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  concatenates_S256x1024_S256x1024_S256x2048_d1 : Shape.Concatenates [S256x1024, S256x1024] S256x2048 1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  slices_S4x4096x1024_S1x4096x1024_1_0_0 : S4x4096x1024.Slices ![1, 0, 0] S1x4096x1024
  slices_S4x4096x2048_S1x4096x2048_1_0_0 : S4x4096x2048.Slices ![1, 0, 0] S1x4096x2048
  slices_S4x1x4096_S1x1x4096_1_0_0 : S4x1x4096.Slices ![1, 0, 0] S1x1x4096
  slices_S4x4096x1024_S1x4096x1024_2_0_0 : S4x4096x1024.Slices ![2, 0, 0] S1x4096x1024
  slices_S4x4096x2048_S1x4096x2048_2_0_0 : S4x4096x2048.Slices ![2, 0, 0] S1x4096x2048
  slices_S4x1x4096_S1x1x4096_2_0_0 : S4x1x4096.Slices ![2, 0, 0] S1x1x4096
  slices_S4x4096x1024_S1x4096x1024_3_0_0 : S4x4096x1024.Slices ![3, 0, 0] S1x4096x1024
  slices_S4x4096x2048_S1x4096x2048_3_0_0 : S4x4096x2048.Slices ![3, 0, 0] S1x4096x2048
  slices_S4x1x4096_S1x1x4096_3_0_0 : S4x1x4096.Slices ![3, 0, 0] S1x1x4096
  bcast_S4096x1024_S4096x1024x1_0_1 : S4096x1024.BroadcastsInDim S4096x1024x1 (![0, 1] : Fin 2 → Fin S4096x1024x1.rank)
  concatenates_S4096x1024x1_S4096x1024x1_S4096x1024x1_S4096x1024x1_S4096x1024x4_d2 : Shape.Concatenates [S4096x1024x1, S4096x1024x1, S4096x1024x1, S4096x1024x1] S4096x1024x4 2
  dot_S256x2048_S4096x2048_S256x4096_1_1_0_0_n_n_wf : DotDims.WF S256x2048 S4096x2048 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S4096x1024.size a
  hwx1_2 : ∀ i : grid1.Coords, EltTy.bits .f32 = 32 ∨ (Rect.block (s := S4096x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x2048.size a ≤ S4096x2048.size a
  hwx1_3 : ∀ i : grid1.Coords, EltTy.bits .bf16 = 32 ∨ (Rect.block (s := S4096x2048) S4096x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S4096x1024.size a
  hwx1_5 : ∀ i : grid1.Coords, EltTy.bits .f32 = 32 ∨ (Rect.block (s := S4096x1024) S256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S4096x1024.size a
  hwx1_6 : ∀ i : grid1.Coords, EltTy.bits .f32 = 32 ∨ (Rect.block (s := S4096x1024) S256x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .f32 = 32 ∨ (Rect.block (s := S4096x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S4096x1024.size a
  hwx2_2 : ∀ i : grid2.Coords, EltTy.bits .f32 = 32 ∨ (Rect.block (s := S4096x1024) S256x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x2048.size a ≤ S4096x2048.size a
  hwx2_3 : ∀ i : grid2.Coords, EltTy.bits .bf16 = 32 ∨ (Rect.block (s := S4096x2048) S4096x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x4096.size a
  hwx2_4 : ∀ i : grid2.Coords, EltTy.bits .f32 = 32 ∨ (Rect.block (s := S1x4096) S1x4096.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S4096x1024.size a
  hwx2_5 : ∀ i : grid2.Coords, EltTy.bits .f32 = 32 ∨ (Rect.block (s := S4096x1024) S256x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1024.size a ≤ S4096x1024.size a
  hwx2_6 : ∀ i : grid2.Coords, EltTy.bits .f32 = 32 ∨ (Rect.block (s := S4096x1024) S256x1024.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S4096x1024.size a
  hwx3_0 : ∀ i : grid3.Coords, EltTy.bits .f32 = 32 ∨ (Rect.block (s := S4096x1024) S256x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1024.size a ≤ S4096x1024.size a
  hwx3_1 : ∀ i : grid3.Coords, EltTy.bits .f32 = 32 ∨ (Rect.block (s := S4096x1024) S256x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S4096x1024.size a
  hwx3_2 : ∀ i : grid3.Coords, EltTy.bits .f32 = 32 ∨ (Rect.block (s := S4096x1024) S256x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x2048.size a ≤ S4096x2048.size a
  hwx3_3 : ∀ i : grid3.Coords, EltTy.bits .bf16 = 32 ∨ (Rect.block (s := S4096x2048) S4096x2048.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4096.size a ≤ S1x4096.size a
  hwx3_4 : ∀ i : grid3.Coords, EltTy.bits .f32 = 32 ∨ (Rect.block (s := S1x4096) S1x4096.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x1024.size a ≤ S4096x1024.size a
  hwx3_5 : ∀ i : grid3.Coords, EltTy.bits .f32 = 32 ∨ (Rect.block (s := S4096x1024) S256x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x1024.size a ≤ S4096x1024.size a
  hwx3_6 : ∀ i : grid3.Coords, EltTy.bits .f32 = 32 ∨ (Rect.block (s := S4096x1024) S256x1024.size (cc3_transform_6 i) (hinb3_6 i)).WholeWords (EltTy.packing .f32)

variable [Facts₀]

def dot_S256x2048_S4096x2048_S256x4096_1_1_0_0_n_n : DotDims S256x2048 S4096x2048 S256x4096 where
  lhsContracting := [1]
  rhsContracting := [1]
  lhsNonContracting := [0]
  rhsNonContracting := [0]
  lhsBatch := []
  rhsBatch := []
  wf := dot_S256x2048_S4096x2048_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S4096x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23_0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S4096x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32_0) S256x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v32_1) S256x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32_0) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S256x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S256x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38) S4096x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x4096.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41_0) S256x1024.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v41_1) S256x1024.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S4096x1024 : Shape := ⟨2, ![4096, 1024]⟩
abbrev S4096x1024x4 : Shape := ⟨3, ![4096, 1024, 4]⟩
abbrev S4x4096x1024 : Shape := ⟨3, ![4, 4096, 1024]⟩
abbrev S4x4096 : Shape := ⟨2, ![4, 4096]⟩
abbrev S4096x1024x1 : Shape := ⟨3, ![4096, 1024, 1]⟩
abbrev S1x4096x1024 : Shape := ⟨3, ![1, 4096, 1024]⟩
abbrev S1x4096 : Shape := ⟨2, ![1, 4096]⟩
abbrev S4096 : Shape := ⟨1, ![4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 245
  | .vmem => 0
  | .smem => 0
  | _ => 0

abbrev hbmTy0_0 (i : Nat) : BufTy := match i % 128 with
  | 0 => ⟨S4096x1024, .f32⟩
  | 1 => ⟨S4096x1024x4, .f32⟩
  | 2 => ⟨S4096x1024x4, .f32⟩
  | 3 => ⟨S4x4096x1024, .f32⟩
  | 4 => ⟨S4x4096x1024, .f32⟩
  | 5 => ⟨S4x4096, .f32⟩
  | 6 => ⟨S4x4096, .f32⟩
  | 7 => ⟨S4096x1024x1, .f32⟩
  | 8 => ⟨S4096x1024, .f32⟩
  | 9 => ⟨S4096x1024x1, .f32⟩
  | 10 => ⟨S4096x1024, .f32⟩
  | 11 => ⟨S1x4096x1024, .f32⟩
  | 12 => ⟨S4096x1024, .f32⟩
  | 13 => ⟨S1x4096x1024, .f32⟩
  | 14 => ⟨S4096x1024, .f32⟩
  | 15 => ⟨S1x4096, .f32⟩
  | 16 => ⟨S4096, .f32⟩
  | 17 => ⟨S1x4096, .f32⟩
  | 18 => ⟨S4096, .f32⟩
  | 19 => ⟨S1024x4096, .f32⟩
  | 20 => ⟨S4096x4096, .f32⟩
  | 21 => ⟨S1x4096, .f32⟩
  | 22 => ⟨S4096x4096, .f32⟩
  | 23 => ⟨S4096x4096, .f32⟩
  | 24 => ⟨S1024x4096, .f32⟩
  | 25 => ⟨S4096x4096, .f32⟩
  | 26 => ⟨S4096x4096, .f32⟩
  | 27 => ⟨S1x4096, .f32⟩
  | 28 => ⟨S4096x4096, .f32⟩
  | 29 => ⟨S4096x4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024x1, .f32⟩
  | 65 => ⟨S4096x1024, .f32⟩
  | 66 => ⟨S4096x1024x1, .f32⟩
  | 67 => ⟨S4096x1024, .f32⟩
  | 68 => ⟨S1x4096x1024, .f32⟩
  | 69 => ⟨S4096x1024, .f32⟩
  | 70 => ⟨S1x4096x1024, .f32⟩
  | 71 => ⟨S4096x1024, .f32⟩
  | 72 => ⟨S1x4096, .f32⟩
  | 73 => ⟨S4096, .f32⟩
  | 74 => ⟨S1x4096, .f32⟩
  | 75 => ⟨S4096, .f32⟩
  | 76 => ⟨S1024x4096, .f32⟩
  | 77 => ⟨S4096x4096, .f32⟩
  | 78 => ⟨S1x4096, .f32⟩
  | 79 => ⟨S4096x4096, .f32⟩
  | 80 => ⟨S4096x4096, .f32⟩
  | 81 => ⟨S1024x4096, .f32⟩
  | 82 => ⟨S4096x4096, .f32⟩
  | 83 => ⟨S4096x4096, .f32⟩
  | 84 => ⟨S1x4096, .f32⟩
  | 85 => ⟨S4096x4096, .f32⟩
  | 86 => ⟨S4096x4096, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024x1, .f32⟩
  | 122 => ⟨S4096x1024, .f32⟩
  | 123 => ⟨S4096x1024x1, .f32⟩
  | 124 => ⟨S4096x1024, .f32⟩
  | 125 => ⟨S1x4096x1024, .f32⟩
  | 126 => ⟨S4096x1024, .f32⟩
  | 127 => ⟨S1x4096x1024, .f32⟩
  | _ => ⟨S4096x1024, .f32⟩

abbrev hbmTy0_1 (i : Nat) : BufTy := match i % 128 with
  | 0 => ⟨S4096x1024, .f32⟩
  | 1 => ⟨S1x4096, .f32⟩
  | 2 => ⟨S4096, .f32⟩
  | 3 => ⟨S1x4096, .f32⟩
  | 4 => ⟨S4096, .f32⟩
  | 5 => ⟨S1024x4096, .f32⟩
  | 6 => ⟨S4096x4096, .f32⟩
  | 7 => ⟨S1x4096, .f32⟩
  | 8 => ⟨S4096x4096, .f32⟩
  | 9 => ⟨S4096x4096, .f32⟩
  | 10 => ⟨S1024x4096, .f32⟩
  | 11 => ⟨S4096x4096, .f32⟩
  | 12 => ⟨S4096x4096, .f32⟩
  | 13 => ⟨S1x4096, .f32⟩
  | 14 => ⟨S4096x4096, .f32⟩
  | 15 => ⟨S4096x4096, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024x1, .f32⟩
  | 51 => ⟨S4096x1024, .f32⟩
  | 52 => ⟨S4096x1024x1, .f32⟩
  | 53 => ⟨S4096x1024, .f32⟩
  | 54 => ⟨S1x4096x1024, .f32⟩
  | 55 => ⟨S4096x1024, .f32⟩
  | 56 => ⟨S1x4096x1024, .f32⟩
  | 57 => ⟨S4096x1024, .f32⟩
  | 58 => ⟨S1x4096, .f32⟩
  | 59 => ⟨S4096, .f32⟩
  | 60 => ⟨S1x4096, .f32⟩
  | 61 => ⟨S4096, .f32⟩
  | 62 => ⟨S1024x4096, .f32⟩
  | 63 => ⟨S4096x4096, .f32⟩
  | 64 => ⟨S1x4096, .f32⟩
  | 65 => ⟨S4096x4096, .f32⟩
  | 66 => ⟨S4096x4096, .f32⟩
  | 67 => ⟨S1024x4096, .f32⟩
  | 68 => ⟨S4096x4096, .f32⟩
  | 69 => ⟨S4096x4096, .f32⟩
  | 70 => ⟨S1x4096, .f32⟩
  | 71 => ⟨S4096x4096, .f32⟩
  | 72 => ⟨S4096x4096, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024x1, .f32⟩
  | 108 => ⟨S4096x1024x1, .f32⟩
  | 109 => ⟨S4096x1024x1, .f32⟩
  | 110 => ⟨S4096x1024x1, .f32⟩
  | 111 => ⟨S4096x1024x4, .f32⟩
  | 112 => ⟨S4096x1024x1, .f32⟩
  | 113 => ⟨S4096x1024x1, .f32⟩
  | 114 => ⟨S4096x1024x1, .f32⟩
  | 115 => ⟨S4096x1024x1, .f32⟩
  | 116 => ⟨S4096x1024x4, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_5 : Ref sig .tc := ⟨.hbm, 93, rfl⟩
abbrev main_v80 : Ref sig .tc := ⟨.hbm, 94, rfl⟩
abbrev main_v81 : Ref sig .tc := ⟨.hbm, 95, rfl⟩
abbrev main_cst_6 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_7 : Ref sig .tc := ⟨.hbm, 101, rfl⟩
abbrev main_v86 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_9 : Ref sig .tc := ⟨.hbm, 110, rfl⟩
abbrev main_v93 : Ref sig .tc := ⟨.hbm, 111, rfl⟩
abbrev main_v94 : Ref sig .tc := ⟨.hbm, 112, rfl⟩
abbrev main_cst_10 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_11 : Ref sig .tc := ⟨.hbm, 150, rfl⟩
abbrev main_v131 : Ref sig .tc := ⟨.hbm, 151, rfl⟩
abbrev main_v132 : Ref sig .tc := ⟨.hbm, 152, rfl⟩
abbrev main_cst_12 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_13 : Ref sig .tc := ⟨.hbm, 158, rfl⟩
abbrev main_v137 : Ref sig .tc := ⟨.hbm, 159, rfl⟩
abbrev main_v138 : Ref sig .tc := ⟨.hbm, 160, rfl⟩
abbrev main_cst_14 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_cst_16 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_cst_17 : Ref sig .tc := ⟨.hbm, 207, rfl⟩
abbrev main_v182 : Ref sig .tc := ⟨.hbm, 208, rfl⟩
abbrev main_v183 : Ref sig .tc := ⟨.hbm, 209, rfl⟩
abbrev main_cst_18 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_cst_19 : Ref sig .tc := ⟨.hbm, 215, rfl⟩
abbrev main_v188 : Ref sig .tc := ⟨.hbm, 216, rfl⟩
abbrev main_v189 : Ref sig .tc := ⟨.hbm, 217, rfl⟩
abbrev main_cst_20 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_cst_21 : Ref sig .tc := ⟨.hbm, 224, rfl⟩
abbrev main_v195 : Ref sig .tc := ⟨.hbm, 225, rfl⟩
abbrev main_v196 : Ref sig .tc := ⟨.hbm, 226, rfl⟩
abbrev main_cst_22 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩

abbrev nD : Nat := 1
abbrev τ : Topo := Topo.v7x

variable {F : FTy → Type} [FloatOps F]

class Facts₀ : Prop where
  slices_S4096x1024x4_S4096x1024x1_0_0_0 : S4096x1024x4.Slices ![0, 0, 0] S4096x1024x1
  shapeCasts_S4096x1024x1_S4096x1024 : S4096x1024x1.ShapeCasts S4096x1024
  slices_S4x4096x1024_S1x4096x1024_0_0_0 : S4x4096x1024.Slices ![0, 0, 0] S1x4096x1024
  shapeCasts_S1x4096x1024_S4096x1024 : S1x4096x1024.ShapeCasts S4096x1024
  slices_S4x4096_S1x4096_0_0 : S4x4096.Slices ![0, 0] S1x4096
  shapeCasts_S1x4096_S4096 : S1x4096.ShapeCasts S4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  slices_S4096x1024x4_S4096x1024x1_0_0_1 : S4096x1024x4.Slices ![0, 0, 1] S4096x1024x1
  slices_S4x4096x1024_S1x4096x1024_1_0_0 : S4x4096x1024.Slices ![1, 0, 0] S1x4096x1024
  slices_S4x4096_S1x4096_1_0 : S4x4096.Slices ![1, 0] S1x4096
  slices_S4096x1024x4_S4096x1024x1_0_0_2 : S4096x1024x4.Slices ![0, 0, 2] S4096x1024x1
  slices_S4x4096x1024_S1x4096x1024_2_0_0 : S4x4096x1024.Slices ![2, 0, 0] S1x4096x1024
  slices_S4x4096_S1x4096_2_0 : S4x4096.Slices ![2, 0] S1x4096
  slices_S4096x1024x4_S4096x1024x1_0_0_3 : S4096x1024x4.Slices ![0, 0, 3] S4096x1024x1
  slices_S4x4096x1024_S1x4096x1024_3_0_0 : S4x4096x1024.Slices ![3, 0, 0] S1x4096x1024
  slices_S4x4096_S1x4096_3_0 : S4x4096.Slices ![3, 0] S1x4096
  bcast_S4096x1024_S4096x1024x1_0_1 : S4096x1024.BroadcastsInDim S4096x1024x1 (![0, 1] : Fin 2 → Fin S4096x1024x1.rank)
  concatenates_S4096x1024x1_S4096x1024x1_S4096x1024x1_S4096x1024x1_S4096x1024x4_d2 : Shape.Concatenates [S4096x1024x1, S4096x1024x1, S4096x1024x1, S4096x1024x1] S4096x1024x4 2
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KRegion0.lean ====
import proofs.«163532_j60825326846606_2_alg».proof.Proof.Gen.Kernel.Launch
import proofs.«163532_j60825326846606_2_alg».proof.Proof.Gen.Kernel.Skeleton
import proofs.«163532_j60825326846606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 0 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether that point fetched it or the
    index stayed where an earlier point left it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether that point fetched it or the
    index stayed where an earlier point left it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether that point fetched it or the
    index stayed where an earlier point left it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether that point fetched it or the
    index stayed where an earlier point left it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether that point fetched it or the
    index stayed where an earlier point left it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 1024 tile, the whole weight and the whole bias row: the three rectangles the body reads and writes. -/
abbrev ra0 : Rect S256x1024 := Rect.unit (s := S256x1024) ![0, 0] S256x1024.size inb_S256x1024_S256x1024_0_0
abbrev rw0 : Rect S4096x2048 := Rect.unit (s := S4096x2048) ![0, 0] S4096x2048.size inb_S4096x2048_S4096x2048_0_0
abbrev rb0 : Rect S1x4096 := Rect.unit (s := S1x4096) ![0, 0] S1x4096.size inb_S1x4096_S1x4096_0_0

/-- The new hidden-state tile: `o · tanh c'`, stored whole. -/
def out0_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra0, k0_pay3 (View.ld x0 ra0) (View.ld x1 ra0) (View.ld x3 rw0) (View.ld x4 rb0) (View.ld x2 ra0)⟩]

/-- The new cell-state tile: `f · c + i · g`, stored whole. -/
def out0_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra0, k0_pay2 (View.ld x0 ra0) (View.ld x1 ra0) (View.ld x3 rw0) (View.ld x4 rb0) (View.ld x2 ra0)⟩]

/-- One store of the whole tile covers the tile. -/
theorem cover0 (p0 : Vec F S256x1024 .f32) (y : S256x1024.Idx) :
    ∃ pc ∈ ([⟨ra0, p0⟩] : List (View.Piece (Elt F) S256x1024 .f32)), y ∈ pc.1.set :=
  View.cover_of_tiled [⟨ra0, p0⟩] S256x1024.size (by rfl) y

set_option maxHeartbeats 1000000 in
/-- The body, given the five input tiles in its first five buffers and anything in the last two, ends with the inputs
    in place and the two outputs at `out0_5` and `out0_6` of the inputs. -/
theorem sound_kernel0 (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lstm_cell_kernel i arg1 harg1 arg2 harg2 arg3 harg3 arg4 harg4 arg5 harg5 arg6 harg6 arg7 harg7) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The layer's pipeline on core `c`: its arrays as the layer finds them; after the body at a point each input's
    buffer still at its tile and each output's at its function of the input tiles; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: its input buffers hold their tiles, so `sound_kernel0` applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation0 (c : Dev nD) : BodyObligation (dat0 (F := F) V c) (defs₀ (F := F)) Variants.none () Set.univ := fun t => by
  rw [bigSep_W0, bigSep_W0]
  exact sound_body0 V c t

end Cert.Kernel.Lstm

end
-- ==== Proof.KRegion1.lean ====
import proofs.«163532_j60825326846606_2_alg».proof.Proof.Gen.Kernel.Launch
import proofs.«163532_j60825326846606_2_alg».proof.Proof.Gen.Kernel.Skeleton
import proofs.«163532_j60825326846606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 1 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether that point fetched it or the
    index stayed where an earlier point left it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether that point fetched it or the
    index stayed where an earlier point left it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether that point fetched it or the
    index stayed where an earlier point left it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether that point fetched it or the
    index stayed where an earlier point left it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether that point fetched it or the
    index stayed where an earlier point left it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 256 × 1024 tile, the whole weight and the whole bias row: the three rectangles the body reads and writes. -/
abbrev ra1 : Rect S256x1024 := Rect.unit (s := S256x1024) ![0, 0] S256x1024.size inb_S256x1024_S256x1024_0_0
abbrev rw1 : Rect S4096x2048 := Rect.unit (s := S4096x2048) ![0, 0] S4096x2048.size inb_S4096x2048_S4096x2048_0_0
abbrev rb1 : Rect S1x4096 := Rect.unit (s := S1x4096) ![0, 0] S1x4096.size inb_S1x4096_S1x4096_0_0

/-- The new hidden-state tile: `o · tanh c'`, stored whole. -/
def out1_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra1, k1_pay3 (View.ld x0 ra1) (View.ld x1 ra1) (View.ld x3 rw1) (View.ld x4 rb1) (View.ld x2 ra1)⟩]

/-- The new cell-state tile: `f · c + i · g`, stored whole. -/
def out1_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra1, k1_pay2 (View.ld x0 ra1) (View.ld x1 ra1) (View.ld x3 rw1) (View.ld x4 rb1) (View.ld x2 ra1)⟩]

/-- One store of the whole tile covers the tile. -/
theorem cover1 (p0 : Vec F S256x1024 .f32) (y : S256x1024.Idx) :
    ∃ pc ∈ ([⟨ra1, p0⟩] : List (View.Piece (Elt F) S256x1024 .f32)), y ∈ pc.1.set :=
  View.cover_of_tiled [⟨ra1, p0⟩] S256x1024.size (by rfl) y

set_option maxHeartbeats 1000000 in
/-- The body, given the five input tiles in its first five buffers and anything in the last two, ends with the inputs
    in place and the two outputs at `out1_5` and `out1_6` of the inputs. -/
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__lstm_cell_kernel i arg1 harg1 arg2 harg2 arg3 harg3 arg4 harg4 arg5 harg5 arg6 harg6 arg7 harg7) K := by
  simp only [cc1__lstm_cell_kernel_eq_skeleton]; unfold cc1__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  iexists _; isplitr
  swap; · iexact H6
  ipureintro
  exact View.read_writes_eq_canon _ _ _ (cover1 _)

/-- The layer's pipeline on core `c`: its arrays as the layer finds them; after the body at a point each input's
    buffer still at its tile and each output's at its function of the input tiles; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: its input buffers hold their tiles, so `sound_kernel1` applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation1 (c : Dev nD) : BodyObligation (dat1 (F := F) V c) (defs₀ (F := F)) Variants.none () Set.univ := fun t => by
  rw [bigSep_W1, bigSep_W1]
  exact sound_body1 V c t

end Cert.Kernel.Lstm

end
-- ==== Proof.KRegion2.lean ====
import proofs.«163532_j60825326846606_2_alg».proof.Proof.Gen.Kernel.Launch
import proofs.«163532_j60825326846606_2_alg».proof.Proof.Gen.Kernel.Skeleton
import proofs.«163532_j60825326846606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 2 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether that point fetched it or the
    index stayed where an earlier point left it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether that point fetched it or the
    index stayed where an earlier point left it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether that point fetched it or the
    index stayed where an earlier point left it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether that point fetched it or the
    index stayed where an earlier point left it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether that point fetched it or the
    index stayed where an earlier point left it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole 256 × 1024 tile, the whole weight and the whole bias row: the three rectangles the body reads and writes. -/
abbrev ra2 : Rect S256x1024 := Rect.unit (s := S256x1024) ![0, 0] S256x1024.size inb_S256x1024_S256x1024_0_0
abbrev rw2 : Rect S4096x2048 := Rect.unit (s := S4096x2048) ![0, 0] S4096x2048.size inb_S4096x2048_S4096x2048_0_0
abbrev rb2 : Rect S1x4096 := Rect.unit (s := S1x4096) ![0, 0] S1x4096.size inb_S1x4096_S1x4096_0_0

/-- The new hidden-state tile: `o · tanh c'`, stored whole. -/
def out2_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra2, k2_pay3 (View.ld x0 ra2) (View.ld x1 ra2) (View.ld x3 rw2) (View.ld x4 rb2) (View.ld x2 ra2)⟩]

/-- The new cell-state tile: `f · c + i · g`, stored whole. -/
def out2_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra2, k2_pay2 (View.ld x0 ra2) (View.ld x1 ra2) (View.ld x3 rw2) (View.ld x4 rb2) (View.ld x2 ra2)⟩]

/-- One store of the whole tile covers the tile. -/
theorem cover2 (p0 : Vec F S256x1024 .f32) (y : S256x1024.Idx) :
    ∃ pc ∈ ([⟨ra2, p0⟩] : List (View.Piece (Elt F) S256x1024 .f32)), y ∈ pc.1.set :=
  View.cover_of_tiled [⟨ra2, p0⟩] S256x1024.size (by rfl) y

set_option maxHeartbeats 1000000 in
/-- The body, given the five input tiles in its first five buffers and anything in the last two, ends with the inputs
    in place and the two outputs at `out2_5` and `out2_6` of the inputs. -/
theorem sound_kernel2 (c : Dev nD) (E : Set ℕ) (i : grid2.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4) ∗ owns (c : Thread nD τ) arg7 fullShare (out2_6 x0 x1 x2 x3 x4)) -∗ K ⟨⟩))
      ⊢ wp frame (wpE (defs₀ (F := F)) Variants.none c none) E (cc2__lstm_cell_kernel i arg1 harg1 arg2 harg2 arg3 harg3 arg4 harg4 arg5 harg5 arg6 harg6 arg7 harg7) K := by
  simp only [cc2__lstm_cell_kernel_eq_skeleton]; unfold cc2__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  iexists _; isplitr
  swap; · iexact H6
  ipureintro
  exact View.read_writes_eq_canon _ _ _ (cover2 _)

/-- The layer's pipeline on core `c`: its arrays as the layer finds them; after the body at a point each input's
    buffer still at its tile and each output's at its function of the input tiles; nothing else held, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: its input buffers hold their tiles, so `sound_kernel2` applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation2 (c : Dev nD) : BodyObligation (dat2 (F := F) V c) (defs₀ (F := F)) Variants.none () Set.univ := fun t => by
  rw [bigSep_W2, bigSep_W2]
  exact sound_body2 V c t

end Cert.Kernel.Lstm

end
-- ==== Proof.KRegion3.lean ====
import proofs.«163532_j60825326846606_2_alg».proof.Proof.Gen.Kernel.Launch
import proofs.«163532_j60825326846606_2_alg».proof.Proof.Gen.Kernel.Skeleton
import proofs.«163532_j60825326846606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 3 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether that point fetched it or the
    index stayed where an earlier point left it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether that point fetched it or the
    index stayed where an earlier point left it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether that point fetched it or the
    index stayed where an earlier point left it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether that point fetched it or the
    index stayed where an earlier point left it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether that point fetched it or the
    index stayed where an earlier point left it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 256 × 1024 tile, the whole weight and the whole bias row: the three rectangles the body reads and writes. -/
abbrev ra3 : Rect S256x1024 := Rect.unit (s := S256x1024) ![0, 0] S256x1024.size inb_S256x1024_S256x1024_0_0
abbrev rw3 : Rect S4096x2048 := Rect.unit (s := S4096x2048) ![0, 0] S4096x2048.size inb_S4096x2048_S4096x2048_0_0
abbrev rb3 : Rect S1x4096 := Rect.unit (s := S1x4096) ![0, 0] S1x4096.size inb_S1x4096_S1x4096_0_0

/-- The new hidden-state tile: `o · tanh c'`, stored whole. -/
def out3_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra3, k3_pay3 (View.ld x0 ra3) (View.ld x1 ra3) (View.ld x3 rw3) (View.ld x4 rb3) (View.ld x2 ra3)⟩]

/-- The new cell-state tile: `f · c + i · g`, stored whole. -/
def out3_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra3, k3_pay2 (View.ld x0 ra3) (View.ld x1 ra3) (View.ld x3 rw3) (View.ld x4 rb3) (View.ld x2 ra3)⟩]

/-- One store of the whole tile covers the tile. -/
theorem cover3 (p0 : Vec F S256x1024 .f32) (y : S256x1024.Idx) :
    ∃ pc ∈ ([⟨ra3, p0⟩] : List (View.Piece (Elt F) S256x1024 .f32)), y ∈ pc.1.set :=
  View.cover_of_tiled [⟨ra3, p0⟩] S256x1024.size (by rfl) y

set_option maxHeartbeats 1000000 in
/-- The body, given the five input tiles in its first five buffers and anything in the last two, ends with the inputs
    in place and the two outputs at `out3_5` and `out3_6` of the inputs. -/
theorem sound_kernel3 (c : Dev nD) (E : Set ℕ) (i : grid3.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3__lstm_cell_kernel i arg1 harg1 arg2 harg2 arg3 harg3 arg4 harg4 arg5 harg5 arg6 harg6 arg7 harg7) K := by
  simp only [cc3__lstm_cell_kernel_eq_skeleton]; unfold cc3__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3 _)
  iexists _; isplitr
  swap; · iexact H6
  ipureintro
  exact View.read_writes_eq_canon _ _ _ (cover3 _)

/-- The layer's pipeline on core `c`: its arrays as the layer finds them; after the body at a point each input's
    buffer still at its tile and each output's at its function of the input tiles; nothing else held, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: its input buffers hold their tiles, so `sound_kernel3` applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation3 (c : Dev nD) : BodyObligation (dat3 (F := F) V c) (defs₀ (F := F)) Variants.none () Set.univ := fun t => by
  rw [bigSep_W3, bigSep_W3]
  exact sound_body3 V c t

end Cert.Kernel.Lstm

end
-- ==== Proof.KRun.lean ====
import proofs.«163532_j60825326846606_2_alg».proof.Proof.KRegion0
import proofs.«163532_j60825326846606_2_alg».proof.Proof.KRegion1
import proofs.«163532_j60825326846606_2_alg».proof.Proof.KRegion2
import proofs.«163532_j60825326846606_2_alg».proof.Proof.KRegion3
import proofs.«163532_j60825326846606_2_alg».proof.Proof.Gen.Kernel.Regions

/-!
# The whole program: host operations, layer 0, host operations, …, layer 3, host operations

The buffers' contents at each of the ten boundaries between the nine stretches of the program are named by folding
through it from the launch memory: a stretch of host operations applies them; a layer leaves its two output arrays at
what its sixteen tiles wrote back and everything else as entered. Every weakly fair execution terminates, faulting
nowhere, with every unscoped buffer at the last boundary's contents; no stretch writes an argument, so each argument
ends as launched. Stated at any float instance.
-/

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev Bd0 : Dev nD → Valuation τ sig (Elt F) := fun c b => (s₀ m ρ).mem ((c : Dev nD), b)

/-- After the host operations that prepare layer 0 (its entry contents). -/
abbrev Bd1 : Dev nD → Valuation τ sig (Elt F) := fun c => StableHlo.after hostOps0 (Bd0 m ρ c)
abbrev Vt1 : (c : Dev nD) → (b : Ref sig .tc) → Buf (Elt F) ((c : Thread nD τ).loc b) := fun c b => Bd1 m ρ c b
/-- At layer 0's exit: its arrays at what its pipeline leaves (each input as entered, each output the tiles written
    back), every other buffer as entered. -/
def Bd2 (c : Dev nD) : Valuation τ sig (Elt F) :=
  Pipeline.withArrays spec0 c (Bd1 m ρ c) fun w => (dat0 (Vt1 m ρ) c).arrAt w cfg0.N
theorem Bd2_arr (c : Dev nD) (w : Fin cfg0.W) :
    Bd2 m ρ c (Proc.devRef .tc (Pipeline.arrRef spec0 w)) = (dat0 (Vt1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Vx2 : (c : Dev nD) → (b : Ref sig .tc) → Buf (Elt F) ((c : Thread nD τ).loc b) := fun c b => Bd2 m ρ c b
theorem hF0 (c : Dev nD) (w : Fin cfg0.W) : (dat0 (Vt1 m ρ) c).arrAt w cfg0.N = Vx2 m ρ c (Pipeline.arrRef spec0 w) :=
  (Bd2_arr m ρ c w).symm
theorem hrest0 (c : Dev nD) : ∀ b, b ∉ Finset.univ.image (Pipeline.arrRef spec0) → Vx2 m ρ c b = Vt1 m ρ c b :=
  fun b hb => Bd2_of_ne m ρ c b fun w e => hb (Finset.mem_image.mpr ⟨w, Finset.mem_univ _, e⟩)
/-- A host stretch leaves every buffer it does not write. -/
theorem Bd1_keep (c : Dev nD) (r : Ref sig .tc) (h : r ∉ hostOps0_W) : Bd1 m ρ c r = Bd0 m ρ c r :=
  StableHlo.after_of_writes_sub hostOps0 _ hostOps0_writes h

/-- After the host operations that prepare layer 1 (its entry contents). -/
abbrev Bd3 : Dev nD → Valuation τ sig (Elt F) := fun c => StableHlo.after hostOps1 (Bd2 m ρ c)
abbrev Vt3 : (c : Dev nD) → (b : Ref sig .tc) → Buf (Elt F) ((c : Thread nD τ).loc b) := fun c b => Bd3 m ρ c b
/-- At layer 1's exit: its arrays at what its pipeline leaves (each input as entered, each output the tiles written
    back), every other buffer as entered. -/
def Bd4 (c : Dev nD) : Valuation τ sig (Elt F) :=
  Pipeline.withArrays spec1 c (Bd3 m ρ c) fun w => (dat1 (Vt3 m ρ) c).arrAt w cfg1.N
theorem Bd4_arr (c : Dev nD) (w : Fin cfg1.W) :
    Bd4 m ρ c (Proc.devRef .tc (Pipeline.arrRef spec1 w)) = (dat1 (Vt3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Vx4 : (c : Dev nD) → (b : Ref sig .tc) → Buf (Elt F) ((c : Thread nD τ).loc b) := fun c b => Bd4 m ρ c b
theorem hF1 (c : Dev nD) (w : Fin cfg1.W) : (dat1 (Vt3 m ρ) c).arrAt w cfg1.N = Vx4 m ρ c (Pipeline.arrRef spec1 w) :=
  (Bd4_arr m ρ c w).symm
theorem hrest1 (c : Dev nD) : ∀ b, b ∉ Finset.univ.image (Pipeline.arrRef spec1) → Vx4 m ρ c b = Vt3 m ρ c b :=
  fun b hb => Bd4_of_ne m ρ c b fun w e => hb (Finset.mem_image.mpr ⟨w, Finset.mem_univ _, e⟩)
/-- A host stretch leaves every buffer it does not write. -/
theorem Bd3_keep (c : Dev nD) (r : Ref sig .tc) (h : r ∉ hostOps1_W) : Bd3 m ρ c r = Bd2 m ρ c r :=
  StableHlo.after_of_writes_sub hostOps1 _ hostOps1_writes h

/-- After the host operations that prepare layer 2 (its entry contents). -/
abbrev Bd5 : Dev nD → Valuation τ sig (Elt F) := fun c => StableHlo.after hostOps2 (Bd4 m ρ c)
abbrev Vt5 : (c : Dev nD) → (b : Ref sig .tc) → Buf (Elt F) ((c : Thread nD τ).loc b) := fun c b => Bd5 m ρ c b
/-- At layer 2's exit: its arrays at what its pipeline leaves (each input as entered, each output the tiles written
    back), every other buffer as entered. -/
def Bd6 (c : Dev nD) : Valuation τ sig (Elt F) :=
  Pipeline.withArrays spec2 c (Bd5 m ρ c) fun w => (dat2 (Vt5 m ρ) c).arrAt w cfg2.N
theorem Bd6_arr (c : Dev nD) (w : Fin cfg2.W) :
    Bd6 m ρ c (Proc.devRef .tc (Pipeline.arrRef spec2 w)) = (dat2 (Vt5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Vx6 : (c : Dev nD) → (b : Ref sig .tc) → Buf (Elt F) ((c : Thread nD τ).loc b) := fun c b => Bd6 m ρ c b
theorem hF2 (c : Dev nD) (w : Fin cfg2.W) : (dat2 (Vt5 m ρ) c).arrAt w cfg2.N = Vx6 m ρ c (Pipeline.arrRef spec2 w) :=
  (Bd6_arr m ρ c w).symm
theorem hrest2 (c : Dev nD) : ∀ b, b ∉ Finset.univ.image (Pipeline.arrRef spec2) → Vx6 m ρ c b = Vt5 m ρ c b :=
  fun b hb => Bd6_of_ne m ρ c b fun w e => hb (Finset.mem_image.mpr ⟨w, Finset.mem_univ _, e⟩)
/-- A host stretch leaves every buffer it does not write. -/
theorem Bd5_keep (c : Dev nD) (r : Ref sig .tc) (h : r ∉ hostOps2_W) : Bd5 m ρ c r = Bd4 m ρ c r :=
  StableHlo.after_of_writes_sub hostOps2 _ hostOps2_writes h

/-- After the host operations that prepare layer 3 (its entry contents). -/
abbrev Bd7 : Dev nD → Valuation τ sig (Elt F) := fun c => StableHlo.after hostOps3 (Bd6 m ρ c)
abbrev Vt7 : (c : Dev nD) → (b : Ref sig .tc) → Buf (Elt F) ((c : Thread nD τ).loc b) := fun c b => Bd7 m ρ c b
/-- At layer 3's exit: its arrays at what its pipeline leaves (each input as entered, each output the tiles written
    back), every other buffer as entered. -/
def Bd8 (c : Dev nD) : Valuation τ sig (Elt F) :=
  Pipeline.withArrays spec3 c (Bd7 m ρ c) fun w => (dat3 (Vt7 m ρ) c).arrAt w cfg3.N
theorem Bd8_arr (c : Dev nD) (w : Fin cfg3.W) :
    Bd8 m ρ c (Proc.devRef .tc (Pipeline.arrRef spec3 w)) = (dat3 (Vt7 m ρ) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m ρ c (Proc.devRef .tc b) = Bd7 m ρ c (Proc.devRef .tc b) := by
  unfold Bd8; exact Pipeline.withArrays_of_ne spec3 c _ _ b hb
abbrev Vx8 : (c : Dev nD) → (b : Ref sig .tc) → Buf (Elt F) ((c : Thread nD τ).loc b) := fun c b => Bd8 m ρ c b
theorem hF3 (c : Dev nD) (w : Fin cfg3.W) : (dat3 (Vt7 m ρ) c).arrAt w cfg3.N = Vx8 m ρ c (Pipeline.arrRef spec3 w) :=
  (Bd8_arr m ρ c w).symm
theorem hrest3 (c : Dev nD) : ∀ b, b ∉ Finset.univ.image (Pipeline.arrRef spec3) → Vx8 m ρ c b = Vt7 m ρ c b :=
  fun b hb => Bd8_of_ne m ρ c b fun w e => hb (Finset.mem_image.mpr ⟨w, Finset.mem_univ _, e⟩)
/-- A host stretch leaves every buffer it does not write. -/
theorem Bd7_keep (c : Dev nD) (r : Ref sig .tc) (h : r ∉ hostOps3_W) : Bd7 m ρ c r = Bd6 m ρ c r :=
  StableHlo.after_of_writes_sub hostOps3 _ hostOps3_writes h

/-- After the closing host operations, which stack the four layers' states: the final contents. -/
abbrev Bd9 : Dev nD → Valuation τ sig (Elt F) := fun c => StableHlo.after hostOps4 (Bd8 m ρ c)
theorem Bd9_keep (c : Dev nD) (r : Ref sig .tc) (h : r ∉ hostOps4_W) : Bd9 m ρ c r = Bd8 m ρ c r :=
  StableHlo.after_of_writes_sub hostOps4 _ hostOps4_writes h

/-! ## Each argument ends as launched -/

theorem Bd9_main_arg0 (c : Dev nD) : Bd9 m ρ c (Proc.devRef .tc main_arg0) = m ((c : Thread nD τ).loc main_arg0) :=
  calc Bd9 m ρ c (Proc.devRef .tc main_arg0)
    _ = Bd8 m ρ c (Proc.devRef .tc main_arg0) := Bd9_keep m ρ c main_arg0 (by decide)
    _ = Bd7 m ρ c (Proc.devRef .tc main_arg0) := Bd8_of_ne m ρ c main_arg0 (by decide)
    _ = Bd6 m ρ c (Proc.devRef .tc main_arg0) := Bd7_keep m ρ c main_arg0 (by decide)
    _ = Bd5 m ρ c (Proc.devRef .tc main_arg0) := Bd6_of_ne m ρ c main_arg0 (by decide)
    _ = Bd4 m ρ c (Proc.devRef .tc main_arg0) := Bd5_keep m ρ c main_arg0 (by decide)
    _ = Bd3 m ρ c (Proc.devRef .tc main_arg0) := Bd4_of_ne m ρ c main_arg0 (by decide)
    _ = Bd2 m ρ c (Proc.devRef .tc main_arg0) := Bd3_keep m ρ c main_arg0 (by decide)
    _ = Bd1 m ρ c (Proc.devRef .tc main_arg0) := (Bd2_arr m ρ c 0).trans (((dat0 (Vt1 m ρ) c).arrAt_in 0 rfl _).trans (A_eq0 (Vt1 m ρ) c 0))
    _ = Bd0 m ρ c (Proc.devRef .tc main_arg0) := Bd1_keep m ρ c main_arg0 (by decide)
    _ = m ((c : Thread nD τ).loc main_arg0) := rfl
theorem Bd9_main_arg1 (c : Dev nD) : Bd9 m ρ c (Proc.devRef .tc main_arg1) = m ((c : Thread nD τ).loc main_arg1) :=
  calc Bd9 m ρ c (Proc.devRef .tc main_arg1)
    _ = Bd8 m ρ c (Proc.devRef .tc main_arg1) := Bd9_keep m ρ c main_arg1 (by decide)
    _ = Bd7 m ρ c (Proc.devRef .tc main_arg1) := Bd8_of_ne m ρ c main_arg1 (by decide)
    _ = Bd6 m ρ c (Proc.devRef .tc main_arg1) := Bd7_keep m ρ c main_arg1 (by decide)
    _ = Bd5 m ρ c (Proc.devRef .tc main_arg1) := Bd6_of_ne m ρ c main_arg1 (by decide)
    _ = Bd4 m ρ c (Proc.devRef .tc main_arg1) := Bd5_keep m ρ c main_arg1 (by decide)
    _ = Bd3 m ρ c (Proc.devRef .tc main_arg1) := Bd4_of_ne m ρ c main_arg1 (by decide)
    _ = Bd2 m ρ c (Proc.devRef .tc main_arg1) := Bd3_keep m ρ c main_arg1 (by decide)
    _ = Bd1 m ρ c (Proc.devRef .tc main_arg1) := Bd2_of_ne m ρ c main_arg1 (by decide)
    _ = Bd0 m ρ c (Proc.devRef .tc main_arg1) := Bd1_keep m ρ c main_arg1 (by decide)
    _ = m ((c : Thread nD τ).loc main_arg1) := rfl
theorem Bd9_main_arg2 (c : Dev nD) : Bd9 m ρ c (Proc.devRef .tc main_arg2) = m ((c : Thread nD τ).loc main_arg2) :=
  calc Bd9 m ρ c (Proc.devRef .tc main_arg2)
    _ = Bd8 m ρ c (Proc.devRef .tc main_arg2) := Bd9_keep m ρ c main_arg2 (by decide)
    _ = Bd7 m ρ c (Proc.devRef .tc main_arg2) := Bd8_of_ne m ρ c main_arg2 (by decide)
    _ = Bd6 m ρ c (Proc.devRef .tc main_arg2) := Bd7_keep m ρ c main_arg2 (by decide)
    _ = Bd5 m ρ c (Proc.devRef .tc main_arg2) := Bd6_of_ne m ρ c main_arg2 (by decide)
    _ = Bd4 m ρ c (Proc.devRef .tc main_arg2) := Bd5_keep m ρ c main_arg2 (by decide)
    _ = Bd3 m ρ c (Proc.devRef .tc main_arg2) := Bd4_of_ne m ρ c main_arg2 (by decide)
    _ = Bd2 m ρ c (Proc.devRef .tc main_arg2) := Bd3_keep m ρ c main_arg2 (by decide)
    _ = Bd1 m ρ c (Proc.devRef .tc main_arg2) := Bd2_of_ne m ρ c main_arg2 (by decide)
    _ = Bd0 m ρ c (Proc.devRef .tc main_arg2) := Bd1_keep m ρ c main_arg2 (by decide)
    _ = m ((c : Thread nD τ).loc main_arg2) := rfl
theorem Bd9_main_arg3 (c : Dev nD) : Bd9 m ρ c (Proc.devRef .tc main_arg3) = m ((c : Thread nD τ).loc main_arg3) :=
  calc Bd9 m ρ c (Proc.devRef .tc main_arg3)
    _ = Bd8 m ρ c (Proc.devRef .tc main_arg3) := Bd9_keep m ρ c main_arg3 (by decide)
    _ = Bd7 m ρ c (Proc.devRef .tc main_arg3) := Bd8_of_ne m ρ c main_arg3 (by decide)
    _ = Bd6 m ρ c (Proc.devRef .tc main_arg3) := Bd7_keep m ρ c main_arg3 (by decide)
    _ = Bd5 m ρ c (Proc.devRef .tc main_arg3) := Bd6_of_ne m ρ c main_arg3 (by decide)
    _ = Bd4 m ρ c (Proc.devRef .tc main_arg3) := Bd5_keep m ρ c main_arg3 (by decide)
    _ = Bd3 m ρ c (Proc.devRef .tc main_arg3) := Bd4_of_ne m ρ c main_arg3 (by decide)
    _ = Bd2 m ρ c (Proc.devRef .tc main_arg3) := Bd3_keep m ρ c main_arg3 (by decide)
    _ = Bd1 m ρ c (Proc.devRef .tc main_arg3) := Bd2_of_ne m ρ c main_arg3 (by decide)
    _ = Bd0 m ρ c (Proc.devRef .tc main_arg3) := Bd1_keep m ρ c main_arg3 (by decide)
    _ = m ((c : Thread nD τ).loc main_arg3) := rfl
theorem Bd9_main_arg4 (c : Dev nD) : Bd9 m ρ c (Proc.devRef .tc main_arg4) = m ((c : Thread nD τ).loc main_arg4) :=
  calc Bd9 m ρ c (Proc.devRef .tc main_arg4)
    _ = Bd8 m ρ c (Proc.devRef .tc main_arg4) := Bd9_keep m ρ c main_arg4 (by decide)
    _ = Bd7 m ρ c (Proc.devRef .tc main_arg4) := Bd8_of_ne m ρ c main_arg4 (by decide)
    _ = Bd6 m ρ c (Proc.devRef .tc main_arg4) := Bd7_keep m ρ c main_arg4 (by decide)
    _ = Bd5 m ρ c (Proc.devRef .tc main_arg4) := Bd6_of_ne m ρ c main_arg4 (by decide)
    _ = Bd4 m ρ c (Proc.devRef .tc main_arg4) := Bd5_keep m ρ c main_arg4 (by decide)
    _ = Bd3 m ρ c (Proc.devRef .tc main_arg4) := Bd4_of_ne m ρ c main_arg4 (by decide)
    _ = Bd2 m ρ c (Proc.devRef .tc main_arg4) := Bd3_keep m ρ c main_arg4 (by decide)
    _ = Bd1 m ρ c (Proc.devRef .tc main_arg4) := Bd2_of_ne m ρ c main_arg4 (by decide)
    _ = Bd0 m ρ c (Proc.devRef .tc main_arg4) := Bd1_keep m ρ c main_arg4 (by decide)
    _ = m ((c : Thread nD τ).loc main_arg4) := rfl
theorem Bd9_main_arg5 (c : Dev nD) : Bd9 m ρ c (Proc.devRef .tc main_arg5) = m ((c : Thread nD τ).loc main_arg5) :=
  calc Bd9 m ρ c (Proc.devRef .tc main_arg5)
    _ = Bd8 m ρ c (Proc.devRef .tc main_arg5) := Bd9_keep m ρ c main_arg5 (by decide)
    _ = Bd7 m ρ c (Proc.devRef .tc main_arg5) := Bd8_of_ne m ρ c main_arg5 (by decide)
    _ = Bd6 m ρ c (Proc.devRef .tc main_arg5) := Bd7_keep m ρ c main_arg5 (by decide)
    _ = Bd5 m ρ c (Proc.devRef .tc main_arg5) := Bd6_of_ne m ρ c main_arg5 (by decide)
    _ = Bd4 m ρ c (Proc.devRef .tc main_arg5) := Bd5_keep m ρ c main_arg5 (by decide)
    _ = Bd3 m ρ c (Proc.devRef .tc main_arg5) := Bd4_of_ne m ρ c main_arg5 (by decide)
    _ = Bd2 m ρ c (Proc.devRef .tc main_arg5) := Bd3_keep m ρ c main_arg5 (by decide)
    _ = Bd1 m ρ c (Proc.devRef .tc main_arg5) := Bd2_of_ne m ρ c main_arg5 (by decide)
    _ = Bd0 m ρ c (Proc.devRef .tc main_arg5) := Bd1_keep m ρ c main_arg5 (by decide)
    _ = m ((c : Thread nD τ).loc main_arg5) := rfl
theorem Bd9_main_arg6 (c : Dev nD) : Bd9 m ρ c (Proc.devRef .tc main_arg6) = m ((c : Thread nD τ).loc main_arg6) :=
  calc Bd9 m ρ c (Proc.devRef .tc main_arg6)
    _ = Bd8 m ρ c (Proc.devRef .tc main_arg6) := Bd9_keep m ρ c main_arg6 (by decide)
    _ = Bd7 m ρ c (Proc.devRef .tc main_arg6) := Bd8_of_ne m ρ c main_arg6 (by decide)
    _ = Bd6 m ρ c (Proc.devRef .tc main_arg6) := Bd7_keep m ρ c main_arg6 (by decide)
    _ = Bd5 m ρ c (Proc.devRef .tc main_arg6) := Bd6_of_ne m ρ c main_arg6 (by decide)
    _ = Bd4 m ρ c (Proc.devRef .tc main_arg6) := Bd5_keep m ρ c main_arg6 (by decide)
    _ = Bd3 m ρ c (Proc.devRef .tc main_arg6) := Bd4_of_ne m ρ c main_arg6 (by decide)
    _ = Bd2 m ρ c (Proc.devRef .tc main_arg6) := Bd3_keep m ρ c main_arg6 (by decide)
    _ = Bd1 m ρ c (Proc.devRef .tc main_arg6) := Bd2_of_ne m ρ c main_arg6 (by decide)
    _ = Bd0 m ρ c (Proc.devRef .tc main_arg6) := Bd1_keep m ρ c main_arg6 (by decide)
    _ = m ((c : Thread nD τ).loc main_arg6) := rfl

/-! ## The pipelines' proof data and what rides beside the buffers -/

/-- Every layer's pipeline, each at its entry contents. -/
def pdats : (p : Fin 4) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c
  | ⟨3, _⟩ => fun c => dat3 (Vt7 m ρ) c
abbrev 𝒱₀ : Variants := Variants.none
abbrev L : GSem nD τ sig → Finset Unit := fun _ => ∅
abbrev lv : GSem nD τ sig → Unit → ℕ := fun _ _ => 0
/-- Beside the buffers every stretch carries the core's generator register at some state and its debts, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (Bd9 m ρ c) ∗ ∃ r, prngReg c r)

/-! ## The layers as segments -/

set_option backward.isDefEq.respectTransparency.types false in
/-- Layer 0 as a segment: entered with every unscoped buffer at `Bd1`, left with them at `Bd2`. Its seven arrays
    are split out of the unscoped buffers on entry and put back at their exit contents; the generator register goes into
    the pipeline's invariant and comes back; nothing is owed and the kernel has no semaphore of its own. -/
def rg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vx2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1 as a segment: entered with every unscoped buffer at `Bd3`, left with them at `Bd4`. Its seven arrays
    are split out of the unscoped buffers on entry and put back at their exit contents; the generator register goes into
    the pipeline's invariant and comes back; nothing is owed and the kernel has no semaphore of its own. -/
def rg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vx4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as a segment: entered with every unscoped buffer at `Bd5`, left with them at `Bd6`. Its seven arrays
    are split out of the unscoped buffers on entry and put back at their exit contents; the generator register goes into
    the pipeline's invariant and comes back; nothing is owed and the kernel has no semaphore of its own. -/
def rg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3 as a segment: entered with every unscoped buffer at `Bd7`, left with them at `Bd8`. Its seven arrays
    are split out of the unscoped buffers on entry and put back at their exit contents; the generator register goes into
    the pipeline's invariant and comes back; nothing is owed and the kernel has no semaphore of its own. -/
def rg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt7 m ρ) c).loose
  hwaits := Pipeline.hwaits_of_owed_zero _ _ _ _ L lv 3 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vt7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt7 m ρ c) (Vx8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev sgs : List (Pipeline.Seg (pcfgs (F := F)) adm (pdats m ρ) () defs₀ 𝒱₀ L lv) :=
  [ .host (hseg hostOps0 hostOps0_sub hostOps0_fresh (Bd0 m ρ)),
    .region (rg0 m ρ),
    .host (hseg hostOps1 hostOps1_sub hostOps1_fresh (Bd2 m ρ)),
    .region (rg1 m ρ),
    .host (hseg hostOps2 hostOps2_sub hostOps2_fresh (Bd4 m ρ)),
    .region (rg2 m ρ),
    .host (hseg hostOps3 hostOps3_sub hostOps3_fresh (Bd6 m ρ)),
    .region (rg3 m ρ),
    .host (hseg hostOps4 hostOps4_sub hostOps4_fresh (Bd8 m ρ)) ]

theorem mainRun (c : Dev nD) : main (F := F) c = Pipeline.Seg.run (sgs m ρ) := (main_chain c).trans (by chain_rfl)

set_option backward.isDefEq.respectTransparency.types false in
/-- Every weakly fair execution of the program from `m` with zero counters terminates, nothing faulting, and every
    unscoped buffer of every core ends at the final contents `Bd9`. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = Bd9 m ρ c b) :=
  Pipeline.θ_run_regions_kit (pcfgs (F := F)) adm (pdats m ρ) () cellOf_inj emb₁ defs₀ 𝒱₀ L lv m ρ main (sgs m ρ)
    (fun c Q => by rw [mainRun m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (Bd9 m ρ c) ∗ R c) : sProp 𝕄)
          ⊢ iprop(Tₙ m ρ c ∗ ∃ W, owes (c : Thread nD τ) (0 : CellTallies nD τ sig Unit) W)
        unfold R
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c =>
    ⟨(h c _ (mem_uc main_arg0 (by decide))).trans (Bd9_main_arg0 m ρ c),
     (h c _ (mem_uc main_arg1 (by decide))).trans (Bd9_main_arg1 m ρ c),
     (h c _ (mem_uc main_arg2 (by decide))).trans (Bd9_main_arg2 m ρ c),
     (h c _ (mem_uc main_arg3 (by decide))).trans (Bd9_main_arg3 m ρ c),
     (h c _ (mem_uc main_arg4 (by decide))).trans (Bd9_main_arg4 m ρ c),
     (h c _ (mem_uc main_arg5 (by decide))).trans (Bd9_main_arg5 m ρ c),
     (h c _ (mem_uc main_arg6 (by decide))).trans (Bd9_main_arg6 m ρ c)⟩) (runAll m ρ)

end Cert.Kernel.Lstm

end
-- ==== Proof.KiRegion0.lean ====
import proofs.«163532_j60825326846606_2_alg».proof.Proof.Gen.KernelIdeal.Launch
import proofs.«163532_j60825326846606_2_alg».proof.Proof.Gen.KernelIdeal.Skeleton
import proofs.«163532_j60825326846606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 0 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether that point fetched it or the
    index stayed where an earlier point left it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether that point fetched it or the
    index stayed where an earlier point left it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether that point fetched it or the
    index stayed where an earlier point left it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether that point fetched it or the
    index stayed where an earlier point left it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether that point fetched it or the
    index stayed where an earlier point left it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 1024 tile, the whole weight and the whole bias row: the three rectangles the body reads and writes. -/
abbrev ra0 : Rect S256x1024 := Rect.unit (s := S256x1024) ![0, 0] S256x1024.size inb_S256x1024_S256x1024_0_0
abbrev rw0 : Rect S4096x2048 := Rect.unit (s := S4096x2048) ![0, 0] S4096x2048.size inb_S4096x2048_S4096x2048_0_0
abbrev rb0 : Rect S1x4096 := Rect.unit (s := S1x4096) ![0, 0] S1x4096.size inb_S1x4096_S1x4096_0_0

/-- The new hidden-state tile: `o · tanh c'`, stored whole. -/
def out0_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra0, k0_pay3 (View.ld x0 ra0) (View.ld x1 ra0) (View.ld x3 rw0) (View.ld x4 rb0) (View.ld x2 ra0)⟩]

/-- The new cell-state tile: `f · c + i · g`, stored whole. -/
def out0_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra0, k0_pay2 (View.ld x0 ra0) (View.ld x1 ra0) (View.ld x3 rw0) (View.ld x4 rb0) (View.ld x2 ra0)⟩]

/-- One store of the whole tile covers the tile. -/
theorem cover0 (p0 : Vec F S256x1024 .f32) (y : S256x1024.Idx) :
    ∃ pc ∈ ([⟨ra0, p0⟩] : List (View.Piece (Elt F) S256x1024 .f32)), y ∈ pc.1.set :=
  View.cover_of_tiled [⟨ra0, p0⟩] S256x1024.size (by rfl) y

set_option maxHeartbeats 1000000 in
/-- The body, given the five input tiles in its first five buffers and anything in the last two, ends with the inputs
    in place and the two outputs at `out0_5` and `out0_6` of the inputs. -/
theorem sound_kernel0 (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lstm_cell_kernel i arg1 harg1 arg2 harg2 arg3 harg3 arg4 harg4 arg5 harg5 arg6 harg6 arg7 harg7) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The layer's pipeline on core `c`: its arrays as the layer finds them; after the body at a point each input's
    buffer still at its tile and each output's at its function of the input tiles; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: its input buffers hold their tiles, so `sound_kernel0` applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Lstm

end
-- ==== Proof.KiRegion1.lean ====
import proofs.«163532_j60825326846606_2_alg».proof.Proof.Gen.KernelIdeal.Launch
import proofs.«163532_j60825326846606_2_alg».proof.Proof.Gen.KernelIdeal.Skeleton
import proofs.«163532_j60825326846606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 1 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether that point fetched it or the
    index stayed where an earlier point left it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether that point fetched it or the
    index stayed where an earlier point left it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether that point fetched it or the
    index stayed where an earlier point left it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether that point fetched it or the
    index stayed where an earlier point left it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether that point fetched it or the
    index stayed where an earlier point left it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 256 × 1024 tile, the whole weight and the whole bias row: the three rectangles the body reads and writes. -/
abbrev ra1 : Rect S256x1024 := Rect.unit (s := S256x1024) ![0, 0] S256x1024.size inb_S256x1024_S256x1024_0_0
abbrev rw1 : Rect S4096x2048 := Rect.unit (s := S4096x2048) ![0, 0] S4096x2048.size inb_S4096x2048_S4096x2048_0_0
abbrev rb1 : Rect S1x4096 := Rect.unit (s := S1x4096) ![0, 0] S1x4096.size inb_S1x4096_S1x4096_0_0

/-- The new hidden-state tile: `o · tanh c'`, stored whole. -/
def out1_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra1, k1_pay3 (View.ld x0 ra1) (View.ld x1 ra1) (View.ld x3 rw1) (View.ld x4 rb1) (View.ld x2 ra1)⟩]

/-- The new cell-state tile: `f · c + i · g`, stored whole. -/
def out1_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra1, k1_pay2 (View.ld x0 ra1) (View.ld x1 ra1) (View.ld x3 rw1) (View.ld x4 rb1) (View.ld x2 ra1)⟩]

/-- One store of the whole tile covers the tile. -/
theorem cover1 (p0 : Vec F S256x1024 .f32) (y : S256x1024.Idx) :
    ∃ pc ∈ ([⟨ra1, p0⟩] : List (View.Piece (Elt F) S256x1024 .f32)), y ∈ pc.1.set :=
  View.cover_of_tiled [⟨ra1, p0⟩] S256x1024.size (by rfl) y

set_option maxHeartbeats 1000000 in
/-- The body, given the five input tiles in its first five buffers and anything in the last two, ends with the inputs
    in place and the two outputs at `out1_5` and `out1_6` of the inputs. -/
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__lstm_cell_kernel i arg1 harg1 arg2 harg2 arg3 harg3 arg4 harg4 arg5 harg5 arg6 harg6 arg7 harg7) K := by
  simp only [cc1__lstm_cell_kernel_eq_skeleton]; unfold cc1__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  iexists _; isplitr
  swap; · iexact H6
  ipureintro
  exact View.read_writes_eq_canon _ _ _ (cover1 _)

/-- The layer's pipeline on core `c`: its arrays as the layer finds them; after the body at a point each input's
    buffer still at its tile and each output's at its function of the input tiles; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: its input buffers hold their tiles, so `sound_kernel1` applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Lstm

end
-- ==== Proof.KiRegion2.lean ====
import proofs.«163532_j60825326846606_2_alg».proof.Proof.Gen.KernelIdeal.Launch
import proofs.«163532_j60825326846606_2_alg».proof.Proof.Gen.KernelIdeal.Skeleton
import proofs.«163532_j60825326846606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 2 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether that point fetched it or the
    index stayed where an earlier point left it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether that point fetched it or the
    index stayed where an earlier point left it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether that point fetched it or the
    index stayed where an earlier point left it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether that point fetched it or the
    index stayed where an earlier point left it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether that point fetched it or the
    index stayed where an earlier point left it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole 256 × 1024 tile, the whole weight and the whole bias row: the three rectangles the body reads and writes. -/
abbrev ra2 : Rect S256x1024 := Rect.unit (s := S256x1024) ![0, 0] S256x1024.size inb_S256x1024_S256x1024_0_0
abbrev rw2 : Rect S4096x2048 := Rect.unit (s := S4096x2048) ![0, 0] S4096x2048.size inb_S4096x2048_S4096x2048_0_0
abbrev rb2 : Rect S1x4096 := Rect.unit (s := S1x4096) ![0, 0] S1x4096.size inb_S1x4096_S1x4096_0_0

/-- The new hidden-state tile: `o · tanh c'`, stored whole. -/
def out2_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra2, k2_pay3 (View.ld x0 ra2) (View.ld x1 ra2) (View.ld x3 rw2) (View.ld x4 rb2) (View.ld x2 ra2)⟩]

/-- The new cell-state tile: `f · c + i · g`, stored whole. -/
def out2_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra2, k2_pay2 (View.ld x0 ra2) (View.ld x1 ra2) (View.ld x3 rw2) (View.ld x4 rb2) (View.ld x2 ra2)⟩]

/-- One store of the whole tile covers the tile. -/
theorem cover2 (p0 : Vec F S256x1024 .f32) (y : S256x1024.Idx) :
    ∃ pc ∈ ([⟨ra2, p0⟩] : List (View.Piece (Elt F) S256x1024 .f32)), y ∈ pc.1.set :=
  View.cover_of_tiled [⟨ra2, p0⟩] S256x1024.size (by rfl) y

set_option maxHeartbeats 1000000 in
/-- The body, given the five input tiles in its first five buffers and anything in the last two, ends with the inputs
    in place and the two outputs at `out2_5` and `out2_6` of the inputs. -/
theorem sound_kernel2 (c : Dev nD) (E : Set ℕ) (i : grid2.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4) ∗ owns (c : Thread nD τ) arg7 fullShare (out2_6 x0 x1 x2 x3 x4)) -∗ K ⟨⟩))
      ⊢ wp frame (wpE (defs₀ (F := F)) Variants.none c none) E (cc2__lstm_cell_kernel i arg1 harg1 arg2 harg2 arg3 harg3 arg4 harg4 arg5 harg5 arg6 harg6 arg7 harg7) K := by
  simp only [cc2__lstm_cell_kernel_eq_skeleton]; unfold cc2__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  iexists _; isplitr
  swap; · iexact H6
  ipureintro
  exact View.read_writes_eq_canon _ _ _ (cover2 _)

/-- The layer's pipeline on core `c`: its arrays as the layer finds them; after the body at a point each input's
    buffer still at its tile and each output's at its function of the input tiles; nothing else held, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: its input buffers hold their tiles, so `sound_kernel2` applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Lstm

end
-- ==== Proof.KiRegion3.lean ====
import proofs.«163532_j60825326846606_2_alg».proof.Proof.Gen.KernelIdeal.Launch
import proofs.«163532_j60825326846606_2_alg».proof.Proof.Gen.KernelIdeal.Skeleton
import proofs.«163532_j60825326846606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 3 of the four-layer LSTM cell: one grid point of its kernel

The layer's kernel runs over 16 batch tiles of 256 rows. At a tile it reads the tile of the layer input `x`, of the
hidden state `h` and of the cell state `c` (256 × 1024 each), the whole fused weight (4096 × 2048) and the whole
fused bias (1 × 4096), and writes the tile of the new hidden state and of the new cell state. This module states what
the two output tiles hold after the body as functions of the five input tiles, proves that the body computes them and
leaves the inputs in place, and packages this as the per-point obligation of the layer's pipeline, for any contents
`V` of the buffers at the moment the layer is entered and at any float instance.
-/

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the layer finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether that point fetched it or the
    index stayed where an earlier point left it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether that point fetched it or the
    index stayed where an earlier point left it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether that point fetched it or the
    index stayed where an earlier point left it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether that point fetched it or the
    index stayed where an earlier point left it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether that point fetched it or the
    index stayed where an earlier point left it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 256 × 1024 tile, the whole weight and the whole bias row: the three rectangles the body reads and writes. -/
abbrev ra3 : Rect S256x1024 := Rect.unit (s := S256x1024) ![0, 0] S256x1024.size inb_S256x1024_S256x1024_0_0
abbrev rw3 : Rect S4096x2048 := Rect.unit (s := S4096x2048) ![0, 0] S4096x2048.size inb_S4096x2048_S4096x2048_0_0
abbrev rb3 : Rect S1x4096 := Rect.unit (s := S1x4096) ![0, 0] S1x4096.size inb_S1x4096_S1x4096_0_0

/-- The new hidden-state tile: `o · tanh c'`, stored whole. -/
def out3_5 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra3, k3_pay3 (View.ld x0 ra3) (View.ld x1 ra3) (View.ld x3 rw3) (View.ld x4 rb3) (View.ld x2 ra3)⟩]

/-- The new cell-state tile: `f · c + i · g`, stored whole. -/
def out3_6 (x0 : Vec F S256x1024 .f32) (x1 : Vec F S256x1024 .f32) (x2 : Vec F S256x1024 .f32) (x3 : Vec F S4096x2048 .bf16) (x4 : Vec F S1x4096 .f32) : Vec F S256x1024 .f32 :=
  View.canon [⟨ra3, k3_pay2 (View.ld x0 ra3) (View.ld x1 ra3) (View.ld x3 rw3) (View.ld x4 rb3) (View.ld x2 ra3)⟩]

/-- One store of the whole tile covers the tile. -/
theorem cover3 (p0 : Vec F S256x1024 .f32) (y : S256x1024.Idx) :
    ∃ pc ∈ ([⟨ra3, p0⟩] : List (View.Piece (Elt F) S256x1024 .f32)), y ∈ pc.1.set :=
  View.cover_of_tiled [⟨ra3, p0⟩] S256x1024.size (by rfl) y

set_option maxHeartbeats 1000000 in
/-- The body, given the five input tiles in its first five buffers and anything in the last two, ends with the inputs
    in place and the two outputs at `out3_5` and `out3_6` of the inputs. -/
theorem sound_kernel3 (c : Dev nD) (E : Set ℕ) (i : grid3.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x2048 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3__lstm_cell_kernel i arg1 harg1 arg2 harg2 arg3 harg3 arg4 harg4 arg5 harg5 arg6 harg6 arg7 harg7) K := by
  simp only [cc3__lstm_cell_kernel_eq_skeleton]; unfold cc3__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3 _)
  iexists _; isplitr
  swap; · iexact H6
  ipureintro
  exact View.read_writes_eq_canon _ _ _ (cover3 _)

/-- The layer's pipeline on core `c`: its arrays as the layer finds them; after the body at a point each input's
    buffer still at its tile and each output's at its function of the input tiles; nothing else held, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: its input buffers hold their tiles, so `sound_kernel3` applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Lstm

end
-- ==== Proof.KiRun.lean ====
import proofs.«163532_j60825326846606_2_alg».proof.Proof.KiRegion0
import proofs.«163532_j60825326846606_2_alg».proof.Proof.KiRegion1
import proofs.«163532_j60825326846606_2_alg».proof.Proof.KiRegion2
import proofs.«163532_j60825326846606_2_alg».proof.Proof.KiRegion3
import proofs.«163532_j60825326846606_2_alg».proof.Proof.Gen.KernelIdeal.Regions

/-!
# The whole program: host operations, layer 0, host operations, …, layer 3, host operations

The buffers' contents at each of the ten boundaries between the nine stretches of the program are named by folding
through it from the launch memory: a stretch of host operations applies them; a layer leaves its two output arrays at
what its sixteen tiles wrote back and everything else as entered. Every weakly fair execution terminates, faulting
nowhere, with every unscoped buffer at the last boundary's contents; no stretch writes an argument, so each argument
ends as launched. Stated at any float instance.
-/

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev Bd0 : Dev nD → Valuation τ sig (Elt F) := fun c b => (s₀ m ρ).mem ((c : Dev nD), b)

/-- After the host operations that prepare layer 0 (its entry contents). -/
abbrev Bd1 : Dev nD → Valuation τ sig (Elt F) := fun c => StableHlo.after hostOps0 (Bd0 m ρ c)
abbrev Vt1 : (c : Dev nD) → (b : Ref sig .tc) → Buf (Elt F) ((c : Thread nD τ).loc b) := fun c b => Bd1 m ρ c b
/-- At layer 0's exit: its arrays at what its pipeline leaves (each input as entered, each output the tiles written
    back), every other buffer as entered. -/
def Bd2 (c : Dev nD) : Valuation τ sig (Elt F) :=
  Pipeline.withArrays spec0 c (Bd1 m ρ c) fun w => (dat0 (Vt1 m ρ) c).arrAt w cfg0.N
theorem Bd2_arr (c : Dev nD) (w : Fin cfg0.W) :
    Bd2 m ρ c (Proc.devRef .tc (Pipeline.arrRef spec0 w)) = (dat0 (Vt1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Vx2 : (c : Dev nD) → (b : Ref sig .tc) → Buf (Elt F) ((c : Thread nD τ).loc b) := fun c b => Bd2 m ρ c b
theorem hF0 (c : Dev nD) (w : Fin cfg0.W) : (dat0 (Vt1 m ρ) c).arrAt w cfg0.N = Vx2 m ρ c (Pipeline.arrRef spec0 w) :=
  (Bd2_arr m ρ c w).symm
theorem hrest0 (c : Dev nD) : ∀ b, b ∉ Finset.univ.image (Pipeline.arrRef spec0) → Vx2 m ρ c b = Vt1 m ρ c b :=
  fun b hb => Bd2_of_ne m ρ c b fun w e => hb (Finset.mem_image.mpr ⟨w, Finset.mem_univ _, e⟩)
/-- A host stretch leaves every buffer it does not write. -/
theorem Bd1_keep (c : Dev nD) (r : Ref sig .tc) (h : r ∉ hostOps0_W) : Bd1 m ρ c r = Bd0 m ρ c r :=
  StableHlo.after_of_writes_sub hostOps0 _ hostOps0_writes h

/-- After the host operations that prepare layer 1 (its entry contents). -/
abbrev Bd3 : Dev nD → Valuation τ sig (Elt F) := fun c => StableHlo.after hostOps1 (Bd2 m ρ c)
abbrev Vt3 : (c : Dev nD) → (b : Ref sig .tc) → Buf (Elt F) ((c : Thread nD τ).loc b) := fun c b => Bd3 m ρ c b
/-- At layer 1's exit: its arrays at what its pipeline leaves (each input as entered, each output the tiles written
    back), every other buffer as entered. -/
def Bd4 (c : Dev nD) : Valuation τ sig (Elt F) :=
  Pipeline.withArrays spec1 c (Bd3 m ρ c) fun w => (dat1 (Vt3 m ρ) c).arrAt w cfg1.N
theorem Bd4_arr (c : Dev nD) (w : Fin cfg1.W) :
    Bd4 m ρ c (Proc.devRef .tc (Pipeline.arrRef spec1 w)) = (dat1 (Vt3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Vx4 : (c : Dev nD) → (b : Ref sig .tc) → Buf (Elt F) ((c : Thread nD τ).loc b) := fun c b => Bd4 m ρ c b
theorem hF1 (c : Dev nD) (w : Fin cfg1.W) : (dat1 (Vt3 m ρ) c).arrAt w cfg1.N = Vx4 m ρ c (Pipeline.arrRef spec1 w) :=
  (Bd4_arr m ρ c w).symm
theorem hrest1 (c : Dev nD) : ∀ b, b ∉ Finset.univ.image (Pipeline.arrRef spec1) → Vx4 m ρ c b = Vt3 m ρ c b :=
  fun b hb => Bd4_of_ne m ρ c b fun w e => hb (Finset.mem_image.mpr ⟨w, Finset.mem_univ _, e⟩)
/-- A host stretch leaves every buffer it does not write. -/
theorem Bd3_keep (c : Dev nD) (r : Ref sig .tc) (h : r ∉ hostOps1_W) : Bd3 m ρ c r = Bd2 m ρ c r :=
  StableHlo.after_of_writes_sub hostOps1 _ hostOps1_writes h

/-- After the host operations that prepare layer 2 (its entry contents). -/
abbrev Bd5 : Dev nD → Valuation τ sig (Elt F) := fun c => StableHlo.after hostOps2 (Bd4 m ρ c)
abbrev Vt5 : (c : Dev nD) → (b : Ref sig .tc) → Buf (Elt F) ((c : Thread nD τ).loc b) := fun c b => Bd5 m ρ c b
/-- At layer 2's exit: its arrays at what its pipeline leaves (each input as entered, each output the tiles written
    back), every other buffer as entered. -/
def Bd6 (c : Dev nD) : Valuation τ sig (Elt F) :=
  Pipeline.withArrays spec2 c (Bd5 m ρ c) fun w => (dat2 (Vt5 m ρ) c).arrAt w cfg2.N
theorem Bd6_arr (c : Dev nD) (w : Fin cfg2.W) :
    Bd6 m ρ c (Proc.devRef .tc (Pipeline.arrRef spec2 w)) = (dat2 (Vt5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Vx6 : (c : Dev nD) → (b : Ref sig .tc) → Buf (Elt F) ((c : Thread nD τ).loc b) := fun c b => Bd6 m ρ c b
theorem hF2 (c : Dev nD) (w : Fin cfg2.W) : (dat2 (Vt5 m ρ) c).arrAt w cfg2.N = Vx6 m ρ c (Pipeline.arrRef spec2 w) :=
  (Bd6_arr m ρ c w).symm
theorem hrest2 (c : Dev nD) : ∀ b, b ∉ Finset.univ.image (Pipeline.arrRef spec2) → Vx6 m ρ c b = Vt5 m ρ c b :=
  fun b hb => Bd6_of_ne m ρ c b fun w e => hb (Finset.mem_image.mpr ⟨w, Finset.mem_univ _, e⟩)
/-- A host stretch leaves every buffer it does not write. -/
theorem Bd5_keep (c : Dev nD) (r : Ref sig .tc) (h : r ∉ hostOps2_W) : Bd5 m ρ c r = Bd4 m ρ c r :=
  StableHlo.after_of_writes_sub hostOps2 _ hostOps2_writes h

/-- After the host operations that prepare layer 3 (its entry contents). -/
abbrev Bd7 : Dev nD → Valuation τ sig (Elt F) := fun c => StableHlo.after hostOps3 (Bd6 m ρ c)
abbrev Vt7 : (c : Dev nD) → (b : Ref sig .tc) → Buf (Elt F) ((c : Thread nD τ).loc b) := fun c b => Bd7 m ρ c b
/-- At layer 3's exit: its arrays at what its pipeline leaves (each input as entered, each output the tiles written
    back), every other buffer as entered. -/
def Bd8 (c : Dev nD) : Valuation τ sig (Elt F) :=
  Pipeline.withArrays spec3 c (Bd7 m ρ c) fun w => (dat3 (Vt7 m ρ) c).arrAt w cfg3.N
theorem Bd8_arr (c : Dev nD) (w : Fin cfg3.W) :
    Bd8 m ρ c (Proc.devRef .tc (Pipeline.arrRef spec3 w)) = (dat3 (Vt7 m ρ) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m ρ c (Proc.devRef .tc b) = Bd7 m ρ c (Proc.devRef .tc b) := by
  unfold Bd8; exact Pipeline.withArrays_of_ne spec3 c _ _ b hb
abbrev Vx8 : (c : Dev nD) → (b : Ref sig .tc) → Buf (Elt F) ((c : Thread nD τ).loc b) := fun c b => Bd8 m ρ c b
theorem hF3 (c : Dev nD) (w : Fin cfg3.W) : (dat3 (Vt7 m ρ) c).arrAt w cfg3.N = Vx8 m ρ c (Pipeline.arrRef spec3 w) :=
  (Bd8_arr m ρ c w).symm
theorem hrest3 (c : Dev nD) : ∀ b, b ∉ Finset.univ.image (Pipeline.arrRef spec3) → Vx8 m ρ c b = Vt7 m ρ c b :=
  fun b hb => Bd8_of_ne m ρ c b fun w e => hb (Finset.mem_image.mpr ⟨w, Finset.mem_univ _, e⟩)
/-- A host stretch leaves every buffer it does not write. -/
theorem Bd7_keep (c : Dev nD) (r : Ref sig .tc) (h : r ∉ hostOps3_W) : Bd7 m ρ c r = Bd6 m ρ c r :=
  StableHlo.after_of_writes_sub hostOps3 _ hostOps3_writes h

/-- After the closing host operations, which stack the four layers' states: the final contents. -/
abbrev Bd9 : Dev nD → Valuation τ sig (Elt F) := fun c => StableHlo.after hostOps4 (Bd8 m ρ c)
theorem Bd9_keep (c : Dev nD) (r : Ref sig .tc) (h : r ∉ hostOps4_W) : Bd9 m ρ c r = Bd8 m ρ c r :=
  StableHlo.after_of_writes_sub hostOps4 _ hostOps4_writes h

/-! ## Each argument ends as launched -/

theorem Bd9_main_arg0 (c : Dev nD) : Bd9 m ρ c (Proc.devRef .tc main_arg0) = m ((c : Thread nD τ).loc main_arg0) :=
  calc Bd9 m ρ c (Proc.devRef .tc main_arg0)
    _ = Bd8 m ρ c (Proc.devRef .tc main_arg0) := Bd9_keep m ρ c main_arg0 (by decide)
    _ = Bd7 m ρ c (Proc.devRef .tc main_arg0) := Bd8_of_ne m ρ c main_arg0 (by decide)
    _ = Bd6 m ρ c (Proc.devRef .tc main_arg0) := Bd7_keep m ρ c main_arg0 (by decide)
    _ = Bd5 m ρ c (Proc.devRef .tc main_arg0) := Bd6_of_ne m ρ c main_arg0 (by decide)
    _ = Bd4 m ρ c (Proc.devRef .tc main_arg0) := Bd5_keep m ρ c main_arg0 (by decide)
    _ = Bd3 m ρ c (Proc.devRef .tc main_arg0) := Bd4_of_ne m ρ c main_arg0 (by decide)
    _ = Bd2 m ρ c (Proc.devRef .tc main_arg0) := Bd3_keep m ρ c main_arg0 (by decide)
    _ = Bd1 m ρ c (Proc.devRef .tc main_arg0) := (Bd2_arr m ρ c 0).trans (((dat0 (Vt1 m ρ) c).arrAt_in 0 rfl _).trans (A_eq0 (Vt1 m ρ) c 0))
    _ = Bd0 m ρ c (Proc.devRef .tc main_arg0) := Bd1_keep m ρ c main_arg0 (by decide)
    _ = m ((c : Thread nD τ).loc main_arg0) := rfl
theorem Bd9_main_arg1 (c : Dev nD) : Bd9 m ρ c (Proc.devRef .tc main_arg1) = m ((c : Thread nD τ).loc main_arg1) :=
  calc Bd9 m ρ c (Proc.devRef .tc main_arg1)
    _ = Bd8 m ρ c (Proc.devRef .tc main_arg1) := Bd9_keep m ρ c main_arg1 (by decide)
    _ = Bd7 m ρ c (Proc.devRef .tc main_arg1) := Bd8_of_ne m ρ c main_arg1 (by decide)
    _ = Bd6 m ρ c (Proc.devRef .tc main_arg1) := Bd7_keep m ρ c main_arg1 (by decide)
    _ = Bd5 m ρ c (Proc.devRef .tc main_arg1) := Bd6_of_ne m ρ c main_arg1 (by decide)
    _ = Bd4 m ρ c (Proc.devRef .tc main_arg1) := Bd5_keep m ρ c main_arg1 (by decide)
    _ = Bd3 m ρ c (Proc.devRef .tc main_arg1) := Bd4_of_ne m ρ c main_arg1 (by decide)
    _ = Bd2 m ρ c (Proc.devRef .tc main_arg1) := Bd3_keep m ρ c main_arg1 (by decide)
    _ = Bd1 m ρ c (Proc.devRef .tc main_arg1) := Bd2_of_ne m ρ c main_arg1 (by decide)
    _ = Bd0 m ρ c (Proc.devRef .tc main_arg1) := Bd1_keep m ρ c main_arg1 (by decide)
    _ = m ((c : Thread nD τ).loc main_arg1) := rfl
theorem Bd9_main_arg2 (c : Dev nD) : Bd9 m ρ c (Proc.devRef .tc main_arg2) = m ((c : Thread nD τ).loc main_arg2) :=
  calc Bd9 m ρ c (Proc.devRef .tc main_arg2)
    _ = Bd8 m ρ c (Proc.devRef .tc main_arg2) := Bd9_keep m ρ c main_arg2 (by decide)
    _ = Bd7 m ρ c (Proc.devRef .tc main_arg2) := Bd8_of_ne m ρ c main_arg2 (by decide)
    _ = Bd6 m ρ c (Proc.devRef .tc main_arg2) := Bd7_keep m ρ c main_arg2 (by decide)
    _ = Bd5 m ρ c (Proc.devRef .tc main_arg2) := Bd6_of_ne m ρ c main_arg2 (by decide)
    _ = Bd4 m ρ c (Proc.devRef .tc main_arg2) := Bd5_keep m ρ c main_arg2 (by decide)
    _ = Bd3 m ρ c (Proc.devRef .tc main_arg2) := Bd4_of_ne m ρ c main_arg2 (by decide)
    _ = Bd2 m ρ c (Proc.devRef .tc main_arg2) := Bd3_keep m ρ c main_arg2 (by decide)
    _ = Bd1 m ρ c (Proc.devRef .tc main_arg2) := Bd2_of_ne m ρ c main_arg2 (by decide)
    _ = Bd0 m ρ c (Proc.devRef .tc main_arg2) := Bd1_keep m ρ c main_arg2 (by decide)
    _ = m ((c : Thread nD τ).loc main_arg2) := rfl
theorem Bd9_main_arg3 (c : Dev nD) : Bd9 m ρ c (Proc.devRef .tc main_arg3) = m ((c : Thread nD τ).loc main_arg3) :=
  calc Bd9 m ρ c (Proc.devRef .tc main_arg3)
    _ = Bd8 m ρ c (Proc.devRef .tc main_arg3) := Bd9_keep m ρ c main_arg3 (by decide)
    _ = Bd7 m ρ c (Proc.devRef .tc main_arg3) := Bd8_of_ne m ρ c main_arg3 (by decide)
    _ = Bd6 m ρ c (Proc.devRef .tc main_arg3) := Bd7_keep m ρ c main_arg3 (by decide)
    _ = Bd5 m ρ c (Proc.devRef .tc main_arg3) := Bd6_of_ne m ρ c main_arg3 (by decide)
    _ = Bd4 m ρ c (Proc.devRef .tc main_arg3) := Bd5_keep m ρ c main_arg3 (by decide)
    _ = Bd3 m ρ c (Proc.devRef .tc main_arg3) := Bd4_of_ne m ρ c main_arg3 (by decide)
    _ = Bd2 m ρ c (Proc.devRef .tc main_arg3) := Bd3_keep m ρ c main_arg3 (by decide)
    _ = Bd1 m ρ c (Proc.devRef .tc main_arg3) := Bd2_of_ne m ρ c main_arg3 (by decide)
    _ = Bd0 m ρ c (Proc.devRef .tc main_arg3) := Bd1_keep m ρ c main_arg3 (by decide)
    _ = m ((c : Thread nD τ).loc main_arg3) := rfl
theorem Bd9_main_arg4 (c : Dev nD) : Bd9 m ρ c (Proc.devRef .tc main_arg4) = m ((c : Thread nD τ).loc main_arg4) :=
  calc Bd9 m ρ c (Proc.devRef .tc main_arg4)
    _ = Bd8 m ρ c (Proc.devRef .tc main_arg4) := Bd9_keep m ρ c main_arg4 (by decide)
    _ = Bd7 m ρ c (Proc.devRef .tc main_arg4) := Bd8_of_ne m ρ c main_arg4 (by decide)
    _ = Bd6 m ρ c (Proc.devRef .tc main_arg4) := Bd7_keep m ρ c main_arg4 (by decide)
    _ = Bd5 m ρ c (Proc.devRef .tc main_arg4) := Bd6_of_ne m ρ c main_arg4 (by decide)
    _ = Bd4 m ρ c (Proc.devRef .tc main_arg4) := Bd5_keep m ρ c main_arg4 (by decide)
    _ = Bd3 m ρ c (Proc.devRef .tc main_arg4) := Bd4_of_ne m ρ c main_arg4 (by decide)
    _ = Bd2 m ρ c (Proc.devRef .tc main_arg4) := Bd3_keep m ρ c main_arg4 (by decide)
    _ = Bd1 m ρ c (Proc.devRef .tc main_arg4) := Bd2_of_ne m ρ c main_arg4 (by decide)
    _ = Bd0 m ρ c (Proc.devRef .tc main_arg4) := Bd1_keep m ρ c main_arg4 (by decide)
    _ = m ((c : Thread nD τ).loc main_arg4) := rfl
theorem Bd9_main_arg5 (c : Dev nD) : Bd9 m ρ c (Proc.devRef .tc main_arg5) = m ((c : Thread nD τ).loc main_arg5) :=
  calc Bd9 m ρ c (Proc.devRef .tc main_arg5)
    _ = Bd8 m ρ c (Proc.devRef .tc main_arg5) := Bd9_keep m ρ c main_arg5 (by decide)
    _ = Bd7 m ρ c (Proc.devRef .tc main_arg5) := Bd8_of_ne m ρ c main_arg5 (by decide)
    _ = Bd6 m ρ c (Proc.devRef .tc main_arg5) := Bd7_keep m ρ c main_arg5 (by decide)
    _ = Bd5 m ρ c (Proc.devRef .tc main_arg5) := Bd6_of_ne m ρ c main_arg5 (by decide)
    _ = Bd4 m ρ c (Proc.devRef .tc main_arg5) := Bd5_keep m ρ c main_arg5 (by decide)
    _ = Bd3 m ρ c (Proc.devRef .tc main_arg5) := Bd4_of_ne m ρ c main_arg5 (by decide)
    _ = Bd2 m ρ c (Proc.devRef .tc main_arg5) := Bd3_keep m ρ c main_arg5 (by decide)
    _ = Bd1 m ρ c (Proc.devRef .tc main_arg5) := Bd2_of_ne m ρ c main_arg5 (by decide)
    _ = Bd0 m ρ c (Proc.devRef .tc main_arg5) := Bd1_keep m ρ c main_arg5 (by decide)
    _ = m ((c : Thread nD τ).loc main_arg5) := rfl
theorem Bd9_main_arg6 (c : Dev nD) : Bd9 m ρ c (Proc.devRef .tc main_arg6) = m ((c : Thread nD τ).loc main_arg6) :=
  calc Bd9 m ρ c (Proc.devRef .tc main_arg6)
    _ = Bd8 m ρ c (Proc.devRef .tc main_arg6) := Bd9_keep m ρ c main_arg6 (by decide)
    _ = Bd7 m ρ c (Proc.devRef .tc main_arg6) := Bd8_of_ne m ρ c main_arg6 (by decide)
    _ = Bd6 m ρ c (Proc.devRef .tc main_arg6) := Bd7_keep m ρ c main_arg6 (by decide)
    _ = Bd5 m ρ c (Proc.devRef .tc main_arg6) := Bd6_of_ne m ρ c main_arg6 (by decide)
    _ = Bd4 m ρ c (Proc.devRef .tc main_arg6) := Bd5_keep m ρ c main_arg6 (by decide)
    _ = Bd3 m ρ c (Proc.devRef .tc main_arg6) := Bd4_of_ne m ρ c main_arg6 (by decide)
    _ = Bd2 m ρ c (Proc.devRef .tc main_arg6) := Bd3_keep m ρ c main_arg6 (by decide)
    _ = Bd1 m ρ c (Proc.devRef .tc main_arg6) := Bd2_of_ne m ρ c main_arg6 (by decide)
    _ = Bd0 m ρ c (Proc.devRef .tc main_arg6) := Bd1_keep m ρ c main_arg6 (by decide)
    _ = m ((c : Thread nD τ).loc main_arg6) := rfl

/-! ## The pipelines' proof data and what rides beside the buffers -/

/-- Every layer's pipeline, each at its entry contents. -/
def pdats : (p : Fin 4) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c
  | ⟨3, _⟩ => fun c => dat3 (Vt7 m ρ) c
abbrev 𝒱₀ : Variants := Variants.none
abbrev L : GSem nD τ sig → Finset Unit := fun _ => ∅
abbrev lv : GSem nD τ sig → Unit → ℕ := fun _ _ => 0
/-- Beside the buffers every stretch carries the core's generator register at some state and its debts, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (Bd9 m ρ c) ∗ ∃ r, prngReg c r)

/-! ## The layers as segments -/

set_option backward.isDefEq.respectTransparency.types false in
/-- Layer 0 as a segment: entered with every unscoped buffer at `Bd1`, left with them at `Bd2`. Its seven arrays
    are split out of the unscoped buffers on entry and put back at their exit contents; the generator register goes into
    the pipeline's invariant and comes back; nothing is owed and the kernel has no semaphore of its own. -/
def rg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vx2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1 as a segment: entered with every unscoped buffer at `Bd3`, left with them at `Bd4`. Its seven arrays
    are split out of the unscoped buffers on entry and put back at their exit contents; the generator register goes into
    the pipeline's invariant and comes back; nothing is owed and the kernel has no semaphore of its own. -/
def rg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vx4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as a segment: entered with every unscoped buffer at `Bd5`, left with them at `Bd6`. Its seven arrays
    are split out of the unscoped buffers on entry and put back at their exit contents; the generator register goes into
    the pipeline's invariant and comes back; nothing is owed and the kernel has no semaphore of its own. -/
def rg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3 as a segment: entered with every unscoped buffer at `Bd7`, left with them at `Bd8`. Its seven arrays
    are split out of the unscoped buffers on entry and put back at their exit contents; the generator register goes into
    the pipeline's invariant and comes back; nothing is owed and the kernel has no semaphore of its own. -/
def rg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt7 m ρ) c).loose
  hwaits := Pipeline.hwaits_of_owed_zero _ _ _ _ L lv 3 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vt7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt7 m ρ c) (Vx8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev sgs : List (Pipeline.Seg (pcfgs (F := F)) adm (pdats m ρ) () defs₀ 𝒱₀ L lv) :=
  [ .host (hseg hostOps0 hostOps0_sub hostOps0_fresh (Bd0 m ρ)),
    .region (rg0 m ρ),
    .host (hseg hostOps1 hostOps1_sub hostOps1_fresh (Bd2 m ρ)),
    .region (rg1 m ρ),
    .host (hseg hostOps2 hostOps2_sub hostOps2_fresh (Bd4 m ρ)),
    .region (rg2 m ρ),
    .host (hseg hostOps3 hostOps3_sub hostOps3_fresh (Bd6 m ρ)),
    .region (rg3 m ρ),
    .host (hseg hostOps4 hostOps4_sub hostOps4_fresh (Bd8 m ρ)) ]

theorem mainRun (c : Dev nD) : main (F := F) c = Pipeline.Seg.run (sgs m ρ) := (main_chain c).trans (by chain_rfl)

set_option backward.isDefEq.respectTransparency.types false in
/-- Every weakly fair execution of the program from `m` with zero counters terminates, nothing faulting, and every
    unscoped buffer of every core ends at the final contents `Bd9`. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = Bd9 m ρ c b) :=
  Pipeline.θ_run_regions_kit (pcfgs (F := F)) adm (pdats m ρ) () cellOf_inj emb₁ defs₀ 𝒱₀ L lv m ρ main (sgs m ρ)
    (fun c Q => by rw [mainRun m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (Bd9 m ρ c) ∗ R c) : sProp 𝕄)
          ⊢ iprop(Tₙ m ρ c ∗ ∃ W, owes (c : Thread nD τ) (0 : CellTallies nD τ sig Unit) W)
        unfold R
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c =>
    ⟨(h c _ (mem_uc main_arg0 (by decide))).trans (Bd9_main_arg0 m ρ c),
     (h c _ (mem_uc main_arg1 (by decide))).trans (Bd9_main_arg1 m ρ c),
     (h c _ (mem_uc main_arg2 (by decide))).trans (Bd9_main_arg2 m ρ c),
     (h c _ (mem_uc main_arg3 (by decide))).trans (Bd9_main_arg3 m ρ c),
     (h c _ (mem_uc main_arg4 (by decide))).trans (Bd9_main_arg4 m ρ c),
     (h c _ (mem_uc main_arg5 (by decide))).trans (Bd9_main_arg5 m ρ c),
     (h c _ (mem_uc main_arg6 (by decide))).trans (Bd9_main_arg6 m ρ c)⟩) (runAll m ρ)

end Cert.KernelIdeal.Lstm

end
-- ==== Proof.KiWalk.lean ====
import proofs.«163532_j60825326846606_2_alg».proof.Proof.KiRun

/-!
# Which boundary a buffer's contents date from

A stretch of host operations changes only the buffers it writes, and a layer only its two result arrays. So the four
buffers the opening host operations prepare for all layers (the transposed states, the fused weights, the fused biases)
still hold at every later layer's entry what the opening stretch left, and each layer's two results still hold at the end
what that layer left.
-/

set_option maxRecDepth 16384

noncomputable section

namespace Cert.KernelIdeal.Lstm

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (c : Dev nD)

theorem Bd2_v0 : Bd2 m ρ c (Proc.devRef .tc main_v0) = Bd1 m ρ c (Proc.devRef .tc main_v0) :=
    (Bd2_of_ne m ρ c main_v0 (by decide))

theorem Bd4_v0 : Bd4 m ρ c (Proc.devRef .tc main_v0) = Bd1 m ρ c (Proc.devRef .tc main_v0) :=
    (Bd4_of_ne m ρ c main_v0 (by decide)).trans <|
    (Bd3_keep m ρ c main_v0 (by decide)).trans <|
    (Bd2_of_ne m ρ c main_v0 (by decide))

theorem Bd6_v0 : Bd6 m ρ c (Proc.devRef .tc main_v0) = Bd1 m ρ c (Proc.devRef .tc main_v0) :=
    (Bd6_of_ne m ρ c main_v0 (by decide)).trans <|
    (Bd5_keep m ρ c main_v0 (by decide)).trans <|
    (Bd4_of_ne m ρ c main_v0 (by decide)).trans <|
    (Bd3_keep m ρ c main_v0 (by decide)).trans <|
    (Bd2_of_ne m ρ c main_v0 (by decide))

theorem Bd2_v1 : Bd2 m ρ c (Proc.devRef .tc main_v1) = Bd1 m ρ c (Proc.devRef .tc main_v1) :=
    (Bd2_of_ne m ρ c main_v1 (by decide))

theorem Bd4_v1 : Bd4 m ρ c (Proc.devRef .tc main_v1) = Bd1 m ρ c (Proc.devRef .tc main_v1) :=
    (Bd4_of_ne m ρ c main_v1 (by decide)).trans <|
    (Bd3_keep m ρ c main_v1 (by decide)).trans <|
    (Bd2_of_ne m ρ c main_v1 (by decide))

theorem Bd6_v1 : Bd6 m ρ c (Proc.devRef .tc main_v1) = Bd1 m ρ c (Proc.devRef .tc main_v1) :=
    (Bd6_of_ne m ρ c main_v1 (by decide)).trans <|
    (Bd5_keep m ρ c main_v1 (by decide)).trans <|
    (Bd4_of_ne m ρ c main_v1 (by decide)).trans <|
    (Bd3_keep m ρ c main_v1 (by decide)).trans <|
    (Bd2_of_ne m ρ c main_v1 (by decide))

theorem Bd2_v3 : Bd2 m ρ c (Proc.devRef .tc main_v3) = Bd1 m ρ c (Proc.devRef .tc main_v3) :=
    (Bd2_of_ne m ρ c main_v3 (by decide))

theorem Bd4_v3 : Bd4 m ρ c (Proc.devRef .tc main_v3) = Bd1 m ρ c (Proc.devRef .tc main_v3) :=
    (Bd4_of_ne m ρ c main_v3 (by decide)).trans <|
    (Bd3_keep m ρ c main_v3 (by decide)).trans <|
    (Bd2_of_ne m ρ c main_v3 (by decide))

theorem Bd6_v3 : Bd6 m ρ c (Proc.devRef .tc main_v3) = Bd1 m ρ c (Proc.devRef .tc main_v3) :=
    (Bd6_of_ne m ρ c main_v3 (by decide)).trans <|
    (Bd5_keep m ρ c main_v3 (by decide)).trans <|
    (Bd4_of_ne m ρ c main_v3 (by decide)).trans <|
    (Bd3_keep m ρ c main_v3 (by decide)).trans <|
    (Bd2_of_ne m ρ c main_v3 (by decide))

theorem Bd2_v5 : Bd2 m ρ c (Proc.devRef .tc main_v5) = Bd1 m ρ c (Proc.devRef .tc main_v5) :=
    (Bd2_of_ne m ρ c main_v5 (by decide))

theorem Bd4_v5 : Bd4 m ρ c (Proc.devRef .tc main_v5) = Bd1 m ρ c (Proc.devRef .tc main_v5) :=
    (Bd4_of_ne m ρ c main_v5 (by decide)).trans <|
    (Bd3_keep m ρ c main_v5 (by decide)).trans <|
    (Bd2_of_ne m ρ c main_v5 (by decide))

theorem Bd6_v5 : Bd6 m ρ c (Proc.devRef .tc main_v5) = Bd1 m ρ c (Proc.devRef .tc main_v5) :=
    (Bd6_of_ne m ρ c main_v5 (by decide)).trans <|
    (Bd5_keep m ρ c main_v5 (by decide)).trans <|
    (Bd4_of_ne m ρ c main_v5 (by decide)).trans <|
    (Bd3_keep m ρ c main_v5 (by decide)).trans <|
    (Bd2_of_ne m ρ c main_v5 (by decide))

theorem Bd3_h0 : Bd3 m ρ c (Proc.devRef .tc main_v14_0) = Bd2 m ρ c (Proc.devRef .tc main_v14_0) :=
    (Bd3_keep m ρ c main_v14_0 (by decide))

theorem Bd5_h1 : Bd5 m ρ c (Proc.devRef .tc main_v23_0) = Bd4 m ρ c (Proc.devRef .tc main_v23_0) :=
    (Bd5_keep m ρ c main_v23_0 (by decide))

theorem Bd7_h2 : Bd7 m ρ c (Proc.devRef .tc main_v32_0) = Bd6 m ρ c (Proc.devRef .tc main_v32_0) :=
    (Bd7_keep m ρ c main_v32_0 (by decide))

theorem Bd8_h0 : Bd8 m ρ c (Proc.devRef .tc main_v14_0) = Bd2 m ρ c (Proc.devRef .tc main_v14_0) :=
    (Bd8_of_ne m ρ c main_v14_0 (by decide)).trans <|
    (Bd7_keep m ρ c main_v14_0 (by decide)).trans <|
    (Bd6_of_ne m ρ c main_v14_0 (by decide)).trans <|
    (Bd5_keep m ρ c main_v14_0 (by decide)).trans <|
    ((Bd4_arr m ρ c 0).trans (((dat1 (Vt3 m ρ) c).arrAt_in 0 rfl _).trans (A_eq1 (Vt3 m ρ) c 0))).trans <|
    (Bd3_keep m ρ c main_v14_0 (by decide))

theorem Bd8_h1 : Bd8 m ρ c (Proc.devRef .tc main_v23_0) = Bd4 m ρ c (Proc.devRef .tc main_v23_0) :=
    (Bd8_of_ne m ρ c main_v23_0 (by decide)).trans <|
    (Bd7_keep m ρ c main_v23_0 (by decide)).trans <|
    ((Bd6_arr m ρ c 0).trans (((dat2 (Vt5 m ρ) c).arrAt_in 0 rfl _).trans (A_eq2 (Vt5 m ρ) c 0))).trans <|
    (Bd5_keep m ρ c main_v23_0 (by decide))

theorem Bd8_h2 : Bd8 m ρ c (Proc.devRef .tc main_v32_0) = Bd6 m ρ c (Proc.devRef .tc main_v32_0) :=
    ((Bd8_arr m ρ c 0).trans (((dat3 (Vt7 m ρ) c).arrAt_in 0 rfl _).trans (A_eq3 (Vt7 m ρ) c 0))).trans <|
    (Bd7_keep m ρ c main_v32_0 (by decide))

theorem Bd8_c0 : Bd8 m ρ c (Proc.devRef .tc main_v14_1) = Bd2 m ρ c (Proc.devRef .tc main_v14_1) :=
    (Bd8_of_ne m ρ c main_v14_1 (by decide)).trans <|
    (Bd7_keep m ρ c main_v14_1 (by decide)).trans <|
    (Bd6_of_ne m ρ c main_v14_1 (by decide)).trans <|
    (Bd5_keep m ρ c main_v14_1 (by decide)).trans <|
    (Bd4_of_ne m ρ c main_v14_1 (by decide)).trans <|
    (Bd3_keep m ρ c main_v14_1 (by decide))

theorem Bd8_c1 : Bd8 m ρ c (Proc.devRef .tc main_v23_1) = Bd4 m ρ c (Proc.devRef .tc main_v23_1) :=
    (Bd8_of_ne m ρ c main_v23_1 (by decide)).trans <|
    (Bd7_keep m ρ c main_v23_1 (by decide)).trans <|
    (Bd6_of_ne m ρ c main_v23_1 (by decide)).trans <|
    (Bd5_keep m ρ c main_v23_1 (by decide))

theorem Bd8_c2 : Bd8 m ρ c (Proc.devRef .tc main_v32_1) = Bd6 m ρ c (Proc.devRef .tc main_v32_1) :=
    (Bd8_of_ne m ρ c main_v32_1 (by decide)).trans <|
    (Bd7_keep m ρ c main_v32_1 (by decide))

end Cert.KernelIdeal.Lstm

end
-- ==== Proof.Spec.lean ====
import Idealize.ShloMosaic.PureOps.Ideal
import Idealize.ShloMosaic.Lib.ValueIdx

/-!
# The four-layer LSTM cell as one function of the argument arrays

`x : [4096, 1024]` is the batch of inputs; `h0, c0 : [4096, 1024, 4]` hold, on their last axis, the previous hidden
and cell state of each of the four layers; `W_ih, W_hh : [4, 4096, 1024]` and `b_ih, b_hh : [4, 4096]` are the
per-layer weights and biases. Layer `l` computes the gate pre-activations

  `gates = x_l · W_ih[l]ᵀ + b_ih[l] + h0[:, :, l] · W_hh[l]ᵀ + b_hh[l]`        (a [4096, 4096] matrix),

splits its columns into four blocks `i, f, g, o` of width 1024, and returns
`c' = σ(f) · c0[:, :, l] + σ(i) · tanh g` and `h' = σ(o) · tanh c'`; the next layer's input `x_{l+1}` is `h'`.
The results stack the four `h'` and the four `c'` on a last axis. Everything is over the extended reals, with the
ideal instance's `logistic` and `tanh`.
-/

noncomputable section

namespace Lstm.Spec

open Idealize.ShloMosaic Idealize.ShloMosaic.ValueIdx

abbrev SX : Shape := ⟨2, ![4096, 1024]⟩
abbrev SS : Shape := ⟨3, ![4096, 1024, 4]⟩
abbrev SW : Shape := ⟨3, ![4, 4096, 1024]⟩
abbrev SB : Shape := ⟨2, ![4, 4096]⟩

/-- A [4096, 1024] matrix of extended reals, by row and column. -/
abbrev Mat : Type := Fin 4096 → Fin 1024 → EReal

/-- One gate pre-activation: a row of the input against a row of `W_ih`, plus `b_ih`, plus a row of the hidden state
    against a row of `W_hh`, plus `b_hh` — added in this order. -/
def gate (xr hr wi wh : Fin 1024 → EReal) (bi bh : EReal) : EReal :=
  ((∑ k : Fin 1024, xr k * wi k) + bi + ∑ k : Fin 1024, hr k * wh k) + bh

/-- Column `j` of gate block `s` (0 = input, 1 = forget, 2 = candidate, 3 = output) among the 4096 gate columns. -/
def col (s : Fin 4) (j : Fin 1024) : Fin 4096 := ⟨1024 * s.val + j.val, by omega⟩

/-- The new cell value from the input, forget and candidate pre-activations and the old cell value. -/
def cellC (gi gf gg c : EReal) : EReal := Ideal.logistic gf * c + Ideal.logistic gi * Ideal.tanh gg

/-- The new hidden value from the four pre-activations and the old cell value. -/
def cellH (gi gf gg go c : EReal) : EReal := Ideal.logistic go * Ideal.tanh (cellC gi gf gg c)

section Layer

variable (x h c : Mat) (Wih Whh : Fin 4096 → Fin 1024 → EReal) (bih bhh : Fin 4096 → EReal)

/-- The layer's gate pre-activations, by batch row and gate column. -/
def gates (p : Fin 4096) (o : Fin 4096) : EReal := gate (x p) (h p) (Wih o) (Whh o) (bih o) (bhh o)

/-- The layer's new cell state. -/
def layerC : Mat := fun p j =>
  cellC (gates x h Wih Whh bih bhh p (col 0 j)) (gates x h Wih Whh bih bhh p (col 1 j)) (gates x h Wih Whh bih bhh p (col 2 j)) (c p j)

/-- The layer's new hidden state. -/
def layerH : Mat := fun p j =>
  cellH (gates x h Wih Whh bih bhh p (col 0 j)) (gates x h Wih Whh bih bhh p (col 1 j)) (gates x h Wih Whh bih bhh p (col 2 j))
    (gates x h Wih Whh bih bhh p (col 3 j)) (c p j)

end Layer

section Stack

variable (x : SX.Idx → EReal) (h0 c0 : SS.Idx → EReal) (Wih Whh : SW.Idx → EReal) (bih bhh : SB.Idx → EReal)

/-- The input batch as a matrix. -/
def inp : Mat := fun p k => x (ix2 p k)
/-- Layer `l`'s slab of a state array `[4096, 1024, 4]`. -/
def st (s : SS.Idx → EReal) (l : Fin 4) : Mat := fun p k => s (ix3 p k l)
/-- Layer `l`'s weight matrix. -/
def wt (W : SW.Idx → EReal) (l : Fin 4) : Fin 4096 → Fin 1024 → EReal := fun o k => W (ix3 l o k)
/-- Layer `l`'s bias row. -/
def bs (b : SB.Idx → EReal) (l : Fin 4) : Fin 4096 → EReal := fun o => b (ix2 l o)

/-- Layer `l` applied to an input matrix `xin`: its new hidden and cell states. -/
def stepH (l : Fin 4) (xin : Mat) : Mat := layerH xin (st h0 l) (st c0 l) (wt Wih l) (wt Whh l) (bs bih l) (bs bhh l)
def stepC (l : Fin 4) (xin : Mat) : Mat := layerC xin (st h0 l) (st c0 l) (wt Wih l) (wt Whh l) (bs bih l) (bs bhh l)

/-- The input of each layer: the batch, then each layer's new hidden state. -/
def xin0 : Mat := inp x
def xin1 : Mat := stepH h0 c0 Wih Whh bih bhh 0 (xin0 x)
def xin2 : Mat := stepH h0 c0 Wih Whh bih bhh 1 (xin1 x h0 c0 Wih Whh bih bhh)
def xin3 : Mat := stepH h0 c0 Wih Whh bih bhh 2 (xin2 x h0 c0 Wih Whh bih bhh)

/-- The input of layer `l`. -/
def xinOf : Fin 4 → Mat
  | 0 => xin0 x
  | 1 => xin1 x h0 c0 Wih Whh bih bhh
  | 2 => xin2 x h0 c0 Wih Whh bih bhh
  | 3 => xin3 x h0 c0 Wih Whh bih bhh

/-- The first result, `[4096, 1024, 4]`: layer `l`'s new hidden state on slab `l`. -/
def outH : SS.Idx → EReal := fun i => stepH h0 c0 Wih Whh bih bhh (i 2) (xinOf x h0 c0 Wih Whh bih bhh (i 2)) (i 0) (i 1)

/-- The second result: layer `l`'s new cell state on slab `l`. -/
def outC : SS.Idx → EReal := fun i => stepC h0 c0 Wih Whh bih bhh (i 2) (xinOf x h0 c0 Wih Whh bih bhh (i 2)) (i 0) (i 1)

end Stack

end Lstm.Spec

end
-- ==== Proof.GateLaw.lean ====
import proofs.«163532_j60825326846606_2_alg».proof.Proof.Spec

/-!
# One fused product equals the two separate ones

The kernel concatenates a row of the layer input with a row of the hidden state (2048 entries), multiplies it entry by
entry with a row of the concatenated weights `[W_ih | W_hh]`, sums, and adds the fused bias `b_ih + b_hh`. Splitting the
sum over 2048 entries into its first and last 1024 gives the two separate products, and the four summands are then
re-associated into the reference's order. Extended-real addition is commutative and associative on all of `EReal`, so
no finiteness is needed.
-/

noncomputable section

namespace Lstm.Spec

/-- The concatenation of two rows of 1024 entries, by position. -/
def cat (xr hr : Fin 1024 → EReal) (k : Fin 2048) : EReal :=
  if hk : k.val < 1024 then xr ⟨k.val, hk⟩ else hr ⟨k.val - 1024, by omega⟩

theorem cat_lo (xr hr : Fin 1024 → EReal) (k : Fin 1024) : cat xr hr ⟨k.val, by omega⟩ = xr k := by
  unfold cat; rw [dif_pos k.isLt]

theorem cat_hi (xr hr : Fin 1024 → EReal) (k : Fin 1024) : cat xr hr ⟨1024 + k.val, by omega⟩ = hr k := by
  unfold cat
  rw [dif_neg (by simp)]
  exact congrArg hr (Fin.ext (by simp))

/-- A sum over 2048 positions is the sum over the first 1024 plus the sum over the last 1024. -/
theorem sum_split (f : Fin 2048 → EReal) :
    (∑ k : Fin 2048, f k) = (∑ k : Fin 1024, f ⟨k.val, by omega⟩) + ∑ k : Fin 1024, f ⟨1024 + k.val, by omega⟩ :=
  Fin.sum_univ_add (a := 1024) (b := 1024) (f : Fin (1024 + 1024) → EReal)

/-- The fused pre-activation is the reference's. -/
theorem gate_fused (xr hr wi wh : Fin 1024 → EReal) (w : Fin 2048 → EReal) (b bi bh : EReal)
    (hlo : ∀ k : Fin 1024, w ⟨k.val, by omega⟩ = wi k) (hhi : ∀ k : Fin 1024, w ⟨1024 + k.val, by omega⟩ = wh k)
    (hb : b = bi + bh) :
    (∑ k : Fin 2048, cat xr hr k * w k) + b = gate xr hr wi wh bi bh := by
  rw [sum_split, hb]
  unfold gate
  simp only [cat_lo, cat_hi, hlo, hhi]
  rw [add_add_add_comm, ← add_assoc]

end Lstm.Spec

end
-- ==== Proof.CellValue.lean ====
import proofs.«163532_j60825326846606_2_alg».proof.Proof.Gen.KernelIdeal.Skeleton
import proofs.«163532_j60825326846606_2_alg».proof.Proof.Spec
import proofs.«163532_j60825326846606_2_alg».proof.Proof.GateLaw
import Idealize.ShloMosaic.Lib.ValueIdx
import Idealize.ShloMosaic.Lib.Pipeline.Value
import Idealize.ShloMosaic.PureOps.Ideal.Laws

/-!
# The kernel body's values at an index

One batch tile of one layer's kernel computes, from a [256, 1024] tile `x0` of the layer input, a [256, 1024] tile
`x1` of the previous hidden state, the [4096, 2048] weight `x3` (the rows of `W_ih` and `W_hh` side by side) and the
[1, 4096] fused bias `x4`:

* the gate tile `G = [x0 | x1] · x3ᵀ + x4`, a [256, 4096] matrix: at (p, o) the sum over the 2048 laid-out columns of
  row `p` of `[x0 | x1]` against row `o` of the weight, plus the bias at `o` (the narrowing to bf16 is the identity on
  extended reals, and the accumulator is the zero splat);
* the new cell tile `σ(G[:, 1024 + j]) · x2 + σ(G[:, j]) · tanh G[:, 2048 + j]` from the old cell tile `x2`;
* the new hidden tile `σ(G[:, 3072 + j]) · tanh` of the new cell value.

The other three layers' kernels compute the same three functions (they cast the input tile to its own shape first,
which is the identity).
-/

noncomputable section

namespace Cert.KernelIdeal.Lstm

open Cert.KernelIdeal Cert.KernelIdeal.Gen Idealize.ShloMosaic Idealize.ShloMosaic.ValueIdx

/-- The contraction of the matrix product: axis 1 of the [256, 2048] rows against axis 1 of the [4096, 2048] weight. -/
abbrev DD : DotDims S256x2048 S4096x2048 S256x4096 := dot_S256x2048_S4096x2048_S256x4096_1_1_0_0_n_n

/-- The left operand's index at result index (p, o) and contraction position k is (p, k). -/
theorem lhsIdx_eq (p : Fin 256) (o : Fin 4096) (k : Fin 2048) :
    DD.lhsIdx (ix2 p o) ((contrEquiv1 DD 2048 rfl rfl).symm k) = ix2 p k := by
  have c := contrEquiv1_symm_val DD 2048 rfl rfl k
  funext ax; apply Fin.ext
  match ax with
  | ⟨0, _⟩ => simp [DotDims.lhsIdx, DD, dot_S256x2048_S4096x2048_S256x4096_1_1_0_0_n_n]; rfl
  | ⟨1, _⟩ => exact (DD.lhsIdx_val_of_single (cl := 1) rfl (ix2 p o) _).trans c

/-- The right operand's index at result index (p, o) and contraction position k is (o, k). -/
theorem rhsIdx_eq (p : Fin 256) (o : Fin 4096) (k : Fin 2048) :
    DD.rhsIdx (ix2 p o) ((contrEquiv1 DD 2048 rfl rfl).symm k) = ix2 o k := by
  have c := contrEquiv1_symm_val DD 2048 rfl rfl k
  funext ax; apply Fin.ext
  match ax with
  | ⟨0, _⟩ => simp [DotDims.rhsIdx, DD, dot_S256x2048_S4096x2048_S256x4096_1_1_0_0_n_n]; rfl
  | ⟨1, _⟩ => exact (DD.rhsIdx_val_of_single (cr := 1) rfl (ix2 p o) _).trans c

/-- The gate tile at (p, o): row `p` of the two tiles laid side by side against row `o` of the weight, plus the bias. -/
theorem pay1_apply (x0 x1 : Vec Ideal S256x1024 .f32) (x3 : Vec Ideal S4096x2048 .bf16) (x4 : Vec Ideal S1x4096 .f32)
    (p : Fin 256) (o : Fin 4096) :
    k0_pay1 x0 x1 x3 x4 (ix2 p o) = (∑ k : Fin 2048, Lstm.Spec.cat (fun k => x0 (ix2 p k)) (fun k => x1 (ix2 p k)) k * x3 (ix2 o k)) + x4 (ix2 0 o) := by
  unfold k0_pay1
  rw [addf_apply, shapeCast_self, shapeCast_self, shapeCast_self]
  refine congrArg₂ (· + ·) ?_ ?_
  · refine (Ideal.matmul_constant_zero_apply (φ₁ := .bf16) (φ₂ := .bf16) DD none _ _ _).trans ?_
    rw [← Equiv.sum_comp (contrEquiv1 DD 2048 rfl rfl).symm]
    refine Finset.sum_congr rfl fun k _ => ?_
    rw [lhsIdx_eq, rhsIdx_eq]
    refine congrArg (· * x3 (ix2 o k)) ?_
    unfold Lstm.Spec.cat
    by_cases hk : k.val < 1024
    · rw [dif_pos hk]
      exact concatenate_pair_apply_left (t := S256x2048) (s₁ := S256x1024) (s₂ := S256x1024) (1 : Fin 2)
        (truncf (F := Ideal) .bf16 x0 bitsLt_bf16_f32) (truncf (F := Ideal) .bf16 x1 bitsLt_bf16_f32) concatenates_S256x1024_S256x1024_S256x2048_d1
        (ix2 p k) rfl (ix2 p ⟨k.val, hk⟩) (fun b => match b with | ⟨0, _⟩ => rfl | ⟨1, _⟩ => rfl)
    · rw [dif_neg hk]
      exact concatenate_pair_apply_right (t := S256x2048) (s₁ := S256x1024) (s₂ := S256x1024) (1 : Fin 2)
        (truncf (F := Ideal) .bf16 x0 bitsLt_bf16_f32) (truncf (F := Ideal) .bf16 x1 bitsLt_bf16_f32) concatenates_S256x1024_S256x1024_S256x2048_d1
        (ix2 p k) rfl rfl (ix2 p ⟨k.val - 1024, by omega⟩)
        (fun b hb => match b, hb with | ⟨0, _⟩, _ => rfl | ⟨1, _⟩, hb => absurd rfl hb)
        (by show k.val - 1024 + 1024 = k.val; omega)
  · exact broadcastTo_apply _ _ (ix2 p o) (ix2 0 o) (fun a => match a with | ⟨0, _⟩ => rfl | ⟨1, _⟩ => rfl)

/-- `tpu.logistic` of a vector at an index is the ideal logistic of the element. -/
theorem logistic_apply {s : Shape} (v : FVec Ideal s .f32) (i : s.Idx) : logistic v i = Ideal.logistic (v i) :=
  Ideal.logistic_def (v i)
/-- `math.tanh` of a vector at an index is the ideal hyperbolic tangent of the element. -/
theorem tanh_apply {s : Shape} (v : FVec Ideal s .f32) (i : s.Idx) : tanh v i = Ideal.tanh (v i) :=
  Ideal.tanh_def (v i)

/-- The four column blocks of the [256, 4096] gate tile: block `s` read at (p, j) is the tile at column 1024 s + j. -/
theorem slice0_apply (G : FVec Ideal S256x4096 .f32) (p : Fin 256) (j : Fin 1024) :
    extractStridedSlice S256x1024 ![0, 0] G slices_S256x4096_o0_0_S256x1024 (ix2 p j) = G (ix2 p (Lstm.Spec.col 0 j)) :=
  extractStridedSlice_apply _ _ _ (ix2 p j) (ix2 p (Lstm.Spec.col 0 j)) fun a => match a with
    | ⟨0, _⟩ => by show p.val = 0 + p.val; omega
    | ⟨1, _⟩ => by show 1024 * 0 + j.val = 0 + j.val; omega
theorem slice1_apply (G : FVec Ideal S256x4096 .f32) (p : Fin 256) (j : Fin 1024) :
    extractStridedSlice S256x1024 ![0, 1024] G slices_S256x4096_o0_1024_S256x1024 (ix2 p j) = G (ix2 p (Lstm.Spec.col 1 j)) :=
  extractStridedSlice_apply _ _ _ (ix2 p j) (ix2 p (Lstm.Spec.col 1 j)) fun a => match a with
    | ⟨0, _⟩ => by show p.val = 0 + p.val; omega
    | ⟨1, _⟩ => by show 1024 * 1 + j.val = 1024 + j.val; omega
theorem slice2_apply (G : FVec Ideal S256x4096 .f32) (p : Fin 256) (j : Fin 1024) :
    extractStridedSlice S256x1024 ![0, 2048] G slices_S256x4096_o0_2048_S256x1024 (ix2 p j) = G (ix2 p (Lstm.Spec.col 2 j)) :=
  extractStridedSlice_apply _ _ _ (ix2 p j) (ix2 p (Lstm.Spec.col 2 j)) fun a => match a with
    | ⟨0, _⟩ => by show p.val = 0 + p.val; omega
    | ⟨1, _⟩ => by show 1024 * 2 + j.val = 2048 + j.val; omega
theorem slice3_apply (G : FVec Ideal S256x4096 .f32) (p : Fin 256) (j : Fin 1024) :
    extractStridedSlice S256x1024 ![0, 3072] G slices_S256x4096_o0_3072_S256x1024 (ix2 p j) = G (ix2 p (Lstm.Spec.col 3 j)) :=
  extractStridedSlice_apply _ _ _ (ix2 p j) (ix2 p (Lstm.Spec.col 3 j)) fun a => match a with
    | ⟨0, _⟩ => by show p.val = 0 + p.val; omega
    | ⟨1, _⟩ => by show 1024 * 3 + j.val = 3072 + j.val; omega

/-- The new cell tile at (p, j): σ(f) · c + σ(i) · tanh g of the gate tile's columns j, 1024 + j, 2048 + j. -/
theorem pay2_apply (x0 x1 x2 : Vec Ideal S256x1024 .f32) (x3 : Vec Ideal S4096x2048 .bf16) (x4 : Vec Ideal S1x4096 .f32)
    (p : Fin 256) (j : Fin 1024) :
    k0_pay2 x0 x1 x3 x4 x2 (ix2 p j)
      = Lstm.Spec.cellC (k0_pay1 x0 x1 x3 x4 (ix2 p (Lstm.Spec.col 0 j))) (k0_pay1 x0 x1 x3 x4 (ix2 p (Lstm.Spec.col 1 j)))
          (k0_pay1 x0 x1 x3 x4 (ix2 p (Lstm.Spec.col 2 j))) (x2 (ix2 p j)) := by
  unfold k0_pay2
  rw [addf_apply, mulf_apply, mulf_apply, logistic_apply, logistic_apply, tanh_apply, shapeCast_self,
    slice0_apply, slice1_apply, slice2_apply]
  rfl

/-- The new hidden tile at (p, j): σ(o) · tanh of the new cell value. -/
theorem pay3_apply (x0 x1 x2 : Vec Ideal S256x1024 .f32) (x3 : Vec Ideal S4096x2048 .bf16) (x4 : Vec Ideal S1x4096 .f32)
    (p : Fin 256) (j : Fin 1024) :
    k0_pay3 x0 x1 x3 x4 x2 (ix2 p j)
      = Lstm.Spec.cellH (k0_pay1 x0 x1 x3 x4 (ix2 p (Lstm.Spec.col 0 j))) (k0_pay1 x0 x1 x3 x4 (ix2 p (Lstm.Spec.col 1 j)))
          (k0_pay1 x0 x1 x3 x4 (ix2 p (Lstm.Spec.col 2 j))) (k0_pay1 x0 x1 x3 x4 (ix2 p (Lstm.Spec.col 3 j))) (x2 (ix2 p j)) := by
  unfold k0_pay3
  rw [mulf_apply, logistic_apply, tanh_apply, slice3_apply, pay2_apply]
  rfl

/-! ## The other layers' kernels compute the same functions -/

theorem pay1_k1 : @k1_pay1 Ideal _ = @k0_pay1 Ideal _ := by
  funext v0 v3 v7 v10
  unfold k1_pay1 k0_pay1
  rw [shapeCast_self v0, shapeCast_self v3, shapeCast_self v7, shapeCast_self v10]
theorem pay2_k1 : @k1_pay2 Ideal _ = @k0_pay2 Ideal _ := by
  funext v0 v3 v7 v10 v22
  unfold k1_pay2 k0_pay2
  rw [pay1_k1]
theorem pay3_k1 : @k1_pay3 Ideal _ = @k0_pay3 Ideal _ := by
  funext v0 v3 v7 v10 v22
  unfold k1_pay3 k0_pay3
  rw [pay1_k1, pay2_k1]

theorem pay1_k2 : @k2_pay1 Ideal _ = @k0_pay1 Ideal _ := by
  funext v0 v3 v7 v10
  unfold k2_pay1 k0_pay1
  rw [shapeCast_self v0, shapeCast_self v3, shapeCast_self v7, shapeCast_self v10]
theorem pay2_k2 : @k2_pay2 Ideal _ = @k0_pay2 Ideal _ := by
  funext v0 v3 v7 v10 v22
  unfold k2_pay2 k0_pay2
  rw [pay1_k2]
theorem pay3_k2 : @k2_pay3 Ideal _ = @k0_pay3 Ideal _ := by
  funext v0 v3 v7 v10 v22
  unfold k2_pay3 k0_pay3
  rw [pay1_k2, pay2_k2]

theorem pay1_k3 : @k3_pay1 Ideal _ = @k0_pay1 Ideal _ := by
  funext v0 v3 v7 v10
  unfold k3_pay1 k0_pay1
  rw [shapeCast_self v0, shapeCast_self v3, shapeCast_self v7, shapeCast_self v10]
theorem pay2_k3 : @k3_pay2 Ideal _ = @k0_pay2 Ideal _ := by
  funext v0 v3 v7 v10 v22
  unfold k3_pay2 k0_pay2
  rw [pay1_k3]
theorem pay3_k3 : @k3_pay3 Ideal _ = @k0_pay3 Ideal _ := by
  funext v0 v3 v7 v10 v22
  unfold k3_pay3 k0_pay3
  rw [pay1_k3, pay2_k3]

end Cert.KernelIdeal.Lstm

end
-- ==== Proof.KernelForm.lean ====
import proofs.«163532_j60825326846606_2_alg».proof.Proof.GateLaw

/-!
# One layer in the kernel's arrangement, as a function of its five arrays

A layer's kernel is handed the layer input `a0` and the hidden state `a1` (`[4096, 1024]`), the cell state `a2`, the
fused weight `a3 = [W_ih | W_hh]` (`[4096, 2048]`) and the fused bias `a4 = b_ih + b_hh` (`[1, 4096]`). Entry `(p, j)` of
its two results depends on row `p` of `a0` and `a1`, on entry `(p, j)` of `a2`, and on the four gate columns
`j, 1024 + j, 2048 + j, 3072 + j` of the weight and the bias. When the fused weight and bias are what their names say,
this is the reference's layer.
-/

noncomputable section

namespace Lstm.Spec

open Idealize.ShloMosaic Idealize.ShloMosaic.ValueIdx

abbrev SW2 : Shape := ⟨2, ![4096, 2048]⟩
abbrev SB1 : Shape := ⟨2, ![1, 4096]⟩

/-- An array `[4096, 1024]` as a matrix. -/
def mat (a : SX.Idx → EReal) : Mat := fun p k => a (ix2 p k)

section

variable (a0 a1 a2 : SX.Idx → EReal) (a3 : SW2.Idx → EReal) (a4 : SB1.Idx → EReal)

/-- The fused pre-activation of batch row `p` and gate column `o`. -/
def kGate (p o : Fin 4096) : EReal :=
  (∑ k : Fin 2048, cat (mat a0 p) (mat a1 p) k * a3 (ix2 o k)) + a4 (ix2 0 o)

/-- The kernel's new cell state, by row and column. -/
def kCm : Mat := fun P q =>
  cellC (kGate a0 a1 a3 a4 P (col 0 q)) (kGate a0 a1 a3 a4 P (col 1 q)) (kGate a0 a1 a3 a4 P (col 2 q)) (a2 (ix2 P q))

/-- The kernel's new hidden state, by row and column. -/
def kHm : Mat := fun P q =>
  cellH (kGate a0 a1 a3 a4 P (col 0 q)) (kGate a0 a1 a3 a4 P (col 1 q)) (kGate a0 a1 a3 a4 P (col 2 q))
    (kGate a0 a1 a3 a4 P (col 3 q)) (a2 (ix2 P q))

/-- The same two, by array index. -/
def kC : SX.Idx → EReal := fun i => kCm a0 a1 a2 a3 a4 (i 0) (i 1)
def kH : SX.Idx → EReal := fun i => kHm a0 a1 a2 a3 a4 (i 0) (i 1)

theorem kC_ix (P : Fin 4096) (q : Fin 1024) : kC a0 a1 a2 a3 a4 (ix2 P q) = kCm a0 a1 a2 a3 a4 P q := rfl
theorem kH_ix (P : Fin 4096) (q : Fin 1024) : kH a0 a1 a2 a3 a4 (ix2 P q) = kHm a0 a1 a2 a3 a4 P q := rfl

variable (Wih Whh : Fin 4096 → Fin 1024 → EReal) (bih bhh : Fin 4096 → EReal)
  (hlo : ∀ (o : Fin 4096) (k : Fin 1024), a3 (ix2 o ⟨k.val, by omega⟩) = Wih o k)
  (hhi : ∀ (o : Fin 4096) (k : Fin 1024), a3 (ix2 o ⟨1024 + k.val, by omega⟩) = Whh o k)
  (hb : ∀ o : Fin 4096, a4 (ix2 0 o) = bih o + bhh o)

include hlo hhi hb

theorem kGate_eq (p o : Fin 4096) : kGate a0 a1 a3 a4 p o = gates (mat a0) (mat a1) Wih Whh bih bhh p o :=
  gate_fused (mat a0 p) (mat a1 p) (Wih o) (Whh o) (fun k => a3 (ix2 o k)) _ (bih o) (bhh o) (hlo o) (hhi o) (hb o)

theorem kCm_eq : kCm a0 a1 a2 a3 a4 = layerC (mat a0) (mat a1) (mat a2) Wih Whh bih bhh := by
  funext P q
  unfold kCm layerC
  rw [kGate_eq a0 a1 a3 a4 Wih Whh bih bhh hlo hhi hb, kGate_eq a0 a1 a3 a4 Wih Whh bih bhh hlo hhi hb,
    kGate_eq a0 a1 a3 a4 Wih Whh bih bhh hlo hhi hb]
  rfl

theorem kHm_eq : kHm a0 a1 a2 a3 a4 = layerH (mat a0) (mat a1) (mat a2) Wih Whh bih bhh := by
  funext P q
  unfold kHm layerH
  rw [kGate_eq a0 a1 a3 a4 Wih Whh bih bhh hlo hhi hb, kGate_eq a0 a1 a3 a4 Wih Whh bih bhh hlo hhi hb,
    kGate_eq a0 a1 a3 a4 Wih Whh bih bhh hlo hhi hb, kGate_eq a0 a1 a3 a4 Wih Whh bih bhh hlo hhi hb]
  rfl

end

end Lstm.Spec

end
-- ==== Proof.KiTile.lean ====
import proofs.«163532_j60825326846606_2_alg».proof.Proof.CellValue
import proofs.«163532_j60825326846606_2_alg».proof.Proof.KernelForm

/-!
# A tile of the kernel's results is a tile of the layer function

The body's arithmetic at entry `(p, q)` of a batch tile reads row `p` of the input and hidden tiles, entry `(p, q)` of
the cell tile, and the whole weight and bias. If those tiles hold row `P` of three arrays and the whole of two others,
the entry is the layer function of the five arrays at `(P, q)`.
-/

noncomputable section

namespace Cert.KernelIdeal.Lstm

open Cert.KernelIdeal Cert.KernelIdeal.Gen
open Idealize.ShloMosaic Idealize.ShloMosaic.ValueIdx
open _root_.Lstm.Spec

section

variable (x0 x1 x2 : Vec Ideal S256x1024 .f32) (x3 : Vec Ideal S4096x2048 .bf16) (x4 : Vec Ideal S1x4096 .f32)
  (a0 a1 a2 : SX.Idx → EReal) (a3 : SW2.Idx → EReal) (a4 : SB1.Idx → EReal) (p : Fin 256) (P : Fin 4096)
  (h0 : ∀ k : Fin 1024, x0 (ix2 p k) = a0 (ix2 P k)) (h1 : ∀ k : Fin 1024, x1 (ix2 p k) = a1 (ix2 P k))
  (h3 : ∀ (o : Fin 4096) (k : Fin 2048), x3 (ix2 o k) = a3 (ix2 o k)) (h4 : ∀ o : Fin 4096, x4 (ix2 0 o) = a4 (ix2 0 o))

include h0 h1 h3 h4

/-- A gate pre-activation of the tile's row `p` is that of the arrays' row `P`. -/
theorem tile_gate (o : Fin 4096) : k0_pay1 x0 x1 x3 x4 (ix2 p o) = kGate a0 a1 a3 a4 P o := by
  rw [pay1_apply]
  unfold kGate
  have e0 : (fun k => x0 (ix2 p k)) = mat a0 P := funext h0
  have e1 : (fun k => x1 (ix2 p k)) = mat a1 P := funext h1
  rw [e0, e1, h4 o]
  exact congrArg (· + a4 (ix2 0 o)) (Finset.sum_congr rfl fun k _ => by rw [h3 o k])

/-- The new cell state at `(p, q)` of the tile is the layer's at `(P, q)`. -/
theorem tile_C (q : Fin 1024) (h2 : x2 (ix2 p q) = a2 (ix2 P q)) :
    k0_pay2 x0 x1 x3 x4 x2 (ix2 p q) = kC a0 a1 a2 a3 a4 (ix2 P q) := by
  rw [pay2_apply, tile_gate x0 x1 x3 x4 a0 a1 a3 a4 p P h0 h1 h3 h4, tile_gate x0 x1 x3 x4 a0 a1 a3 a4 p P h0 h1 h3 h4,
    tile_gate x0 x1 x3 x4 a0 a1 a3 a4 p P h0 h1 h3 h4, h2]
  rfl

/-- The new hidden state at `(p, q)` of the tile is the layer's at `(P, q)`. -/
theorem tile_H (q : Fin 1024) (h2 : x2 (ix2 p q) = a2 (ix2 P q)) :
    k0_pay3 x0 x1 x3 x4 x2 (ix2 p q) = kH a0 a1 a2 a3 a4 (ix2 P q) := by
  rw [pay3_apply, tile_gate x0 x1 x3 x4 a0 a1 a3 a4 p P h0 h1 h3 h4, tile_gate x0 x1 x3 x4 a0 a1 a3 a4 p P h0 h1 h3 h4,
    tile_gate x0 x1 x3 x4 a0 a1 a3 a4 p P h0 h1 h3 h4, tile_gate x0 x1 x3 x4 a0 a1 a3 a4 p P h0 h1 h3 h4, h2]
  rfl

end

end Cert.KernelIdeal.Lstm

end
-- ==== Proof.KiValue0.lean ====
import proofs.«163532_j60825326846606_2_alg».proof.Proof.KiRegion0
import proofs.«163532_j60825326846606_2_alg».proof.Proof.KiTile
import Idealize.ShloMosaic.Lib.Pipeline.Value

/-!
# Layer 0: its two result arrays as functions of the five arrays it is entered with

Each of the sixteen grid points writes back one tile of 256 rows of each result; tile `t` of a result depends on tile `t`
of the input, hidden and cell arrays and on the whole weight and bias, and equals tile `t` of the layer function of the
five whole arrays. The sixteen tiles cover the array, so the array ends holding that function.
-/

set_option maxRecDepth 16384

noncomputable section

namespace Cert.KernelIdeal.Lstm

open Cert.KernelIdeal Cert.KernelIdeal.Gen
open Idealize.ShloMosaic Idealize.ShloMosaic.TcCoe Idealize.ShloMosaic.ValueIdx
open Idealize.SL.Sem
open Idealize.ShloMosaic.Pipeline (Dat)
open _root_.Lstm.Spec

variable (V : (c : Dev nD) → (b : Ref sig .tc) → Buf (Elt Ideal) ((c : Thread nD τ).loc b))

theorem hz0 : (![0, 0] : Fin 2 → Nat) = fun _ => 0 := funext fun a => by fin_cases a <;> rfl

/-- The seven windows' block indices at every grid point: the three state windows and the two results move with the
    point along the rows; the weight and the bias stay. -/
theorem idx0 : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = 0 ∧ win0_4.index t 1 = 0
    ∧ win0_5.index t 0 = t.val ∧ win0_5.index t 1 = 0 ∧ win0_6.index t 0 = t.val ∧ win0_6.index t 1 = 0 :=
  (by decide +kernel : ∀ t : Fin grid0.N, _)

/-- Input window 0's tile at point `t` is rows `256 t … 256 t + 255` of its array. -/
theorem iblk0_0_apply (c : Dev nD) (t : Fin cfg0.N) (x : S256x1024.Idx) (k : S4096x1024.Idx)
    (hk0 : (k 0).val = 256 * t.val + (x 0).val) (hk1 : (k 1).val = (x 1).val) :
    (iblk0 V c 0 t : Vec Ideal S256x1024 .f32) x = (V c (Pipeline.arrRef spec0 0) : S4096x1024.Idx → EReal) k := by
  obtain ⟨e00, e01, -, -, -, -, -, -, -, -, -, -, -, -⟩ := idx0 t
  unfold iblk0
  rw [View.read_apply]
  show (V c (Pipeline.arrRef spec0 0) : S4096x1024.Idx → EReal) (((cfg0.win 0).blk t).view.emb x) = _
  refine congrArg (V c (Pipeline.arrRef spec0 0) : S4096x1024.Idx → EReal) (funext fun a => Fin.ext ?_)
  match a with
  | ⟨0, _⟩ => show win0_0.index t 0 * 256 + 1 * (x 0).val = (k 0).val; rw [e00, hk0]; omega
  | ⟨1, _⟩ => show win0_0.index t 1 * 1024 + 1 * (x 1).val = (k 1).val; rw [e01, hk1]; omega

/-- Input window 1's tile at point `t` is rows `256 t … 256 t + 255` of its array. -/
theorem iblk0_1_apply (c : Dev nD) (t : Fin cfg0.N) (x : S256x1024.Idx) (k : S4096x1024.Idx)
    (hk0 : (k 0).val = 256 * t.val + (x 0).val) (hk1 : (k 1).val = (x 1).val) :
    (iblk0 V c 1 t : Vec Ideal S256x1024 .f32) x = (V c (Pipeline.arrRef spec0 1) : S4096x1024.Idx → EReal) k := by
  obtain ⟨-, -, e10, e11, -, -, -, -, -, -, -, -, -, -⟩ := idx0 t
  unfold iblk0
  rw [View.read_apply]
  show (V c (Pipeline.arrRef spec0 1) : S4096x1024.Idx → EReal) (((cfg0.win 1).blk t).view.emb x) = _
  refine congrArg (V c (Pipeline.arrRef spec0 1) : S4096x1024.Idx → EReal) (funext fun a => Fin.ext ?_)
  match a with
  | ⟨0, _⟩ => show win0_1.index t 0 * 256 + 1 * (x 0).val = (k 0).val; rw [e10, hk0]; omega
  | ⟨1, _⟩ => show win0_1.index t 1 * 1024 + 1 * (x 1).val = (k 1).val; rw [e11, hk1]; omega

/-- Input window 2's tile at point `t` is rows `256 t … 256 t + 255` of its array. -/
theorem iblk0_2_apply (c : Dev nD) (t : Fin cfg0.N) (x : S256x1024.Idx) (k : S4096x1024.Idx)
    (hk0 : (k 0).val = 256 * t.val + (x 0).val) (hk1 : (k 1).val = (x 1).val) :
    (iblk0 V c 2 t : Vec Ideal S256x1024 .f32) x = (V c (Pipeline.arrRef spec0 2) : S4096x1024.Idx → EReal) k := by
  obtain ⟨-, -, -, -, e20, e21, -, -, -, -, -, -, -, -⟩ := idx0 t
  unfold iblk0
  rw [View.read_apply]
  show (V c (Pipeline.arrRef spec0 2) : S4096x1024.Idx → EReal) (((cfg0.win 2).blk t).view.emb x) = _
  refine congrArg (V c (Pipeline.arrRef spec0 2) : S4096x1024.Idx → EReal) (funext fun a => Fin.ext ?_)
  match a with
  | ⟨0, _⟩ => show win0_2.index t 0 * 256 + 1 * (x 0).val = (k 0).val; rw [e20, hk0]; omega
  | ⟨1, _⟩ => show win0_2.index t 1 * 1024 + 1 * (x 1).val = (k 1).val; rw [e21, hk1]; omega

/-- Input window 3's tile is its whole array at every point. -/
theorem iblk0_3_apply (c : Dev nD) (t : Fin cfg0.N) (x : S4096x2048.Idx) :
    (iblk0 V c 3 t : Vec Ideal S4096x2048 .bf16) x = (V c (Pipeline.arrRef spec0 3) : S4096x2048.Idx → EReal) x := by
  obtain ⟨-, -, -, -, -, -, e30, e31, -, -, -, -, -, -⟩ := idx0 t
  unfold iblk0
  rw [View.read_apply]
  show (V c (Pipeline.arrRef spec0 3) : S4096x2048.Idx → EReal) (((cfg0.win 3).blk t).view.emb x) = _
  refine congrArg (V c (Pipeline.arrRef spec0 3) : S4096x2048.Idx → EReal) (funext fun a => Fin.ext ?_)
  match a with
  | ⟨0, _⟩ => show win0_3.index t 0 * 4096 + 1 * (x 0).val = (x 0).val; rw [e30]; omega
  | ⟨1, _⟩ => show win0_3.index t 1 * 2048 + 1 * (x 1).val = (x 1).val; rw [e31]; omega

/-- Input window 4's tile is its whole array at every point. -/
theorem iblk0_4_apply (c : Dev nD) (t : Fin cfg0.N) (x : S1x4096.Idx) :
    (iblk0 V c 4 t : Vec Ideal S1x4096 .f32) x = (V c (Pipeline.arrRef spec0 4) : S1x4096.Idx → EReal) x := by
  obtain ⟨-, -, -, -, -, -, -, -, e40, e41, -, -, -, -⟩ := idx0 t
  unfold iblk0
  rw [View.read_apply]
  show (V c (Pipeline.arrRef spec0 4) : S1x4096.Idx → EReal) (((cfg0.win 4).blk t).view.emb x) = _
  refine congrArg (V c (Pipeline.arrRef spec0 4) : S1x4096.Idx → EReal) (funext fun a => Fin.ext ?_)
  match a with
  | ⟨0, _⟩ => show win0_4.index t 0 * 1 + 1 * (x 0).val = (x 0).val; rw [e40]; omega
  | ⟨1, _⟩ => show win0_4.index t 1 * 4096 + 1 * (x 1).val = (x 1).val; rw [e41]; omega

/-- Where entry `(p, q)` of output window 5's tile at point `t` lands in its array. -/
theorem emb0_5 (t : Fin cfg0.N) (p : Fin 256) (q : Fin 1024) :
    ((cfg0.win 5).blk t).view.emb (ix2 p q)
      = (ix2 ⟨256 * t.val + p.val, by have := t.isLt; have hN : cfg0.N = 16 := N_0; omega⟩ q : S4096x1024.Idx) := by
  obtain ⟨-, -, -, -, -, -, -, -, -, -, e50, e51, -, -⟩ := idx0 t
  refine funext fun a => Fin.ext ?_
  match a with
  | ⟨0, _⟩ => show win0_5.index t 0 * 256 + 1 * p.val = 256 * t.val + p.val; rw [e50]; omega
  | ⟨1, _⟩ => show win0_5.index t 1 * 1024 + 1 * q.val = q.val; rw [e51]; omega

/-- What point `t` writes back through output window 5 is tile `t` of the layer's new hidden state as a function of the five arrays. -/
theorem flushed0_5 (c : Dev nD) (t : Fin cfg0.N) :
    (dat0 V c).flushed 5 t = ((cfg0.win 5).blk t).view.read (Elt Ideal)
      (kH (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz0]
  simp only [View.ld_unit_zero (S := S256x1024) hz0, View.ld_unit_zero (S := S4096x2048) hz0, View.ld_unit_zero (S := S1x4096) hz0]
  funext y
  show k0_pay3 (iblk0 V c 0 t) (iblk0 V c 1 t) (iblk0 V c 3 t) (iblk0 V c 4 t) (iblk0 V c 2 t) y
    = kH (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb y)
  obtain ⟨p, q, rfl⟩ : ∃ (p : Fin 256) (q : Fin 1024), (y : S256x1024.Idx) = ix2 p q := ⟨y 0, y 1, eq_ix2 y⟩
  rw [emb0_5 t p q]
  exact tile_H (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4)) p ⟨256 * t.val + p.val, by have := t.isLt; have hN : cfg0.N = 16 := N_0; omega⟩
    (fun k => iblk0_0_apply V c t (ix2 p k) (ix2 _ k) rfl rfl) (fun k => iblk0_1_apply V c t (ix2 p k) (ix2 _ k) rfl rfl)
    (fun o k => iblk0_3_apply V c t (ix2 o k)) (fun o => iblk0_4_apply V c t (ix2 0 o)) q
    (iblk0_2_apply V c t (ix2 p q) (ix2 _ q) rfl rfl)

/-- The sixteen tiles of output window 5 cover its array: row `r` lies in tile `r / 256`. -/
theorem cover0_5 (c : Dev nD) (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ : ∃ t : Fin cfg0.N, t.val = (i 0).val / 256 :=
    ⟨⟨(i 0).val / 256, by have hN : grid0.N = 16 := N_0; show (i 0).val / 256 < grid0.N; omega⟩, rfl⟩
  refine ⟨t, flush0_5 t, ?_⟩
  obtain ⟨-, -, -, -, -, -, -, -, -, -, e50, e51, -, -⟩ := idx0 t
  show i ∈ ((View.whole main_v14_0).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    rw [e50, ht]; omega
  | ⟨1, _⟩ =>
    show win0_5.index t 1 * 1024 ≤ (i 1).val ∧ (i 1).val < win0_5.index t 1 * 1024 + 1024
    rw [e51]; omega

/-- So after the layer its new hidden state array is that function of the five arrays the layer was entered with. -/
theorem final0_5 (c : Dev nD) : (dat0 V c).arrAt 5 cfg0.N
    = kH (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed0_5 V c t) (cover0_5 c)

/-- Where entry `(p, q)` of output window 6's tile at point `t` lands in its array. -/
theorem emb0_6 (t : Fin cfg0.N) (p : Fin 256) (q : Fin 1024) :
    ((cfg0.win 6).blk t).view.emb (ix2 p q)
      = (ix2 ⟨256 * t.val + p.val, by have := t.isLt; have hN : cfg0.N = 16 := N_0; omega⟩ q : S4096x1024.Idx) := by
  obtain ⟨-, -, -, -, -, -, -, -, -, -, -, -, e60, e61⟩ := idx0 t
  refine funext fun a => Fin.ext ?_
  match a with
  | ⟨0, _⟩ => show win0_6.index t 0 * 256 + 1 * p.val = 256 * t.val + p.val; rw [e60]; omega
  | ⟨1, _⟩ => show win0_6.index t 1 * 1024 + 1 * q.val = q.val; rw [e61]; omega

/-- What point `t` writes back through output window 6 is tile `t` of the layer's new cell state as a function of the five arrays. -/
theorem flushed0_6 (c : Dev nD) (t : Fin cfg0.N) :
    (dat0 V c).flushed 6 t = ((cfg0.win 6).blk t).view.read (Elt Ideal)
      (kC (V c (Pipeline.arrRef spec0 0)) (V c (Pipeline.arrRef spec0 1)) (V c (Pipeline.arrRef spec0 2))
        (V c (Pipeline.arrRef spec0 3)) (V c (Pipeline.arrRef spec0 4))) := by
  show (cfg0.win 6).cut (grid0.coords t) ((dat0 V c).after 6 t) = _
  rw [after0_6]
  unfold out0_6
  rw [View.canon_unit_zero hz0]
  simp only [View.ld_unit_zero (S := S256x1024) hz0, View.ld_unit_zero (S := S4096x2048) hz0, View.ld_unit_zero (S := S1x4096) hz0]
  funext y
  show k0_pay2 (iblk0 V c 0 t) (iblk0 V c 1 t) (iblk0 V c 3 t) (iblk0 V c 4 t) (iblk0 V c 2 t) y
    = kC (V c (Pipeline.arrRef spec0 0)) (V c (Pipeline.arrRef spec0 1)) (V c (Pipeline.arrRef spec0 2))
        (V c (Pipeline.arrRef spec0 3)) (V c (Pipeline.arrRef spec0 4)) (((cfg0.win 6).blk t).view.emb y)
  obtain ⟨p, q, rfl⟩ : ∃ (p : Fin 256) (q : Fin 1024), (y : S256x1024.Idx) = ix2 p q := ⟨y 0, y 1, eq_ix2 y⟩
  rw [emb0_6 t p q]
  exact tile_C (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4)) p ⟨256 * t.val + p.val, by have := t.isLt; have hN : cfg0.N = 16 := N_0; omega⟩
    (fun k => iblk0_0_apply V c t (ix2 p k) (ix2 _ k) rfl rfl) (fun k => iblk0_1_apply V c t (ix2 p k) (ix2 _ k) rfl rfl)
    (fun o k => iblk0_3_apply V c t (ix2 o k)) (fun o => iblk0_4_apply V c t (ix2 0 o)) q
    (iblk0_2_apply V c t (ix2 p q) (ix2 _ q) rfl rfl)

/-- The sixteen tiles of output window 6 cover its array: row `r` lies in tile `r / 256`. -/
theorem cover0_6 (c : Dev nD) (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ : ∃ t : Fin cfg0.N, t.val = (i 0).val / 256 :=
    ⟨⟨(i 0).val / 256, by have hN : grid0.N = 16 := N_0; show (i 0).val / 256 < grid0.N; omega⟩, rfl⟩
  refine ⟨t, flush0_6 t, ?_⟩
  obtain ⟨-, -, -, -, -, -, -, -, -, -, -, -, e60, e61⟩ := idx0 t
  show i ∈ ((View.whole main_v14_1).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    rw [e60, ht]; omega
  | ⟨1, _⟩ =>
    show win0_6.index t 1 * 1024 ≤ (i 1).val ∧ (i 1).val < win0_6.index t 1 * 1024 + 1024
    rw [e61]; omega

/-- So after the layer its new cell state array is that function of the five arrays the layer was entered with. -/
theorem final0_6 (c : Dev nD) : (dat0 V c).arrAt 6 cfg0.N
    = kC (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 6 _ (fun t _ => flushed0_6 V c t) (cover0_6 c)

end Cert.KernelIdeal.Lstm

end
-- ==== Proof.KiValue1.lean ====
import proofs.«163532_j60825326846606_2_alg».proof.Proof.KiRegion1
import proofs.«163532_j60825326846606_2_alg».proof.Proof.KiTile
import Idealize.ShloMosaic.Lib.Pipeline.Value

/-!
# Layer 1: its two result arrays as functions of the five arrays it is entered with

Each of the sixteen grid points writes back one tile of 256 rows of each result; tile `t` of a result depends on tile `t`
of the input, hidden and cell arrays and on the whole weight and bias, and equals tile `t` of the layer function of the
five whole arrays. The sixteen tiles cover the array, so the array ends holding that function.
-/

set_option maxRecDepth 16384

noncomputable section

namespace Cert.KernelIdeal.Lstm

open Cert.KernelIdeal Cert.KernelIdeal.Gen
open Idealize.ShloMosaic Idealize.ShloMosaic.TcCoe Idealize.ShloMosaic.ValueIdx
open Idealize.SL.Sem
open Idealize.ShloMosaic.Pipeline (Dat)
open _root_.Lstm.Spec

variable (V : (c : Dev nD) → (b : Ref sig .tc) → Buf (Elt Ideal) ((c : Thread nD τ).loc b))

theorem hz1 : (![0, 0] : Fin 2 → Nat) = fun _ => 0 := funext fun a => by fin_cases a <;> rfl

/-- The seven windows' block indices at every grid point: the three state windows and the two results move with the
    point along the rows; the weight and the bias stay. -/
theorem idx1 : ∀ t : Fin cfg1.N, win1_0.index t 0 = t.val ∧ win1_0.index t 1 = 0 ∧ win1_1.index t 0 = t.val ∧ win1_1.index t 1 = 0
    ∧ win1_2.index t 0 = t.val ∧ win1_2.index t 1 = 0 ∧ win1_3.index t 0 = 0 ∧ win1_3.index t 1 = 0 ∧ win1_4.index t 0 = 0 ∧ win1_4.index t 1 = 0
    ∧ win1_5.index t 0 = t.val ∧ win1_5.index t 1 = 0 ∧ win1_6.index t 0 = t.val ∧ win1_6.index t 1 = 0 :=
  (by decide +kernel : ∀ t : Fin grid1.N, _)

/-- Input window 0's tile at point `t` is rows `256 t … 256 t + 255` of its array. -/
theorem iblk1_0_apply (c : Dev nD) (t : Fin cfg1.N) (x : S256x1024.Idx) (k : S4096x1024.Idx)
    (hk0 : (k 0).val = 256 * t.val + (x 0).val) (hk1 : (k 1).val = (x 1).val) :
    (iblk1 V c 0 t : Vec Ideal S256x1024 .f32) x = (V c (Pipeline.arrRef spec1 0) : S4096x1024.Idx → EReal) k := by
  obtain ⟨e00, e01, -, -, -, -, -, -, -, -, -, -, -, -⟩ := idx1 t
  unfold iblk1
  rw [View.read_apply]
  show (V c (Pipeline.arrRef spec1 0) : S4096x1024.Idx → EReal) (((cfg1.win 0).blk t).view.emb x) = _
  refine congrArg (V c (Pipeline.arrRef spec1 0) : S4096x1024.Idx → EReal) (funext fun a => Fin.ext ?_)
  match a with
  | ⟨0, _⟩ => show win1_0.index t 0 * 256 + 1 * (x 0).val = (k 0).val; rw [e00, hk0]; omega
  | ⟨1, _⟩ => show win1_0.index t 1 * 1024 + 1 * (x 1).val = (k 1).val; rw [e01, hk1]; omega

/-- Input window 1's tile at point `t` is rows `256 t … 256 t + 255` of its array. -/
theorem iblk1_1_apply (c : Dev nD) (t : Fin cfg1.N) (x : S256x1024.Idx) (k : S4096x1024.Idx)
    (hk0 : (k 0).val = 256 * t.val + (x 0).val) (hk1 : (k 1).val = (x 1).val) :
    (iblk1 V c 1 t : Vec Ideal S256x1024 .f32) x = (V c (Pipeline.arrRef spec1 1) : S4096x1024.Idx → EReal) k := by
  obtain ⟨-, -, e10, e11, -, -, -, -, -, -, -, -, -, -⟩ := idx1 t
  unfold iblk1
  rw [View.read_apply]
  show (V c (Pipeline.arrRef spec1 1) : S4096x1024.Idx → EReal) (((cfg1.win 1).blk t).view.emb x) = _
  refine congrArg (V c (Pipeline.arrRef spec1 1) : S4096x1024.Idx → EReal) (funext fun a => Fin.ext ?_)
  match a with
  | ⟨0, _⟩ => show win1_1.index t 0 * 256 + 1 * (x 0).val = (k 0).val; rw [e10, hk0]; omega
  | ⟨1, _⟩ => show win1_1.index t 1 * 1024 + 1 * (x 1).val = (k 1).val; rw [e11, hk1]; omega

/-- Input window 2's tile at point `t` is rows `256 t … 256 t + 255` of its array. -/
theorem iblk1_2_apply (c : Dev nD) (t : Fin cfg1.N) (x : S256x1024.Idx) (k : S4096x1024.Idx)
    (hk0 : (k 0).val = 256 * t.val + (x 0).val) (hk1 : (k 1).val = (x 1).val) :
    (iblk1 V c 2 t : Vec Ideal S256x1024 .f32) x = (V c (Pipeline.arrRef spec1 2) : S4096x1024.Idx → EReal) k := by
  obtain ⟨-, -, -, -, e20, e21, -, -, -, -, -, -, -, -⟩ := idx1 t
  unfold iblk1
  rw [View.read_apply]
  show (V c (Pipeline.arrRef spec1 2) : S4096x1024.Idx → EReal) (((cfg1.win 2).blk t).view.emb x) = _
  refine congrArg (V c (Pipeline.arrRef spec1 2) : S4096x1024.Idx → EReal) (funext fun a => Fin.ext ?_)
  match a with
  | ⟨0, _⟩ => show win1_2.index t 0 * 256 + 1 * (x 0).val = (k 0).val; rw [e20, hk0]; omega
  | ⟨1, _⟩ => show win1_2.index t 1 * 1024 + 1 * (x 1).val = (k 1).val; rw [e21, hk1]; omega

/-- Input window 3's tile is its whole array at every point. -/
theorem iblk1_3_apply (c : Dev nD) (t : Fin cfg1.N) (x : S4096x2048.Idx) :
    (iblk1 V c 3 t : Vec Ideal S4096x2048 .bf16) x = (V c (Pipeline.arrRef spec1 3) : S4096x2048.Idx → EReal) x := by
  obtain ⟨-, -, -, -, -, -, e30, e31, -, -, -, -, -, -⟩ := idx1 t
  unfold iblk1
  rw [View.read_apply]
  show (V c (Pipeline.arrRef spec1 3) : S4096x2048.Idx → EReal) (((cfg1.win 3).blk t).view.emb x) = _
  refine congrArg (V c (Pipeline.arrRef spec1 3) : S4096x2048.Idx → EReal) (funext fun a => Fin.ext ?_)
  match a with
  | ⟨0, _⟩ => show win1_3.index t 0 * 4096 + 1 * (x 0).val = (x 0).val; rw [e30]; omega
  | ⟨1, _⟩ => show win1_3.index t 1 * 2048 + 1 * (x 1).val = (x 1).val; rw [e31]; omega

/-- Input window 4's tile is its whole array at every point. -/
theorem iblk1_4_apply (c : Dev nD) (t : Fin cfg1.N) (x : S1x4096.Idx) :
    (iblk1 V c 4 t : Vec Ideal S1x4096 .f32) x = (V c (Pipeline.arrRef spec1 4) : S1x4096.Idx → EReal) x := by
  obtain ⟨-, -, -, -, -, -, -, -, e40, e41, -, -, -, -⟩ := idx1 t
  unfold iblk1
  rw [View.read_apply]
  show (V c (Pipeline.arrRef spec1 4) : S1x4096.Idx → EReal) (((cfg1.win 4).blk t).view.emb x) = _
  refine congrArg (V c (Pipeline.arrRef spec1 4) : S1x4096.Idx → EReal) (funext fun a => Fin.ext ?_)
  match a with
  | ⟨0, _⟩ => show win1_4.index t 0 * 1 + 1 * (x 0).val = (x 0).val; rw [e40]; omega
  | ⟨1, _⟩ => show win1_4.index t 1 * 4096 + 1 * (x 1).val = (x 1).val; rw [e41]; omega

/-- Where entry `(p, q)` of output window 5's tile at point `t` lands in its array. -/
theorem emb1_5 (t : Fin cfg1.N) (p : Fin 256) (q : Fin 1024) :
    ((cfg1.win 5).blk t).view.emb (ix2 p q)
      = (ix2 ⟨256 * t.val + p.val, by have := t.isLt; have hN : cfg1.N = 16 := N_1; omega⟩ q : S4096x1024.Idx) := by
  obtain ⟨-, -, -, -, -, -, -, -, -, -, e50, e51, -, -⟩ := idx1 t
  refine funext fun a => Fin.ext ?_
  match a with
  | ⟨0, _⟩ => show win1_5.index t 0 * 256 + 1 * p.val = 256 * t.val + p.val; rw [e50]; omega
  | ⟨1, _⟩ => show win1_5.index t 1 * 1024 + 1 * q.val = q.val; rw [e51]; omega

/-- What point `t` writes back through output window 5 is tile `t` of the layer's new hidden state as a function of the five arrays. -/
theorem flushed1_5 (c : Dev nD) (t : Fin cfg1.N) :
    (dat1 V c).flushed 5 t = ((cfg1.win 5).blk t).view.read (Elt Ideal)
      (kH (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz1]
  simp only [View.ld_unit_zero (S := S256x1024) hz1, View.ld_unit_zero (S := S4096x2048) hz1, View.ld_unit_zero (S := S1x4096) hz1]
  funext y
  show k1_pay3 (iblk1 V c 0 t) (iblk1 V c 1 t) (iblk1 V c 3 t) (iblk1 V c 4 t) (iblk1 V c 2 t) y
    = kH (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb y)
  obtain ⟨p, q, rfl⟩ : ∃ (p : Fin 256) (q : Fin 1024), (y : S256x1024.Idx) = ix2 p q := ⟨y 0, y 1, eq_ix2 y⟩
  rw [emb1_5 t p q]
  rw [pay3_k1]
  exact tile_H (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) p ⟨256 * t.val + p.val, by have := t.isLt; have hN : cfg1.N = 16 := N_1; omega⟩
    (fun k => iblk1_0_apply V c t (ix2 p k) (ix2 _ k) rfl rfl) (fun k => iblk1_1_apply V c t (ix2 p k) (ix2 _ k) rfl rfl)
    (fun o k => iblk1_3_apply V c t (ix2 o k)) (fun o => iblk1_4_apply V c t (ix2 0 o)) q
    (iblk1_2_apply V c t (ix2 p q) (ix2 _ q) rfl rfl)

/-- The sixteen tiles of output window 5 cover its array: row `r` lies in tile `r / 256`. -/
theorem cover1_5 (c : Dev nD) (i : S4096x1024.Idx) :
    ∃ t : Fin cfg1.N, (cfg1.win 5).flush t = true ∧ i ∈ ((cfg1.win 5).blk t).view.set := by
  have hi0 : (i 0).val < 4096 := (i 0).isLt
  have hi1 : (i 1).val < 1024 := (i 1).isLt
  obtain ⟨t, ht⟩ : ∃ t : Fin cfg1.N, t.val = (i 0).val / 256 :=
    ⟨⟨(i 0).val / 256, by have hN : grid1.N = 16 := N_1; show (i 0).val / 256 < grid1.N; omega⟩, rfl⟩
  refine ⟨t, flush1_5 t, ?_⟩
  obtain ⟨-, -, -, -, -, -, -, -, -, -, e50, e51, -, -⟩ := idx1 t
  show i ∈ ((View.whole main_v23_0).slice (win1_5.rect t)).set
  rw [View.set_slice_whole, Rect.mem_set_unit]
  intro a
  match a with
  | ⟨0, _⟩ =>
    show win1_5.index t 0 * 256 ≤ (i 0).val ∧ (i 0).val < win1_5.index t 0 * 256 + 256
    rw [e50, ht]; omega
  | ⟨1, _⟩ =>
    show win1_5.index t 1 * 1024 ≤ (i 1).val ∧ (i 1).val < win1_5.index t 1 * 1024 + 1024
    rw [e51]; omega

/-- So after the layer its new hidden state array is that function of the five arrays the layer was entered with. -/
theorem final1_5 (c : Dev nD) : (dat1 V c).arrAt 5 cfg1.N
    = kH (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed1_5 V c t) (cover1_5 c)

/-- Where entry `(p, q)` of output window 6's tile at point `t` lands in its array. -/
theorem emb1_6 (t : Fin cfg1.N) (p : Fin 256) (q : Fin 1024) :
    ((cfg1.win 6).blk t).view.emb (ix2 p q)
      = (ix2 ⟨256 * t.val + p.val, by have := t.isLt; have hN : cfg1.N = 16 := N_1; omega⟩ q : S4096x1024.Idx) := by
  obtain ⟨-, -, -, -, -, -, -, -, -, -, -, -, e60, e61⟩ := idx1 t
  refine funext fun a => Fin.ext ?_
  match a with
  | ⟨0, _⟩ => show win1_6.index t 0 * 256 + 1 * p.val = 256 * t.val + p.val; rw [e60]; omega
  | ⟨1, _⟩ => show win1_6.index t 1 * 1024 + 1 * q.val = q.val; rw [e61]; omega

/-- What point `t` writes back through output window 6 is tile `t` of the layer's new cell state as a function of the five arrays. -/
theorem flushed1_6 (c : Dev nD) (t : Fin cfg1.N) :
    (dat1 V c).flushed 6 t = ((cfg1.win 6).blk t).view.read (Elt Ideal)
      (kC (V c (Pipeline.arrRef spec1 0)) (V c (Pipeline.arrRef spec1 1)) (V c (Pipeline.arrRef spec1 2))
        (V c (Pipeline.arrRef spec1 3)) (V c (Pipeline.arrRef spec1 4))) := by
  show (cfg1.win 6).cut (grid1.coords t) ((dat1 V c).after 6 t) = _
  rw [after1_6]
  unfold out1_6
  rw [View.canon_unit_zero hz1]
  simp only [View.ld_unit_zero (S := S256x1024) hz1, View.ld_unit_zero (S := S4096x2048) hz1, View.ld_unit_zero (S := S1x4096) hz1]
  funext y
  show k1_pay2 (iblk1 V c 0 t) (iblk1 V c 1 t) (iblk1 V c 3 t) (iblk1 V c 4 t) (iblk1 V c 2 t) y
    = kC (V c (Pipeline.arrRef spec1 0)) (V c (Pipeline.arrRef spec1 1)) (V c (Pipeline.arrRef spec1 2))
        (V c (Pipeline.arrRef spec1 3)) (V c (Pipeline.arrRef spec1 4)) (((cfg1.win 6).blk t).view.emb y)
  obtain ⟨p, q, rfl⟩ : ∃ (p : Fin 256) (q : Fin 1024), (y : S256x1024.Idx) = ix2 p q := ⟨y 0, y 1, eq_ix2 y⟩
  rw [emb1_6 t p q]
  rw [pay2_k1]
  exact tile_C (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) p ⟨256 * t.val + p.val, by have := t.isLt; have hN : cfg1.N = 16 := N_1; omega⟩
    (fun k => iblk1_0_apply V c t (ix2 p k) (ix2 _ k) rfl rfl) (fun k => iblk1_1_apply V c t (ix2 p k) (ix2 _ k) rfl rfl)
    (fun o k => iblk1_3_apply V c t (ix2 o k)) (fun o => iblk1_4_apply V c t (ix2 0 o)) q
    (iblk1_2_apply V c t (ix2 p q) (ix2 _ q) rfl rfl)

/-- The sixteen tiles of output window 6 cover its array: row `r` lies in tile `r / 256`. -/
theorem cover1_6 (c : Dev nD) (i : S4096x1024.Idx) :
    ∃ t : Fin cfg1.N, (cfg1.win 6).flush t = true ∧ i ∈ ((cfg1.win 6).blk t).view.set := by
  have hi0 : (i 0).val < 4096 := (i 0).isLt
  have hi1 : (i 1).val < 1024 := (i 1).isLt
  obtain ⟨t, ht⟩ : ∃ t : Fin cfg1.N, t.val = (i 0).val / 256 :=
    ⟨⟨(i 0).val / 256, by have hN : grid1.N = 16 := N_1; show (i 0).val / 256 < grid1.N; omega⟩, rfl⟩
  refine ⟨t, flush1_6 t, ?_⟩
  obtain ⟨-, -, -, -, -, -, -, -, -, -, -, -, e60, e61⟩ := idx1 t
  show i ∈ ((View.whole main_v23_1).slice (win1_6.rect t)).set
  rw [View.set_slice_whole, Rect.mem_set_unit]
  intro a
  match a with
  | ⟨0, _⟩ =>
    show win1_6.index t 0 * 256 ≤ (i 0).val ∧ (i 0).val < win1_6.index t 0 * 256 + 256
    rw [e60, ht]; omega
  | ⟨1, _⟩ =>
    show win1_6.index t 1 * 1024 ≤ (i 1).val ∧ (i 1).val < win1_6.index t 1 * 1024 + 1024
    rw [e61]; omega

/-- So after the layer its new cell state array is that function of the five arrays the layer was entered with. -/
theorem final1_6 (c : Dev nD) : (dat1 V c).arrAt 6 cfg1.N
    = kC (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 6 _ (fun t _ => flushed1_6 V c t) (cover1_6 c)

end Cert.KernelIdeal.Lstm

end
-- ==== Proof.KiValue2.lean ====
import proofs.«163532_j60825326846606_2_alg».proof.Proof.KiRegion2
import proofs.«163532_j60825326846606_2_alg».proof.Proof.KiTile
import Idealize.ShloMosaic.Lib.Pipeline.Value

/-!
# Layer 2: its two result arrays as functions of the five arrays it is entered with

Each of the sixteen grid points writes back one tile of 256 rows of each result; tile `t` of a result depends on tile `t`
of the input, hidden and cell arrays and on the whole weight and bias, and equals tile `t` of the layer function of the
five whole arrays. The sixteen tiles cover the array, so the array ends holding that function.
-/

set_option maxRecDepth 16384

noncomputable section

namespace Cert.KernelIdeal.Lstm

open Cert.KernelIdeal Cert.KernelIdeal.Gen
open Idealize.ShloMosaic Idealize.ShloMosaic.TcCoe Idealize.ShloMosaic.ValueIdx
open Idealize.SL.Sem
open Idealize.ShloMosaic.Pipeline (Dat)
open _root_.Lstm.Spec

variable (V : (c : Dev nD) → (b : Ref sig .tc) → Buf (Elt Ideal) ((c : Thread nD τ).loc b))

theorem hz2 : (![0, 0] : Fin 2 → Nat) = fun _ => 0 := funext fun a => by fin_cases a <;> rfl

/-- The seven windows' block indices at every grid point: the three state windows and the two results move with the
    point along the rows; the weight and the bias stay. -/
theorem idx2 : ∀ t : Fin cfg2.N, win2_0.index t 0 = t.val ∧ win2_0.index t 1 = 0 ∧ win2_1.index t 0 = t.val ∧ win2_1.index t 1 = 0
    ∧ win2_2.index t 0 = t.val ∧ win2_2.index t 1 = 0 ∧ win2_3.index t 0 = 0 ∧ win2_3.index t 1 = 0 ∧ win2_4.index t 0 = 0 ∧ win2_4.index t 1 = 0
    ∧ win2_5.index t 0 = t.val ∧ win2_5.index t 1 = 0 ∧ win2_6.index t 0 = t.val ∧ win2_6.index t 1 = 0 :=
  (by decide +kernel : ∀ t : Fin grid2.N, _)

/-- Input window 0's tile at point `t` is rows `256 t … 256 t + 255` of its array. -/
theorem iblk2_0_apply (c : Dev nD) (t : Fin cfg2.N) (x : S256x1024.Idx) (k : S4096x1024.Idx)
    (hk0 : (k 0).val = 256 * t.val + (x 0).val) (hk1 : (k 1).val = (x 1).val) :
    (iblk2 V c 0 t : Vec Ideal S256x1024 .f32) x = (V c (Pipeline.arrRef spec2 0) : S4096x1024.Idx → EReal) k := by
  obtain ⟨e00, e01, -, -, -, -, -, -, -, -, -, -, -, -⟩ := idx2 t
  unfold iblk2
  rw [View.read_apply]
  show (V c (Pipeline.arrRef spec2 0) : S4096x1024.Idx → EReal) (((cfg2.win 0).blk t).view.emb x) = _
  refine congrArg (V c (Pipeline.arrRef spec2 0) : S4096x1024.Idx → EReal) (funext fun a => Fin.ext ?_)
  match a with
  | ⟨0, _⟩ => show win2_0.index t 0 * 256 + 1 * (x 0).val = (k 0).val; rw [e00, hk0]; omega
  | ⟨1, _⟩ => show win2_0.index t 1 * 1024 + 1 * (x 1).val = (k 1).val; rw [e01, hk1]; omega

/-- Input window 1's tile at point `t` is rows `256 t … 256 t + 255` of its array. -/
theorem iblk2_1_apply (c : Dev nD) (t : Fin cfg2.N) (x : S256x1024.Idx) (k : S4096x1024.Idx)
    (hk0 : (k 0).val = 256 * t.val + (x 0).val) (hk1 : (k 1).val = (x 1).val) :
    (iblk2 V c 1 t : Vec Ideal S256x1024 .f32) x = (V c (Pipeline.arrRef spec2 1) : S4096x1024.Idx → EReal) k := by
  obtain ⟨-, -, e10, e11, -, -, -, -, -, -, -, -, -, -⟩ := idx2 t
  unfold iblk2
  rw [View.read_apply]
  show (V c (Pipeline.arrRef spec2 1) : S4096x1024.Idx → EReal) (((cfg2.win 1).blk t).view.emb x) = _
  refine congrArg (V c (Pipeline.arrRef spec2 1) : S4096x1024.Idx → EReal) (funext fun a => Fin.ext ?_)
  match a with
  | ⟨0, _⟩ => show win2_1.index t 0 * 256 + 1 * (x 0).val = (k 0).val; rw [e10, hk0]; omega
  | ⟨1, _⟩ => show win2_1.index t 1 * 1024 + 1 * (x 1).val = (k 1).val; rw [e11, hk1]; omega

/-- Input window 2's tile at point `t` is rows `256 t … 256 t + 255` of its array. -/
theorem iblk2_2_apply (c : Dev nD) (t : Fin cfg2.N) (x : S256x1024.Idx) (k : S4096x1024.Idx)
    (hk0 : (k 0).val = 256 * t.val + (x 0).val) (hk1 : (k 1).val = (x 1).val) :
    (iblk2 V c 2 t : Vec Ideal S256x1024 .f32) x = (V c (Pipeline.arrRef spec2 2) : S4096x1024.Idx → EReal) k := by
  obtain ⟨-, -, -, -, e20, e21, -, -, -, -, -, -, -, -⟩ := idx2 t
  unfold iblk2
  rw [View.read_apply]
  show (V c (Pipeline.arrRef spec2 2) : S4096x1024.Idx → EReal) (((cfg2.win 2).blk t).view.emb x) = _
  refine congrArg (V c (Pipeline.arrRef spec2 2) : S4096x1024.Idx → EReal) (funext fun a => Fin.ext ?_)
  match a with
  | ⟨0, _⟩ => show win2_2.index t 0 * 256 + 1 * (x 0).val = (k 0).val; rw [e20, hk0]; omega
  | ⟨1, _⟩ => show win2_2.index t 1 * 1024 + 1 * (x 1).val = (k 1).val; rw [e21, hk1]; omega

/-- Input window 3's tile is its whole array at every point. -/
theorem iblk2_3_apply (c : Dev nD) (t : Fin cfg2.N) (x : S4096x2048.Idx) :
    (iblk2 V c 3 t : Vec Ideal S4096x2048 .bf16) x = (V c (Pipeline.arrRef spec2 3) : S4096x2048.Idx → EReal) x := by
  obtain ⟨-, -, -, -, -, -, e30, e31, -, -, -, -, -, -⟩ := idx2 t
  unfold iblk2
  rw [View.read_apply]
  show (V c (Pipeline.arrRef spec2 3) : S4096x2048.Idx → EReal) (((cfg2.win 3).blk t).view.emb x) = _
  refine congrArg (V c (Pipeline.arrRef spec2 3) : S4096x2048.Idx → EReal) (funext fun a => Fin.ext ?_)
  match a with
  | ⟨0, _⟩ => show win2_3.index t 0 * 4096 + 1 * (x 0).val = (x 0).val; rw [e30]; omega
  | ⟨1, _⟩ => show win2_3.index t 1 * 2048 + 1 * (x 1).val = (x 1).val; rw [e31]; omega

/-- Input window 4's tile is its whole array at every point. -/
theorem iblk2_4_apply (c : Dev nD) (t : Fin cfg2.N) (x : S1x4096.Idx) :
    (iblk2 V c 4 t : Vec Ideal S1x4096 .f32) x = (V c (Pipeline.arrRef spec2 4) : S1x4096.Idx → EReal) x := by
  obtain ⟨-, -, -, -, -, -, -, -, e40, e41, -, -, -, -⟩ := idx2 t
  unfold iblk2
  rw [View.read_apply]
  show (V c (Pipeline.arrRef spec2 4) : S1x4096.Idx → EReal) (((cfg2.win 4).blk t).view.emb x) = _
  refine congrArg (V c (Pipeline.arrRef spec2 4) : S1x4096.Idx → EReal) (funext fun a => Fin.ext ?_)
  match a with
  | ⟨0, _⟩ => show win2_4.index t 0 * 1 + 1 * (x 0).val = (x 0).val; rw [e40]; omega
  | ⟨1, _⟩ => show win2_4.index t 1 * 4096 + 1 * (x 1).val = (x 1).val; rw [e41]; omega

/-- Where entry `(p, q)` of output window 5's tile at point `t` lands in its array. -/
theorem emb2_5 (t : Fin cfg2.N) (p : Fin 256) (q : Fin 1024) :
    ((cfg2.win 5).blk t).view.emb (ix2 p q)
      = (ix2 ⟨256 * t.val + p.val, by have := t.isLt; have hN : cfg2.N = 16 := N_2; omega⟩ q : S4096x1024.Idx) := by
  obtain ⟨-, -, -, -, -, -, -, -, -, -, e50, e51, -, -⟩ := idx2 t
  refine funext fun a => Fin.ext ?_
  match a with
  | ⟨0, _⟩ => show win2_5.index t 0 * 256 + 1 * p.val = 256 * t.val + p.val; rw [e50]; omega
  | ⟨1, _⟩ => show win2_5.index t 1 * 1024 + 1 * q.val = q.val; rw [e51]; omega

/-- What point `t` writes back through output window 5 is tile `t` of the layer's new hidden state as a function of the five arrays. -/
theorem flushed2_5 (c : Dev nD) (t : Fin cfg2.N) :
    (dat2 V c).flushed 5 t = ((cfg2.win 5).blk t).view.read (Elt Ideal)
      (kH (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S256x1024) hz2, View.ld_unit_zero (S := S4096x2048) hz2, View.ld_unit_zero (S := S1x4096) hz2]
  funext y
  show k2_pay3 (iblk2 V c 0 t) (iblk2 V c 1 t) (iblk2 V c 3 t) (iblk2 V c 4 t) (iblk2 V c 2 t) y
    = kH (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb y)
  obtain ⟨p, q, rfl⟩ : ∃ (p : Fin 256) (q : Fin 1024), (y : S256x1024.Idx) = ix2 p q := ⟨y 0, y 1, eq_ix2 y⟩
  rw [emb2_5 t p q]
  rw [pay3_k2]
  exact tile_H (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) p ⟨256 * t.val + p.val, by have := t.isLt; have hN : cfg2.N = 16 := N_2; omega⟩
    (fun k => iblk2_0_apply V c t (ix2 p k) (ix2 _ k) rfl rfl) (fun k => iblk2_1_apply V c t (ix2 p k) (ix2 _ k) rfl rfl)
    (fun o k => iblk2_3_apply V c t (ix2 o k)) (fun o => iblk2_4_apply V c t (ix2 0 o)) q
    (iblk2_2_apply V c t (ix2 p q) (ix2 _ q) rfl rfl)

/-- The sixteen tiles of output window 5 cover its array: row `r` lies in tile `r / 256`. -/
theorem cover2_5 (c : Dev nD) (i : S4096x1024.Idx) :
    ∃ t : Fin cfg2.N, (cfg2.win 5).flush t = true ∧ i ∈ ((cfg2.win 5).blk t).view.set := by
  have hi0 : (i 0).val < 4096 := (i 0).isLt
  have hi1 : (i 1).val < 1024 := (i 1).isLt
  obtain ⟨t, ht⟩ : ∃ t : Fin cfg2.N, t.val = (i 0).val / 256 :=
    ⟨⟨(i 0).val / 256, by have hN : grid2.N = 16 := N_2; show (i 0).val / 256 < grid2.N; omega⟩, rfl⟩
  refine ⟨t, flush2_5 t, ?_⟩
  obtain ⟨-, -, -, -, -, -, -, -, -, -, e50, e51, -, -⟩ := idx2 t
  show i ∈ ((View.whole main_v32_0).slice (win2_5.rect t)).set
  rw [View.set_slice_whole, Rect.mem_set_unit]
  intro a
  match a with
  | ⟨0, _⟩ =>
    show win2_5.index t 0 * 256 ≤ (i 0).val ∧ (i 0).val < win2_5.index t 0 * 256 + 256
    rw [e50, ht]; omega
  | ⟨1, _⟩ =>
    show win2_5.index t 1 * 1024 ≤ (i 1).val ∧ (i 1).val < win2_5.index t 1 * 1024 + 1024
    rw [e51]; omega

/-- So after the layer its new hidden state array is that function of the five arrays the layer was entered with. -/
theorem final2_5 (c : Dev nD) : (dat2 V c).arrAt 5 cfg2.N
    = kH (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed2_5 V c t) (cover2_5 c)

/-- Where entry `(p, q)` of output window 6's tile at point `t` lands in its array. -/
theorem emb2_6 (t : Fin cfg2.N) (p : Fin 256) (q : Fin 1024) :
    ((cfg2.win 6).blk t).view.emb (ix2 p q)
      = (ix2 ⟨256 * t.val + p.val, by have := t.isLt; have hN : cfg2.N = 16 := N_2; omega⟩ q : S4096x1024.Idx) := by
  obtain ⟨-, -, -, -, -, -, -, -, -, -, -, -, e60, e61⟩ := idx2 t
  refine funext fun a => Fin.ext ?_
  match a with
  | ⟨0, _⟩ => show win2_6.index t 0 * 256 + 1 * p.val = 256 * t.val + p.val; rw [e60]; omega
  | ⟨1, _⟩ => show win2_6.index t 1 * 1024 + 1 * q.val = q.val; rw [e61]; omega

/-- What point `t` writes back through output window 6 is tile `t` of the layer's new cell state as a function of the five arrays. -/
theorem flushed2_6 (c : Dev nD) (t : Fin cfg2.N) :
    (dat2 V c).flushed 6 t = ((cfg2.win 6).blk t).view.read (Elt Ideal)
      (kC (V c (Pipeline.arrRef spec2 0)) (V c (Pipeline.arrRef spec2 1)) (V c (Pipeline.arrRef spec2 2))
        (V c (Pipeline.arrRef spec2 3)) (V c (Pipeline.arrRef spec2 4))) := by
  show (cfg2.win 6).cut (grid2.coords t) ((dat2 V c).after 6 t) = _
  rw [after2_6]
  unfold out2_6
  rw [View.canon_unit_zero hz2]
  simp only [View.ld_unit_zero (S := S256x1024) hz2, View.ld_unit_zero (S := S4096x2048) hz2, View.ld_unit_zero (S := S1x4096) hz2]
  funext y
  show k2_pay2 (iblk2 V c 0 t) (iblk2 V c 1 t) (iblk2 V c 3 t) (iblk2 V c 4 t) (iblk2 V c 2 t) y
    = kC (V c (Pipeline.arrRef spec2 0)) (V c (Pipeline.arrRef spec2 1)) (V c (Pipeline.arrRef spec2 2))
        (V c (Pipeline.arrRef spec2 3)) (V c (Pipeline.arrRef spec2 4)) (((cfg2.win 6).blk t).view.emb y)
  obtain ⟨p, q, rfl⟩ : ∃ (p : Fin 256) (q : Fin 1024), (y : S256x1024.Idx) = ix2 p q := ⟨y 0, y 1, eq_ix2 y⟩
  rw [emb2_6 t p q]
  rw [pay2_k2]
  exact tile_C (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) p ⟨256 * t.val + p.val, by have := t.isLt; have hN : cfg2.N = 16 := N_2; omega⟩
    (fun k => iblk2_0_apply V c t (ix2 p k) (ix2 _ k) rfl rfl) (fun k => iblk2_1_apply V c t (ix2 p k) (ix2 _ k) rfl rfl)
    (fun o k => iblk2_3_apply V c t (ix2 o k)) (fun o => iblk2_4_apply V c t (ix2 0 o)) q
    (iblk2_2_apply V c t (ix2 p q) (ix2 _ q) rfl rfl)

/-- The sixteen tiles of output window 6 cover its array: row `r` lies in tile `r / 256`. -/
theorem cover2_6 (c : Dev nD) (i : S4096x1024.Idx) :
    ∃ t : Fin cfg2.N, (cfg2.win 6).flush t = true ∧ i ∈ ((cfg2.win 6).blk t).view.set := by
  have hi0 : (i 0).val < 4096 := (i 0).isLt
  have hi1 : (i 1).val < 1024 := (i 1).isLt
  obtain ⟨t, ht⟩ : ∃ t : Fin cfg2.N, t.val = (i 0).val / 256 :=
    ⟨⟨(i 0).val / 256, by have hN : grid2.N = 16 := N_2; show (i 0).val / 256 < grid2.N; omega⟩, rfl⟩
  refine ⟨t, flush2_6 t, ?_⟩
  obtain ⟨-, -, -, -, -, -, -, -, -, -, -, -, e60, e61⟩ := idx2 t
  show i ∈ ((View.whole main_v32_1).slice (win2_6.rect t)).set
  rw [View.set_slice_whole, Rect.mem_set_unit]
  intro a
  match a with
  | ⟨0, _⟩ =>
    show win2_6.index t 0 * 256 ≤ (i 0).val ∧ (i 0).val < win2_6.index t 0 * 256 + 256
    rw [e60, ht]; omega
  | ⟨1, _⟩ =>
    show win2_6.index t 1 * 1024 ≤ (i 1).val ∧ (i 1).val < win2_6.index t 1 * 1024 + 1024
    rw [e61]; omega

/-- So after the layer its new cell state array is that function of the five arrays the layer was entered with. -/
theorem final2_6 (c : Dev nD) : (dat2 V c).arrAt 6 cfg2.N
    = kC (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 6 _ (fun t _ => flushed2_6 V c t) (cover2_6 c)

end Cert.KernelIdeal.Lstm

end
-- ==== Proof.KiValue3.lean ====
import proofs.«163532_j60825326846606_2_alg».proof.Proof.KiRegion3
import proofs.«163532_j60825326846606_2_alg».proof.Proof.KiTile
import Idealize.ShloMosaic.Lib.Pipeline.Value

/-!
# Layer 3: its two result arrays as functions of the five arrays it is entered with

Each of the sixteen grid points writes back one tile of 256 rows of each result; tile `t` of a result depends on tile `t`
of the input, hidden and cell arrays and on the whole weight and bias, and equals tile `t` of the layer function of the
five whole arrays. The sixteen tiles cover the array, so the array ends holding that function.
-/

set_option maxRecDepth 16384

noncomputable section

namespace Cert.KernelIdeal.Lstm

open Cert.KernelIdeal Cert.KernelIdeal.Gen
open Idealize.ShloMosaic Idealize.ShloMosaic.TcCoe Idealize.ShloMosaic.ValueIdx
open Idealize.SL.Sem
open Idealize.ShloMosaic.Pipeline (Dat)
open _root_.Lstm.Spec

variable (V : (c : Dev nD) → (b : Ref sig .tc) → Buf (Elt Ideal) ((c : Thread nD τ).loc b))

theorem hz3 : (![0, 0] : Fin 2 → Nat) = fun _ => 0 := funext fun a => by fin_cases a <;> rfl

/-- The seven windows' block indices at every grid point: the three state windows and the two results move with the
    point along the rows; the weight and the bias stay. -/
theorem idx3 : ∀ t : Fin cfg3.N, win3_0.index t 0 = t.val ∧ win3_0.index t 1 = 0 ∧ win3_1.index t 0 = t.val ∧ win3_1.index t 1 = 0
    ∧ win3_2.index t 0 = t.val ∧ win3_2.index t 1 = 0 ∧ win3_3.index t 0 = 0 ∧ win3_3.index t 1 = 0 ∧ win3_4.index t 0 = 0 ∧ win3_4.index t 1 = 0
    ∧ win3_5.index t 0 = t.val ∧ win3_5.index t 1 = 0 ∧ win3_6.index t 0 = t.val ∧ win3_6.index t 1 = 0 :=
  (by decide +kernel : ∀ t : Fin grid3.N, _)

/-- Input window 0's tile at point `t` is rows `256 t … 256 t + 255` of its array. -/
theorem iblk3_0_apply (c : Dev nD) (t : Fin cfg3.N) (x : S256x1024.Idx) (k : S4096x1024.Idx)
    (hk0 : (k 0).val = 256 * t.val + (x 0).val) (hk1 : (k 1).val = (x 1).val) :
    (iblk3 V c 0 t : Vec Ideal S256x1024 .f32) x = (V c (Pipeline.arrRef spec3 0) : S4096x1024.Idx → EReal) k := by
  obtain ⟨e00, e01, -, -, -, -, -, -, -, -, -, -, -, -⟩ := idx3 t
  unfold iblk3
  rw [View.read_apply]
  show (V c (Pipeline.arrRef spec3 0) : S4096x1024.Idx → EReal) (((cfg3.win 0).blk t).view.emb x) = _
  refine congrArg (V c (Pipeline.arrRef spec3 0) : S4096x1024.Idx → EReal) (funext fun a => Fin.ext ?_)
  match a with
  | ⟨0, _⟩ => show win3_0.index t 0 * 256 + 1 * (x 0).val = (k 0).val; rw [e00, hk0]; omega
  | ⟨1, _⟩ => show win3_0.index t 1 * 1024 + 1 * (x 1).val = (k 1).val; rw [e01, hk1]; omega

/-- Input window 1's tile at point `t` is rows `256 t … 256 t + 255` of its array. -/
theorem iblk3_1_apply (c : Dev nD) (t : Fin cfg3.N) (x : S256x1024.Idx) (k : S4096x1024.Idx)
    (hk0 : (k 0).val = 256 * t.val + (x 0).val) (hk1 : (k 1).val = (x 1).val) :
    (iblk3 V c 1 t : Vec Ideal S256x1024 .f32) x = (V c (Pipeline.arrRef spec3 1) : S4096x1024.Idx → EReal) k := by
  obtain ⟨-, -, e10, e11, -, -, -, -, -, -, -, -, -, -⟩ := idx3 t
  unfold iblk3
  rw [View.read_apply]
  show (V c (Pipeline.arrRef spec3 1) : S4096x1024.Idx → EReal) (((cfg3.win 1).blk t).view.emb x) = _
  refine congrArg (V c (Pipeline.arrRef spec3 1) : S4096x1024.Idx → EReal) (funext fun a => Fin.ext ?_)
  match a with
  | ⟨0, _⟩ => show win3_1.index t 0 * 256 + 1 * (x 0).val = (k 0).val; rw [e10, hk0]; omega
  | ⟨1, _⟩ => show win3_1.index t 1 * 1024 + 1 * (x 1).val = (k 1).val; rw [e11, hk1]; omega

/-- Input window 2's tile at point `t` is rows `256 t … 256 t + 255` of its array. -/
theorem iblk3_2_apply (c : Dev nD) (t : Fin cfg3.N) (x : S256x1024.Idx) (k : S4096x1024.Idx)
    (hk0 : (k 0).val = 256 * t.val + (x 0).val) (hk1 : (k 1).val = (x 1).val) :
    (iblk3 V c 2 t : Vec Ideal S256x1024 .f32) x = (V c (Pipeline.arrRef spec3 2) : S4096x1024.Idx → EReal) k := by
  obtain ⟨-, -, -, -, e20, e21, -, -, -, -, -, -, -, -⟩ := idx3 t
  unfold iblk3
  rw [View.read_apply]
  show (V c (Pipeline.arrRef spec3 2) : S4096x1024.Idx → EReal) (((cfg3.win 2).blk t).view.emb x) = _
  refine congrArg (V c (Pipeline.arrRef spec3 2) : S4096x1024.Idx → EReal) (funext fun a => Fin.ext ?_)
  match a with
  | ⟨0, _⟩ => show win3_2.index t 0 * 256 + 1 * (x 0).val = (k 0).val; rw [e20, hk0]; omega
  | ⟨1, _⟩ => show win3_2.index t 1 * 1024 + 1 * (x 1).val = (k 1).val; rw [e21, hk1]; omega

/-- Input window 3's tile is its whole array at every point. -/
theorem iblk3_3_apply (c : Dev nD) (t : Fin cfg3.N) (x : S4096x2048.Idx) :
    (iblk3 V c 3 t : Vec Ideal S4096x2048 .bf16) x = (V c (Pipeline.arrRef spec3 3) : S4096x2048.Idx → EReal) x := by
  obtain ⟨-, -, -, -, -, -, e30, e31, -, -, -, -, -, -⟩ := idx3 t
  unfold iblk3
  rw [View.read_apply]
  show (V c (Pipeline.arrRef spec3 3) : S4096x2048.Idx → EReal) (((cfg3.win 3).blk t).view.emb x) = _
  refine congrArg (V c (Pipeline.arrRef spec3 3) : S4096x2048.Idx → EReal) (funext fun a => Fin.ext ?_)
  match a with
  | ⟨0, _⟩ => show win3_3.index t 0 * 4096 + 1 * (x 0).val = (x 0).val; rw [e30]; omega
  | ⟨1, _⟩ => show win3_3.index t 1 * 2048 + 1 * (x 1).val = (x 1).val; rw [e31]; omega

/-- Input window 4's tile is its whole array at every point. -/
theorem iblk3_4_apply (c : Dev nD) (t : Fin cfg3.N) (x : S1x4096.Idx) :
    (iblk3 V c 4 t : Vec Ideal S1x4096 .f32) x = (V c (Pipeline.arrRef spec3 4) : S1x4096.Idx → EReal) x := by
  obtain ⟨-, -, -, -, -, -, -, -, e40, e41, -, -, -, -⟩ := idx3 t
  unfold iblk3
  rw [View.read_apply]
  show (V c (Pipeline.arrRef spec3 4) : S1x4096.Idx → EReal) (((cfg3.win 4).blk t).view.emb x) = _
  refine congrArg (V c (Pipeline.arrRef spec3 4) : S1x4096.Idx → EReal) (funext fun a => Fin.ext ?_)
  match a with
  | ⟨0, _⟩ => show win3_4.index t 0 * 1 + 1 * (x 0).val = (x 0).val; rw [e40]; omega
  | ⟨1, _⟩ => show win3_4.index t 1 * 4096 + 1 * (x 1).val = (x 1).val; rw [e41]; omega

/-- Where entry `(p, q)` of output window 5's tile at point `t` lands in its array. -/
theorem emb3_5 (t : Fin cfg3.N) (p : Fin 256) (q : Fin 1024) :
    ((cfg3.win 5).blk t).view.emb (ix2 p q)
      = (ix2 ⟨256 * t.val + p.val, by have := t.isLt; have hN : cfg3.N = 16 := N_3; omega⟩ q : S4096x1024.Idx) := by
  obtain ⟨-, -, -, -, -, -, -, -, -, -, e50, e51, -, -⟩ := idx3 t
  refine funext fun a => Fin.ext ?_
  match a with
  | ⟨0, _⟩ => show win3_5.index t 0 * 256 + 1 * p.val = 256 * t.val + p.val; rw [e50]; omega
  | ⟨1, _⟩ => show win3_5.index t 1 * 1024 + 1 * q.val = q.val; rw [e51]; omega

/-- What point `t` writes back through output window 5 is tile `t` of the layer's new hidden state as a function of the five arrays. -/
theorem flushed3_5 (c : Dev nD) (t : Fin cfg3.N) :
    (dat3 V c).flushed 5 t = ((cfg3.win 5).blk t).view.read (Elt Ideal)
      (kH (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S256x1024) hz3, View.ld_unit_zero (S := S4096x2048) hz3, View.ld_unit_zero (S := S1x4096) hz3]
  funext y
  show k3_pay3 (iblk3 V c 0 t) (iblk3 V c 1 t) (iblk3 V c 3 t) (iblk3 V c 4 t) (iblk3 V c 2 t) y
    = kH (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb y)
  obtain ⟨p, q, rfl⟩ : ∃ (p : Fin 256) (q : Fin 1024), (y : S256x1024.Idx) = ix2 p q := ⟨y 0, y 1, eq_ix2 y⟩
  rw [emb3_5 t p q]
  rw [pay3_k3]
  exact tile_H (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) p ⟨256 * t.val + p.val, by have := t.isLt; have hN : cfg3.N = 16 := N_3; omega⟩
    (fun k => iblk3_0_apply V c t (ix2 p k) (ix2 _ k) rfl rfl) (fun k => iblk3_1_apply V c t (ix2 p k) (ix2 _ k) rfl rfl)
    (fun o k => iblk3_3_apply V c t (ix2 o k)) (fun o => iblk3_4_apply V c t (ix2 0 o)) q
    (iblk3_2_apply V c t (ix2 p q) (ix2 _ q) rfl rfl)

/-- The sixteen tiles of output window 5 cover its array: row `r` lies in tile `r / 256`. -/
theorem cover3_5 (c : Dev nD) (i : S4096x1024.Idx) :
    ∃ t : Fin cfg3.N, (cfg3.win 5).flush t = true ∧ i ∈ ((cfg3.win 5).blk t).view.set := by
  have hi0 : (i 0).val < 4096 := (i 0).isLt
  have hi1 : (i 1).val < 1024 := (i 1).isLt
  obtain ⟨t, ht⟩ : ∃ t : Fin cfg3.N, t.val = (i 0).val / 256 :=
    ⟨⟨(i 0).val / 256, by have hN : grid3.N = 16 := N_3; show (i 0).val / 256 < grid3.N; omega⟩, rfl⟩
  refine ⟨t, flush3_5 t, ?_⟩
  obtain ⟨-, -, -, -, -, -, -, -, -, -, e50, e51, -, -⟩ := idx3 t
  show i ∈ ((View.whole main_v41_0).slice (win3_5.rect t)).set
  rw [View.set_slice_whole, Rect.mem_set_unit]
  intro a
  match a with
  | ⟨0, _⟩ =>
    show win3_5.index t 0 * 256 ≤ (i 0).val ∧ (i 0).val < win3_5.index t 0 * 256 + 256
    rw [e50, ht]; omega
  | ⟨1, _⟩ =>
    show win3_5.index t 1 * 1024 ≤ (i 1).val ∧ (i 1).val < win3_5.index t 1 * 1024 + 1024
    rw [e51]; omega

/-- So after the layer its new hidden state array is that function of the five arrays the layer was entered with. -/
theorem final3_5 (c : Dev nD) : (dat3 V c).arrAt 5 cfg3.N
    = kH (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed3_5 V c t) (cover3_5 c)

/-- Where entry `(p, q)` of output window 6's tile at point `t` lands in its array. -/
theorem emb3_6 (t : Fin cfg3.N) (p : Fin 256) (q : Fin 1024) :
    ((cfg3.win 6).blk t).view.emb (ix2 p q)
      = (ix2 ⟨256 * t.val + p.val, by have := t.isLt; have hN : cfg3.N = 16 := N_3; omega⟩ q : S4096x1024.Idx) := by
  obtain ⟨-, -, -, -, -, -, -, -, -, -, -, -, e60, e61⟩ := idx3 t
  refine funext fun a => Fin.ext ?_
  match a with
  | ⟨0, _⟩ => show win3_6.index t 0 * 256 + 1 * p.val = 256 * t.val + p.val; rw [e60]; omega
  | ⟨1, _⟩ => show win3_6.index t 1 * 1024 + 1 * q.val = q.val; rw [e61]; omega

/-- What point `t` writes back through output window 6 is tile `t` of the layer's new cell state as a function of the five arrays. -/
theorem flushed3_6 (c : Dev nD) (t : Fin cfg3.N) :
    (dat3 V c).flushed 6 t = ((cfg3.win 6).blk t).view.read (Elt Ideal)
      (kC (V c (Pipeline.arrRef spec3 0)) (V c (Pipeline.arrRef spec3 1)) (V c (Pipeline.arrRef spec3 2))
        (V c (Pipeline.arrRef spec3 3)) (V c (Pipeline.arrRef spec3 4))) := by
  show (cfg3.win 6).cut (grid3.coords t) ((dat3 V c).after 6 t) = _
  rw [after3_6]
  unfold out3_6
  rw [View.canon_unit_zero hz3]
  simp only [View.ld_unit_zero (S := S256x1024) hz3, View.ld_unit_zero (S := S4096x2048) hz3, View.ld_unit_zero (S := S1x4096) hz3]
  funext y
  show k3_pay2 (iblk3 V c 0 t) (iblk3 V c 1 t) (iblk3 V c 3 t) (iblk3 V c 4 t) (iblk3 V c 2 t) y
    = kC (V c (Pipeline.arrRef spec3 0)) (V c (Pipeline.arrRef spec3 1)) (V c (Pipeline.arrRef spec3 2))
        (V c (Pipeline.arrRef spec3 3)) (V c (Pipeline.arrRef spec3 4)) (((cfg3.win 6).blk t).view.emb y)
  obtain ⟨p, q, rfl⟩ : ∃ (p : Fin 256) (q : Fin 1024), (y : S256x1024.Idx) = ix2 p q := ⟨y 0, y 1, eq_ix2 y⟩
  rw [emb3_6 t p q]
  rw [pay2_k3]
  exact tile_C (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) p ⟨256 * t.val + p.val, by have := t.isLt; have hN : cfg3.N = 16 := N_3; omega⟩
    (fun k => iblk3_0_apply V c t (ix2 p k) (ix2 _ k) rfl rfl) (fun k => iblk3_1_apply V c t (ix2 p k) (ix2 _ k) rfl rfl)
    (fun o k => iblk3_3_apply V c t (ix2 o k)) (fun o => iblk3_4_apply V c t (ix2 0 o)) q
    (iblk3_2_apply V c t (ix2 p q) (ix2 _ q) rfl rfl)

/-- The sixteen tiles of output window 6 cover its array: row `r` lies in tile `r / 256`. -/
theorem cover3_6 (c : Dev nD) (i : S4096x1024.Idx) :
    ∃ t : Fin cfg3.N, (cfg3.win 6).flush t = true ∧ i ∈ ((cfg3.win 6).blk t).view.set := by
  have hi0 : (i 0).val < 4096 := (i 0).isLt
  have hi1 : (i 1).val < 1024 := (i 1).isLt
  obtain ⟨t, ht⟩ : ∃ t : Fin cfg3.N, t.val = (i 0).val / 256 :=
    ⟨⟨(i 0).val / 256, by have hN : grid3.N = 16 := N_3; show (i 0).val / 256 < grid3.N; omega⟩, rfl⟩
  refine ⟨t, flush3_6 t, ?_⟩
  obtain ⟨-, -, -, -, -, -, -, -, -, -, -, -, e60, e61⟩ := idx3 t
  show i ∈ ((View.whole main_v41_1).slice (win3_6.rect t)).set
  rw [View.set_slice_whole, Rect.mem_set_unit]
  intro a
  match a with
  | ⟨0, _⟩ =>
    show win3_6.index t 0 * 256 ≤ (i 0).val ∧ (i 0).val < win3_6.index t 0 * 256 + 256
    rw [e60, ht]; omega
  | ⟨1, _⟩ =>
    show win3_6.index t 1 * 1024 ≤ (i 1).val ∧ (i 1).val < win3_6.index t 1 * 1024 + 1024
    rw [e61]; omega

/-- So after the layer its new cell state array is that function of the five arrays the layer was entered with. -/
theorem final3_6 (c : Dev nD) : (dat3 V c).arrAt 6 cfg3.N
    = kC (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 6 _ (fun t _ => flushed3_6 V c t) (cover3_6 c)

end Cert.KernelIdeal.Lstm

end
-- ==== Proof.KiHost.lean ====
import proofs.«163532_j60825326846606_2_alg».proof.KernelIdeal
import proofs.«163532_j60825326846606_2_alg».proof.Proof.Spec
import Idealize.ShloMosaic.Lib.ValueIdx
import Idealize.ShloMosaic.Lib.Pipeline.Value
import Idealize.ShloMosaic.Lib.ValueLayout

/-!
# The host-side layout operations, read at an index

Before each layer's kernel the host program prepares the kernel's operands from the argument arrays:

* a state array `[4096, 1024, 4]` is transposed to `[4, 4096, 1024]` (permutation `[2, 0, 1]`), layer `l`'s slab
  `[1, 4096, 1024]` is sliced out and cast to `[4096, 1024]`: at (p, k) this is the array at (p, k, l);
* the two weight arrays `[4, 4096, 1024]` are laid side by side along the last axis into `[4, 4096, 2048]`, narrowed
  (the identity on extended reals), layer `l`'s slab sliced out and cast to `[4096, 2048]`: at (o, k) for `k < 1024`
  this is the first array at (l, o, k), and at (o, 1024 + k) the second array at (l, o, k);
* the two bias arrays `[4, 4096]` are added, cast to `[4, 1, 4096]`, layer `l`'s row sliced out and cast to
  `[1, 4096]`: at (0, o) this is the sum of the two biases at (l, o).

Each lemma takes the side conditions of the layout operations as hypotheses, so it applies to any proof of them.
-/

noncomputable section

namespace Cert.KernelIdeal.Lstm

open Cert.KernelIdeal Idealize.ShloMosaic Idealize.ShloMosaic.ValueIdx

/-- Layer `l`'s slab of a state array, as the kernel receives it: at (p, k) the array at (p, k, l). -/
theorem slab_apply (l : Fin 4) (a : FVec Ideal S4096x1024x4 .f32)
    (ht : S4096x1024x4.Transposes [2, 0, 1] S4x4096x1024)
    (hs : S4x4096x1024.Slices ![l.val, 0, 0] S1x4096x1024)
    (hc : S1x4096x1024.ShapeCasts S4096x1024) (p : Fin 4096) (k : Fin 1024) :
    shapeCast S4096x1024
        (extractStridedSlice S1x4096x1024 ![l.val, 0, 0] (transpose S4x4096x1024 [2, 0, 1] a ht) hs) hc (ix2 p k)
      = a (ix3 p k l) := by
  refine (shapeCast_1ab_ab_apply _ hc p k).trans ?_
  refine (extractStridedSlice_apply _ _ hs (ix3 (0 : Fin 1) p k) (ix3 l p k) fun ax => match ax with
    | ⟨0, _⟩ => by show l.val = l.val + 0; omega
    | ⟨1, _⟩ => by show p.val = 0 + p.val; omega
    | ⟨2, _⟩ => by show k.val = 0 + k.val; omega).trans ?_
  exact transpose_apply [2, 0, 1] a ht (ix3 l p k) (ix3 p k l) fun b => match b with
    | ⟨0, _⟩ => rfl | ⟨1, _⟩ => rfl | ⟨2, _⟩ => rfl

/-- Layer `l`'s fused weight at a column of the first half: the first weight array at (l, o, k). -/
theorem weight_lo_apply (l : Fin 4) (w1 w2 : FVec Ideal S4x4096x1024 .f32)
    (hcat : Shape.Concatenates [S4x4096x1024, S4x4096x1024] S4x4096x2048 2)
    (hbits : FTy.bf16.bits < FTy.f32.bits)
    (hs : S4x4096x2048.Slices ![l.val, 0, 0] S1x4096x2048)
    (hc : S1x4096x2048.ShapeCasts S4096x2048) (o : Fin 4096) (k : Fin 1024) :
    shapeCast S4096x2048
        (extractStridedSlice S1x4096x2048 ![l.val, 0, 0]
          (truncf .bf16 (concatenate S4x4096x2048 2 [⟨S4x4096x1024, w1⟩, ⟨S4x4096x1024, w2⟩] hcat) hbits) hs) hc
        (ix2 o (⟨k.val, by omega⟩ : Fin 2048))
      = w1 (ix3 l o k) := by
  refine (shapeCast_1ab_ab_apply _ hc o _).trans ?_
  refine (extractStridedSlice_apply _ _ hs (ix3 (0 : Fin 1) o (⟨k.val, by omega⟩ : Fin 2048))
    (ix3 l o (⟨k.val, by omega⟩ : Fin 2048)) fun ax => match ax with
    | ⟨0, _⟩ => by show l.val = l.val + 0; omega
    | ⟨1, _⟩ => by show o.val = 0 + o.val; omega
    | ⟨2, _⟩ => by show k.val = 0 + k.val; omega).trans ?_
  refine (truncf_apply _ hbits _).trans ?_
  exact concatenate_pair_apply_left (t := S4x4096x2048) (s₁ := S4x4096x1024) (s₂ := S4x4096x1024) (2 : Fin 3) w1 w2 hcat
    (ix3 l o (⟨k.val, by omega⟩ : Fin 2048)) rfl (ix3 l o k)
    (fun b => match b with | ⟨0, _⟩ => rfl | ⟨1, _⟩ => rfl | ⟨2, _⟩ => rfl)

/-- Layer `l`'s fused weight at a column of the second half: the second weight array at (l, o, k). -/
theorem weight_hi_apply (l : Fin 4) (w1 w2 : FVec Ideal S4x4096x1024 .f32)
    (hcat : Shape.Concatenates [S4x4096x1024, S4x4096x1024] S4x4096x2048 2)
    (hbits : FTy.bf16.bits < FTy.f32.bits)
    (hs : S4x4096x2048.Slices ![l.val, 0, 0] S1x4096x2048)
    (hc : S1x4096x2048.ShapeCasts S4096x2048) (o : Fin 4096) (k : Fin 1024) :
    shapeCast S4096x2048
        (extractStridedSlice S1x4096x2048 ![l.val, 0, 0]
          (truncf .bf16 (concatenate S4x4096x2048 2 [⟨S4x4096x1024, w1⟩, ⟨S4x4096x1024, w2⟩] hcat) hbits) hs) hc
        (ix2 o (⟨1024 + k.val, by omega⟩ : Fin 2048))
      = w2 (ix3 l o k) := by
  refine (shapeCast_1ab_ab_apply _ hc o _).trans ?_
  refine (extractStridedSlice_apply _ _ hs (ix3 (0 : Fin 1) o (⟨1024 + k.val, by omega⟩ : Fin 2048))
    (ix3 l o (⟨1024 + k.val, by omega⟩ : Fin 2048)) fun ax => match ax with
    | ⟨0, _⟩ => by show l.val = l.val + 0; omega
    | ⟨1, _⟩ => by show o.val = 0 + o.val; omega
    | ⟨2, _⟩ => by show 1024 + k.val = 0 + (1024 + k.val); omega).trans ?_
  refine (truncf_apply _ hbits _).trans ?_
  exact concatenate_pair_apply_right (t := S4x4096x2048) (s₁ := S4x4096x1024) (s₂ := S4x4096x1024) (2 : Fin 3) w1 w2 hcat
    (ix3 l o (⟨1024 + k.val, by omega⟩ : Fin 2048)) rfl rfl (ix3 l o k)
    (fun b hb => match b, hb with | ⟨0, _⟩, _ => rfl | ⟨1, _⟩, _ => rfl | ⟨2, _⟩, hb => absurd rfl hb)
    (by show k.val + 1024 = 1024 + k.val; omega)

/-- Layer `l`'s fused bias row: at (0, o) the sum of the two biases at (l, o). -/
theorem bias_apply (l : Fin 4) (b1 b2 : FVec Ideal S4x4096 .f32)
    (hr : S4x4096.ShapeCasts S4x1x4096)
    (hs : S4x1x4096.Slices ![l.val, 0, 0] S1x1x4096)
    (hc : S1x1x4096.ShapeCasts S1x4096) (o : Fin 4096) :
    shapeCast S1x4096 (extractStridedSlice S1x1x4096 ![l.val, 0, 0] (shapeCast S4x1x4096 (addf b1 b2) hr) hs) hc
        (ix2 (0 : Fin 1) o)
      = b1 (ix2 l o) + b2 (ix2 l o) := by
  refine (shapeCast_1ab_ab_apply _ hc (0 : Fin 1) o).trans ?_
  refine (extractStridedSlice_apply _ _ hs (ix3 (0 : Fin 1) (0 : Fin 1) o) (ix3 l (0 : Fin 1) o) fun ax => match ax with
    | ⟨0, _⟩ => by show l.val = l.val + 0; omega
    | ⟨1, _⟩ => by show 0 = 0 + 0; omega
    | ⟨2, _⟩ => by show o.val = 0 + o.val; omega).trans ?_
  refine (shapeCast_apply _ hr (ix3 l (0 : Fin 1) o) (ix2 l o) ?_).trans (addf_apply b1 b2 _)
  rw [Shape.rowMajor_val_three, Shape.rowMajor_val_two]
  show l.val * 4096 + o.val = (l.val * 1 + 0) * 4096 + o.val
  omega

end Cert.KernelIdeal.Lstm

end
-- ==== Proof.LibStackLast.lean ====
/-
  Four matrices stacked on a new last axis, read at an index.

  Each `[4096, 1024]` matrix is viewed with a unit last axis (a broadcast that keeps both coordinates) and the four
  views are concatenated along that axis into a `[4096, 1024, 4]` array. At `(p, j, l)` the array holds matrix `l`
  at `(p, j)`: the last coordinate picks the piece (the pieces before it have extent one each), the other two pass
  through. The statements are over any element type and any proofs of the two shape facts.
-/
import Idealize.ShloMosaic.Lib.Pipeline.Value
import Idealize.ShloMosaic.Lib.ValueIdx

namespace Lstm.Lib

open Idealize.ShloMosaic Idealize.ShloMosaic.ValueIdx

/-- A matrix, the same with a unit last axis, and the stack of four. -/
abbrev M2 : Shape := ⟨2, ![4096, 1024]⟩
abbrev M3 : Shape := ⟨3, ![4096, 1024, 1]⟩
abbrev M4 : Shape := ⟨3, ![4096, 1024, 4]⟩

variable {α : Type} (hb : M2.BroadcastsInDim M3 ![0, 1]) (hcat : Shape.Concatenates [M3, M3, M3, M3] M4 2)

/-- Four matrices, each viewed with a unit last axis, as the list the concatenation takes. -/
abbrev pieces4 (u0 u1 u2 u3 : M2.Idx → α) : List ((s : Shape) × (s.Idx → α)) :=
  [⟨M3, broadcastInDim M3 ![0, 1] hb u0⟩, ⟨M3, broadcastInDim M3 ![0, 1] hb u1⟩,
    ⟨M3, broadcastInDim M3 ![0, 1] hb u2⟩, ⟨M3, broadcastInDim M3 ![0, 1] hb u3⟩]

/-- A matrix viewed with a unit last axis, at `(p, j, 0)`. -/
theorem unitLast_apply (u : M2.Idx → α) (p : Fin 4096) (j : Fin 1024) :
    broadcastInDim M3 ![0, 1] hb u (ix3 p j 0) = u (ix2 p j) :=
  broadcastInDim_apply ![0, 1] hb u (ix3 p j 0) (ix2 p j) (fun a => match a with | ⟨0, _⟩ => rfl | ⟨1, _⟩ => rfl)

/-- Off the stacking axis, the index into a piece has the stack index's coordinates. -/
theorem off_axis (p : Fin 4096) (j : Fin 1024) (l : Fin 4) (b : Fin M3.rank)
    (hne : b.cast (rfl : M3.rank = M4.rank) ≠ (2 : Fin M4.rank)) :
    ((ix3 p j (0 : Fin 1) : M3.Idx) b).val = ((ix3 p j l : M4.Idx) (b.cast rfl)).val :=
  match b, hne with
  | ⟨0, _⟩, _ => rfl
  | ⟨1, _⟩, _ => rfl
  | ⟨2, _⟩, hne => absurd rfl hne

theorem stack4_at0 (u0 u1 u2 u3 : M2.Idx → α) (p : Fin 4096) (j : Fin 1024) :
    concatenate M4 2 (pieces4 hb u0 u1 u2 u3) hcat (ix3 p j 0) = u0 (ix2 p j) :=
  (concatenate_apply_piece (2 : Fin M4.rank) (pieces4 hb u0 u1 u2 u3) hcat _ 0 (Nat.zero_lt_succ _) M3 _ rfl rfl
    0 rfl (ix3 p j 0) (off_axis p j 0) rfl).trans (unitLast_apply hb u0 p j)

theorem stack4_at1 (u0 u1 u2 u3 : M2.Idx → α) (p : Fin 4096) (j : Fin 1024) :
    concatenate M4 2 (pieces4 hb u0 u1 u2 u3) hcat (ix3 p j 1) = u1 (ix2 p j) :=
  (concatenate_apply_piece (2 : Fin M4.rank) (pieces4 hb u0 u1 u2 u3) hcat _ 1 (by show (1 : Nat) < 4; omega) M3 _ rfl rfl
    1 rfl (ix3 p j 0) (off_axis p j 1) rfl).trans (unitLast_apply hb u1 p j)

theorem stack4_at2 (u0 u1 u2 u3 : M2.Idx → α) (p : Fin 4096) (j : Fin 1024) :
    concatenate M4 2 (pieces4 hb u0 u1 u2 u3) hcat (ix3 p j 2) = u2 (ix2 p j) :=
  (concatenate_apply_piece (2 : Fin M4.rank) (pieces4 hb u0 u1 u2 u3) hcat _ 2 (by show (2 : Nat) < 4; omega) M3 _ rfl rfl
    2 rfl (ix3 p j 0) (off_axis p j 2) rfl).trans (unitLast_apply hb u2 p j)

theorem stack4_at3 (u0 u1 u2 u3 : M2.Idx → α) (p : Fin 4096) (j : Fin 1024) :
    concatenate M4 2 (pieces4 hb u0 u1 u2 u3) hcat (ix3 p j 3) = u3 (ix2 p j) :=
  (concatenate_apply_piece (2 : Fin M4.rank) (pieces4 hb u0 u1 u2 u3) hcat _ 3 (by show (3 : Nat) < 4; omega) M3 _ rfl rfl
    3 rfl (ix3 p j 0) (off_axis p j 3) rfl).trans (unitLast_apply hb u3 p j)

/-- The stack of `a 0 … a 3` at `(p, j, l)` is `a l` at `(p, j)`. -/
theorem stack4_apply (a : Fin 4 → (M2.Idx → α)) (p : Fin 4096) (j : Fin 1024) (l : Fin 4) :
    concatenate M4 2 (pieces4 hb (a 0) (a 1) (a 2) (a 3)) hcat (ix3 p j l) = a l (ix2 p j) :=
  match l with
  | ⟨0, _⟩ => stack4_at0 hb hcat (a 0) (a 1) (a 2) (a 3) p j
  | ⟨1, _⟩ => stack4_at1 hb hcat (a 0) (a 1) (a 2) (a 3) p j
  | ⟨2, _⟩ => stack4_at2 hb hcat (a 0) (a 1) (a 2) (a 3) p j
  | ⟨3, _⟩ => stack4_at3 hb hcat (a 0) (a 1) (a 2) (a 3) p j

end Lstm.Lib
-- ==== Proof.KiHostRun.lean ====
import proofs.«163532_j60825326846606_2_alg».proof.Proof.Gen.KernelIdeal.Launch
import Idealize.ShloMosaic.Lib.StableHlo.Run
import Idealize.ShloMosaic.PureOps.Ideal
import proofs.«163532_j60825326846606_2_alg».proof.Proof.KiHost
import proofs.«163532_j60825326846606_2_alg».proof.Proof.LibStackLast

/-!
# What the host stretches of the program leave in the kernels' operand buffers

Between the kernels the host program runs five straight stretches of layout operations. Over an arbitrary valuation
`W` of the buffers, this module reads what each stretch leaves in the buffers the next kernel (or the result) takes:

* the first stretch prepares, from the argument arrays, the transposed state arrays, the fused weight array and the
  summed bias array, and layer 0's slabs of them;
* stretches 1, 2, 3 slice layer 1, 2, 3's slabs out of those prepared arrays (stated under hypotheses naming what the
  prepared arrays hold);
* the last stretch stacks the four layers' results on a new last axis.

Each whole-array statement is the printed operations composed; the statement at an index then follows from the layout
lemmas of the host-side module and the stack-of-four lemma.
-/

set_option maxRecDepth 16384

noncomputable section

namespace Cert.KernelIdeal.Lstm

open Cert.KernelIdeal Cert.KernelIdeal.Gen
open Idealize.ShloMosaic Idealize.ShloMosaic.TcCoe Idealize.ShloMosaic.StableHlo Idealize.ShloMosaic.ValueIdx
open Idealize.SL.Sem

/-! ## The first stretch: everything from the arguments -/

section Stretch0
variable (W : Valuation τ sig (Elt Ideal))

/-- The transposed hidden-state array. -/
theorem host0_v0 :
    (StableHlo.after hostOps0 W (Proc.devRef .tc main_v0) : S4x4096x1024.Idx → EReal)
      = transpose S4x4096x1024 [2, 0, 1] (W (Proc.devRef .tc main_arg1) : S4096x1024x4.Idx → EReal) transposes_S4096x1024x4_S4x4096x1024_2_0_1 := by
  simp only [hostOps0]
  after_results <;> rfl

/-- The transposed cell-state array. -/
theorem host0_v1 :
    (StableHlo.after hostOps0 W (Proc.devRef .tc main_v1) : S4x4096x1024.Idx → EReal)
      = transpose S4x4096x1024 [2, 0, 1] (W (Proc.devRef .tc main_arg2) : S4096x1024x4.Idx → EReal) transposes_S4096x1024x4_S4x4096x1024_2_0_1 := by
  simp only [hostOps0]
  after_results <;> rfl

/-- The two weight arrays side by side, narrowed. -/
theorem host0_v3 :
    (StableHlo.after hostOps0 W (Proc.devRef .tc main_v3) : S4x4096x2048.Idx → EReal)
      = (truncf (F := Ideal) .bf16 (concatenate S4x4096x2048 2 [⟨S4x4096x1024, (W (Proc.devRef .tc main_arg3) : S4x4096x1024.Idx → EReal)⟩, ⟨S4x4096x1024, (W (Proc.devRef .tc main_arg4) : S4x4096x1024.Idx → EReal)⟩] concatenates_S4x4096x1024_S4x4096x1024_S4x4096x2048_d2 : FVec Ideal S4x4096x2048 .f32) bitsLt_bf16_f32) := by
  simp only [hostOps0]
  after_results <;> rfl

/-- The sum of the two bias arrays, with a unit middle axis. -/
theorem host0_v5 :
    (StableHlo.after hostOps0 W (Proc.devRef .tc main_v5) : S4x1x4096.Idx → EReal)
      = (shapeCast S4x1x4096 (addf (F := Ideal) (s := S4x4096) (φ := .f32) (W (Proc.devRef .tc main_arg5)) (W (Proc.devRef .tc main_arg6))) shapeCasts_S4x4096_S4x1x4096) := by
  simp only [hostOps0]
  after_results <;> rfl

/-- Layer 0's hidden-state slab. -/
theorem host0_v7 :
    (StableHlo.after hostOps0 W (Proc.devRef .tc main_v7) : S4096x1024.Idx → EReal)
      = shapeCast S4096x1024 (extractStridedSlice S1x4096x1024 ![0, 0, 0]
          (transpose S4x4096x1024 [2, 0, 1] (W (Proc.devRef .tc main_arg1) : S4096x1024x4.Idx → EReal) transposes_S4096x1024x4_S4x4096x1024_2_0_1)
          slices_S4x4096x1024_S1x4096x1024_0_0_0) shapeCasts_S1x4096x1024_S4096x1024 := by
  simp only [hostOps0]
  after_results <;> rfl

/-- Layer 0's cell-state slab. -/
theorem host0_v9 :
    (StableHlo.after hostOps0 W (Proc.devRef .tc main_v9) : S4096x1024.Idx → EReal)
      = shapeCast S4096x1024 (extractStridedSlice S1x4096x1024 ![0, 0, 0]
          (transpose S4x4096x1024 [2, 0, 1] (W (Proc.devRef .tc main_arg2) : S4096x1024x4.Idx → EReal) transposes_S4096x1024x4_S4x4096x1024_2_0_1)
          slices_S4x4096x1024_S1x4096x1024_0_0_0) shapeCasts_S1x4096x1024_S4096x1024 := by
  simp only [hostOps0]
  after_results <;> rfl

/-- Layer 0's fused weight. -/
theorem host0_v11 :
    (StableHlo.after hostOps0 W (Proc.devRef .tc main_v11) : S4096x2048.Idx → EReal)
      = shapeCast S4096x2048 (extractStridedSlice S1x4096x2048 ![0, 0, 0]
          (truncf (F := Ideal) .bf16 (concatenate S4x4096x2048 2 [⟨S4x4096x1024, (W (Proc.devRef .tc main_arg3) : S4x4096x1024.Idx → EReal)⟩, ⟨S4x4096x1024, (W (Proc.devRef .tc main_arg4) : S4x4096x1024.Idx → EReal)⟩] concatenates_S4x4096x1024_S4x4096x1024_S4x4096x2048_d2 : FVec Ideal S4x4096x2048 .f32) bitsLt_bf16_f32)
          slices_S4x4096x2048_S1x4096x2048_0_0_0) shapeCasts_S1x4096x2048_S4096x2048 := by
  simp only [hostOps0]
  after_results <;> rfl

/-- Layer 0's fused bias row. -/
theorem host0_v13 :
    (StableHlo.after hostOps0 W (Proc.devRef .tc main_v13) : S1x4096.Idx → EReal)
      = shapeCast S1x4096 (extractStridedSlice S1x1x4096 ![0, 0, 0]
          (shapeCast S4x1x4096 (addf (F := Ideal) (s := S4x4096) (φ := .f32) (W (Proc.devRef .tc main_arg5)) (W (Proc.devRef .tc main_arg6))) shapeCasts_S4x4096_S4x1x4096)
          slices_S4x1x4096_S1x1x4096_0_0_0) shapeCasts_S1x1x4096_S1x4096 := by
  simp only [hostOps0]
  after_results <;> rfl

theorem host0_v7_apply (p : Fin 4096) (k : Fin 1024) :
    (StableHlo.after hostOps0 W (Proc.devRef .tc main_v7) : S4096x1024.Idx → EReal) (ix2 p k)
      = (W (Proc.devRef .tc main_arg1) : S4096x1024x4.Idx → EReal) (ix3 p k 0) := by
  rw [host0_v7]
  exact slab_apply 0 _ _ _ _ p k

theorem host0_v9_apply (p : Fin 4096) (k : Fin 1024) :
    (StableHlo.after hostOps0 W (Proc.devRef .tc main_v9) : S4096x1024.Idx → EReal) (ix2 p k)
      = (W (Proc.devRef .tc main_arg2) : S4096x1024x4.Idx → EReal) (ix3 p k 0) := by
  rw [host0_v9]
  exact slab_apply 0 _ _ _ _ p k

theorem host0_v11_lo (o : Fin 4096) (k : Fin 1024) :
    (StableHlo.after hostOps0 W (Proc.devRef .tc main_v11) : S4096x2048.Idx → EReal) (ix2 o (⟨k.val, by omega⟩ : Fin 2048))
      = (W (Proc.devRef .tc main_arg3) : S4x4096x1024.Idx → EReal) (ix3 0 o k) := by
  rw [host0_v11]
  exact weight_lo_apply 0 _ _ _ _ _ _ o k

theorem host0_v11_hi (o : Fin 4096) (k : Fin 1024) :
    (StableHlo.after hostOps0 W (Proc.devRef .tc main_v11) : S4096x2048.Idx → EReal) (ix2 o (⟨1024 + k.val, by omega⟩ : Fin 2048))
      = (W (Proc.devRef .tc main_arg4) : S4x4096x1024.Idx → EReal) (ix3 0 o k) := by
  rw [host0_v11]
  exact weight_hi_apply 0 _ _ _ _ _ _ o k

theorem host0_v13_apply (o : Fin 4096) :
    (StableHlo.after hostOps0 W (Proc.devRef .tc main_v13) : S1x4096.Idx → EReal) (ix2 (0 : Fin 1) o)
      = @HAdd.hAdd EReal EReal EReal _ ((W (Proc.devRef .tc main_arg5) : S4x4096.Idx → EReal) (ix2 0 o)) ((W (Proc.devRef .tc main_arg6) : S4x4096.Idx → EReal) (ix2 0 o)) := by
  rw [host0_v13]
  exact bias_apply 0 _ _ _ _ _ o

end Stretch0

/-! ## Stretch 1: layer 1's operands from the arrays the first stretch prepared -/

section Stretch1
variable (W : Valuation τ sig (Elt Ideal))

theorem host1_v16 :
    (StableHlo.after hostOps1 W (Proc.devRef .tc main_v16) : S4096x1024.Idx → EReal)
      = shapeCast S4096x1024 (extractStridedSlice S1x4096x1024 ![1, 0, 0] (W (Proc.devRef .tc main_v0) : S4x4096x1024.Idx → EReal)
          slices_S4x4096x1024_S1x4096x1024_1_0_0) shapeCasts_S1x4096x1024_S4096x1024 := by
  simp only [hostOps1]
  after_results
  rfl

theorem host1_v18 :
    (StableHlo.after hostOps1 W (Proc.devRef .tc main_v18) : S4096x1024.Idx → EReal)
      = shapeCast S4096x1024 (extractStridedSlice S1x4096x1024 ![1, 0, 0] (W (Proc.devRef .tc main_v1) : S4x4096x1024.Idx → EReal)
          slices_S4x4096x1024_S1x4096x1024_1_0_0) shapeCasts_S1x4096x1024_S4096x1024 := by
  simp only [hostOps1]
  after_results
  rfl

theorem host1_v20 :
    (StableHlo.after hostOps1 W (Proc.devRef .tc main_v20) : S4096x2048.Idx → EReal)
      = shapeCast S4096x2048 (extractStridedSlice S1x4096x2048 ![1, 0, 0] (W (Proc.devRef .tc main_v3) : S4x4096x2048.Idx → EReal)
          slices_S4x4096x2048_S1x4096x2048_1_0_0) shapeCasts_S1x4096x2048_S4096x2048 := by
  simp only [hostOps1]
  after_results
  rfl

theorem host1_v22 :
    (StableHlo.after hostOps1 W (Proc.devRef .tc main_v22) : S1x4096.Idx → EReal)
      = shapeCast S1x4096 (extractStridedSlice S1x1x4096 ![1, 0, 0] (W (Proc.devRef .tc main_v5) : S4x1x4096.Idx → EReal)
          slices_S4x1x4096_S1x1x4096_1_0_0) shapeCasts_S1x1x4096_S1x4096 := by
  simp only [hostOps1]
  after_results
  rfl

variable (a1 a2 : FVec Ideal S4096x1024x4 .f32) (a3 a4 : FVec Ideal S4x4096x1024 .f32) (a5 a6 : FVec Ideal S4x4096 .f32)

/-- Layer 1's hidden-state slab, when the transposed array is the transpose of `a1`. -/
theorem host1_v16_apply
    (h0 : (W (Proc.devRef .tc main_v0) : S4x4096x1024.Idx → EReal) = transpose S4x4096x1024 [2, 0, 1] a1 transposes_S4096x1024x4_S4x4096x1024_2_0_1)
    (p : Fin 4096) (k : Fin 1024) :
    (StableHlo.after hostOps1 W (Proc.devRef .tc main_v16) : S4096x1024.Idx → EReal) (ix2 p k) = a1 (ix3 p k 1) := by
  rw [host1_v16, h0]
  exact slab_apply 1 a1 _ _ _ p k

/-- Layer 1's cell-state slab, when the transposed array is the transpose of `a2`. -/
theorem host1_v18_apply
    (h1 : (W (Proc.devRef .tc main_v1) : S4x4096x1024.Idx → EReal) = transpose S4x4096x1024 [2, 0, 1] a2 transposes_S4096x1024x4_S4x4096x1024_2_0_1)
    (p : Fin 4096) (k : Fin 1024) :
    (StableHlo.after hostOps1 W (Proc.devRef .tc main_v18) : S4096x1024.Idx → EReal) (ix2 p k) = a2 (ix3 p k 1) := by
  rw [host1_v18, h1]
  exact slab_apply 1 a2 _ _ _ p k

/-- Layer 1's fused weight, first half, when the fused array is `a3` and `a4` side by side. -/
theorem host1_v20_lo
    (h3 : (W (Proc.devRef .tc main_v3) : S4x4096x2048.Idx → EReal) = truncf (F := Ideal) .bf16 (concatenate S4x4096x2048 2 [⟨S4x4096x1024, a3⟩, ⟨S4x4096x1024, a4⟩] concatenates_S4x4096x1024_S4x4096x1024_S4x4096x2048_d2 : FVec Ideal S4x4096x2048 .f32) bitsLt_bf16_f32)
    (o : Fin 4096) (k : Fin 1024) :
    (StableHlo.after hostOps1 W (Proc.devRef .tc main_v20) : S4096x2048.Idx → EReal) (ix2 o (⟨k.val, by omega⟩ : Fin 2048)) = a3 (ix3 1 o k) := by
  rw [host1_v20, h3]
  exact weight_lo_apply 1 a3 a4 _ _ _ _ o k

/-- Layer 1's fused weight, second half. -/
theorem host1_v20_hi
    (h3 : (W (Proc.devRef .tc main_v3) : S4x4096x2048.Idx → EReal) = truncf (F := Ideal) .bf16 (concatenate S4x4096x2048 2 [⟨S4x4096x1024, a3⟩, ⟨S4x4096x1024, a4⟩] concatenates_S4x4096x1024_S4x4096x1024_S4x4096x2048_d2 : FVec Ideal S4x4096x2048 .f32) bitsLt_bf16_f32)
    (o : Fin 4096) (k : Fin 1024) :
    (StableHlo.after hostOps1 W (Proc.devRef .tc main_v20) : S4096x2048.Idx → EReal) (ix2 o (⟨1024 + k.val, by omega⟩ : Fin 2048)) = a4 (ix3 1 o k) := by
  rw [host1_v20, h3]
  exact weight_hi_apply 1 a3 a4 _ _ _ _ o k

/-- Layer 1's fused bias row, when the summed array is `a5 + a6`. -/
theorem host1_v22_apply
    (h5 : (W (Proc.devRef .tc main_v5) : S4x1x4096.Idx → EReal) = shapeCast S4x1x4096 (addf (F := Ideal) a5 a6) shapeCasts_S4x4096_S4x1x4096)
    (o : Fin 4096) :
    (StableHlo.after hostOps1 W (Proc.devRef .tc main_v22) : S1x4096.Idx → EReal) (ix2 (0 : Fin 1) o) = a5 (ix2 1 o) + a6 (ix2 1 o) := by
  rw [host1_v22, h5]
  exact bias_apply 1 a5 a6 _ _ _ o

end Stretch1

/-! ## Stretch 2: layer 2's operands from the arrays the first stretch prepared -/

section Stretch2
variable (W : Valuation τ sig (Elt Ideal))

theorem host2_v25 :
    (StableHlo.after hostOps2 W (Proc.devRef .tc main_v25) : S4096x1024.Idx → EReal)
      = shapeCast S4096x1024 (extractStridedSlice S1x4096x1024 ![2, 0, 0] (W (Proc.devRef .tc main_v0) : S4x4096x1024.Idx → EReal)
          slices_S4x4096x1024_S1x4096x1024_2_0_0) shapeCasts_S1x4096x1024_S4096x1024 := by
  simp only [hostOps2]
  after_results
  rfl

theorem host2_v27 :
    (StableHlo.after hostOps2 W (Proc.devRef .tc main_v27) : S4096x1024.Idx → EReal)
      = shapeCast S4096x1024 (extractStridedSlice S1x4096x1024 ![2, 0, 0] (W (Proc.devRef .tc main_v1) : S4x4096x1024.Idx → EReal)
          slices_S4x4096x1024_S1x4096x1024_2_0_0) shapeCasts_S1x4096x1024_S4096x1024 := by
  simp only [hostOps2]
  after_results
  rfl

theorem host2_v29 :
    (StableHlo.after hostOps2 W (Proc.devRef .tc main_v29) : S4096x2048.Idx → EReal)
      = shapeCast S4096x2048 (extractStridedSlice S1x4096x2048 ![2, 0, 0] (W (Proc.devRef .tc main_v3) : S4x4096x2048.Idx → EReal)
          slices_S4x4096x2048_S1x4096x2048_2_0_0) shapeCasts_S1x4096x2048_S4096x2048 := by
  simp only [hostOps2]
  after_results
  rfl

theorem host2_v31 :
    (StableHlo.after hostOps2 W (Proc.devRef .tc main_v31) : S1x4096.Idx → EReal)
      = shapeCast S1x4096 (extractStridedSlice S1x1x4096 ![2, 0, 0] (W (Proc.devRef .tc main_v5) : S4x1x4096.Idx → EReal)
          slices_S4x1x4096_S1x1x4096_2_0_0) shapeCasts_S1x1x4096_S1x4096 := by
  simp only [hostOps2]
  after_results
  rfl

variable (a1 a2 : FVec Ideal S4096x1024x4 .f32) (a3 a4 : FVec Ideal S4x4096x1024 .f32) (a5 a6 : FVec Ideal S4x4096 .f32)

/-- Layer 2's hidden-state slab, when the transposed array is the transpose of `a1`. -/
theorem host2_v25_apply
    (h0 : (W (Proc.devRef .tc main_v0) : S4x4096x1024.Idx → EReal) = transpose S4x4096x1024 [2, 0, 1] a1 transposes_S4096x1024x4_S4x4096x1024_2_0_1)
    (p : Fin 4096) (k : Fin 1024) :
    (StableHlo.after hostOps2 W (Proc.devRef .tc main_v25) : S4096x1024.Idx → EReal) (ix2 p k) = a1 (ix3 p k 2) := by
  rw [host2_v25, h0]
  exact slab_apply 2 a1 _ _ _ p k

/-- Layer 2's cell-state slab, when the transposed array is the transpose of `a2`. -/
theorem host2_v27_apply
    (h1 : (W (Proc.devRef .tc main_v1) : S4x4096x1024.Idx → EReal) = transpose S4x4096x1024 [2, 0, 1] a2 transposes_S4096x1024x4_S4x4096x1024_2_0_1)
    (p : Fin 4096) (k : Fin 1024) :
    (StableHlo.after hostOps2 W (Proc.devRef .tc main_v27) : S4096x1024.Idx → EReal) (ix2 p k) = a2 (ix3 p k 2) := by
  rw [host2_v27, h1]
  exact slab_apply 2 a2 _ _ _ p k

/-- Layer 2's fused weight, first half, when the fused array is `a3` and `a4` side by side. -/
theorem host2_v29_lo
    (h3 : (W (Proc.devRef .tc main_v3) : S4x4096x2048.Idx → EReal) = truncf (F := Ideal) .bf16 (concatenate S4x4096x2048 2 [⟨S4x4096x1024, a3⟩, ⟨S4x4096x1024, a4⟩] concatenates_S4x4096x1024_S4x4096x1024_S4x4096x2048_d2 : FVec Ideal S4x4096x2048 .f32) bitsLt_bf16_f32)
    (o : Fin 4096) (k : Fin 1024) :
    (StableHlo.after hostOps2 W (Proc.devRef .tc main_v29) : S4096x2048.Idx → EReal) (ix2 o (⟨k.val, by omega⟩ : Fin 2048)) = a3 (ix3 2 o k) := by
  rw [host2_v29, h3]
  exact weight_lo_apply 2 a3 a4 _ _ _ _ o k

/-- Layer 2's fused weight, second half. -/
theorem host2_v29_hi
    (h3 : (W (Proc.devRef .tc main_v3) : S4x4096x2048.Idx → EReal) = truncf (F := Ideal) .bf16 (concatenate S4x4096x2048 2 [⟨S4x4096x1024, a3⟩, ⟨S4x4096x1024, a4⟩] concatenates_S4x4096x1024_S4x4096x1024_S4x4096x2048_d2 : FVec Ideal S4x4096x2048 .f32) bitsLt_bf16_f32)
    (o : Fin 4096) (k : Fin 1024) :
    (StableHlo.after hostOps2 W (Proc.devRef .tc main_v29) : S4096x2048.Idx → EReal) (ix2 o (⟨1024 + k.val, by omega⟩ : Fin 2048)) = a4 (ix3 2 o k) := by
  rw [host2_v29, h3]
  exact weight_hi_apply 2 a3 a4 _ _ _ _ o k

/-- Layer 2's fused bias row, when the summed array is `a5 + a6`. -/
theorem host2_v31_apply
    (h5 : (W (Proc.devRef .tc main_v5) : S4x1x4096.Idx → EReal) = shapeCast S4x1x4096 (addf (F := Ideal) a5 a6) shapeCasts_S4x4096_S4x1x4096)
    (o : Fin 4096) :
    (StableHlo.after hostOps2 W (Proc.devRef .tc main_v31) : S1x4096.Idx → EReal) (ix2 (0 : Fin 1) o) = a5 (ix2 2 o) + a6 (ix2 2 o) := by
  rw [host2_v31, h5]
  exact bias_apply 2 a5 a6 _ _ _ o

end Stretch2

/-! ## Stretch 3: layer 3's operands from the arrays the first stretch prepared -/

section Stretch3
variable (W : Valuation τ sig (Elt Ideal))

theorem host3_v34 :
    (StableHlo.after hostOps3 W (Proc.devRef .tc main_v34) : S4096x1024.Idx → EReal)
      = shapeCast S4096x1024 (extractStridedSlice S1x4096x1024 ![3, 0, 0] (W (Proc.devRef .tc main_v0) : S4x4096x1024.Idx → EReal)
          slices_S4x4096x1024_S1x4096x1024_3_0_0) shapeCasts_S1x4096x1024_S4096x1024 := by
  simp only [hostOps3]
  after_results
  rfl

theorem host3_v36 :
    (StableHlo.after hostOps3 W (Proc.devRef .tc main_v36) : S4096x1024.Idx → EReal)
      = shapeCast S4096x1024 (extractStridedSlice S1x4096x1024 ![3, 0, 0] (W (Proc.devRef .tc main_v1) : S4x4096x1024.Idx → EReal)
          slices_S4x4096x1024_S1x4096x1024_3_0_0) shapeCasts_S1x4096x1024_S4096x1024 := by
  simp only [hostOps3]
  after_results
  rfl

theorem host3_v38 :
    (StableHlo.after hostOps3 W (Proc.devRef .tc main_v38) : S4096x2048.Idx → EReal)
      = shapeCast S4096x2048 (extractStridedSlice S1x4096x2048 ![3, 0, 0] (W (Proc.devRef .tc main_v3) : S4x4096x2048.Idx → EReal)
          slices_S4x4096x2048_S1x4096x2048_3_0_0) shapeCasts_S1x4096x2048_S4096x2048 := by
  simp only [hostOps3]
  after_results
  rfl

theorem host3_v40 :
    (StableHlo.after hostOps3 W (Proc.devRef .tc main_v40) : S1x4096.Idx → EReal)
      = shapeCast S1x4096 (extractStridedSlice S1x1x4096 ![3, 0, 0] (W (Proc.devRef .tc main_v5) : S4x1x4096.Idx → EReal)
          slices_S4x1x4096_S1x1x4096_3_0_0) shapeCasts_S1x1x4096_S1x4096 := by
  simp only [hostOps3]
  after_results
  rfl

variable (a1 a2 : FVec Ideal S4096x1024x4 .f32) (a3 a4 : FVec Ideal S4x4096x1024 .f32) (a5 a6 : FVec Ideal S4x4096 .f32)

/-- Layer 3's hidden-state slab, when the transposed array is the transpose of `a1`. -/
theorem host3_v34_apply
    (h0 : (W (Proc.devRef .tc main_v0) : S4x4096x1024.Idx → EReal) = transpose S4x4096x1024 [2, 0, 1] a1 transposes_S4096x1024x4_S4x4096x1024_2_0_1)
    (p : Fin 4096) (k : Fin 1024) :
    (StableHlo.after hostOps3 W (Proc.devRef .tc main_v34) : S4096x1024.Idx → EReal) (ix2 p k) = a1 (ix3 p k 3) := by
  rw [host3_v34, h0]
  exact slab_apply 3 a1 _ _ _ p k

/-- Layer 3's cell-state slab, when the transposed array is the transpose of `a2`. -/
theorem host3_v36_apply
    (h1 : (W (Proc.devRef .tc main_v1) : S4x4096x1024.Idx → EReal) = transpose S4x4096x1024 [2, 0, 1] a2 transposes_S4096x1024x4_S4x4096x1024_2_0_1)
    (p : Fin 4096) (k : Fin 1024) :
    (StableHlo.after hostOps3 W (Proc.devRef .tc main_v36) : S4096x1024.Idx → EReal) (ix2 p k) = a2 (ix3 p k 3) := by
  rw [host3_v36, h1]
  exact slab_apply 3 a2 _ _ _ p k

/-- Layer 3's fused weight, first half, when the fused array is `a3` and `a4` side by side. -/
theorem host3_v38_lo
    (h3 : (W (Proc.devRef .tc main_v3) : S4x4096x2048.Idx → EReal) = truncf (F := Ideal) .bf16 (concatenate S4x4096x2048 2 [⟨S4x4096x1024, a3⟩, ⟨S4x4096x1024, a4⟩] concatenates_S4x4096x1024_S4x4096x1024_S4x4096x2048_d2 : FVec Ideal S4x4096x2048 .f32) bitsLt_bf16_f32)
    (o : Fin 4096) (k : Fin 1024) :
    (StableHlo.after hostOps3 W (Proc.devRef .tc main_v38) : S4096x2048.Idx → EReal) (ix2 o (⟨k.val, by omega⟩ : Fin 2048)) = a3 (ix3 3 o k) := by
  rw [host3_v38, h3]
  exact weight_lo_apply 3 a3 a4 _ _ _ _ o k

/-- Layer 3's fused weight, second half. -/
theorem host3_v38_hi
    (h3 : (W (Proc.devRef .tc main_v3) : S4x4096x2048.Idx → EReal) = truncf (F := Ideal) .bf16 (concatenate S4x4096x2048 2 [⟨S4x4096x1024, a3⟩, ⟨S4x4096x1024, a4⟩] concatenates_S4x4096x1024_S4x4096x1024_S4x4096x2048_d2 : FVec Ideal S4x4096x2048 .f32) bitsLt_bf16_f32)
    (o : Fin 4096) (k : Fin 1024) :
    (StableHlo.after hostOps3 W (Proc.devRef .tc main_v38) : S4096x2048.Idx → EReal) (ix2 o (⟨1024 + k.val, by omega⟩ : Fin 2048)) = a4 (ix3 3 o k) := by
  rw [host3_v38, h3]
  exact weight_hi_apply 3 a3 a4 _ _ _ _ o k

/-- Layer 3's fused bias row, when the summed array is `a5 + a6`. -/
theorem host3_v40_apply
    (h5 : (W (Proc.devRef .tc main_v5) : S4x1x4096.Idx → EReal) = shapeCast S4x1x4096 (addf (F := Ideal) a5 a6) shapeCasts_S4x4096_S4x1x4096)
    (o : Fin 4096) :
    (StableHlo.after hostOps3 W (Proc.devRef .tc main_v40) : S1x4096.Idx → EReal) (ix2 (0 : Fin 1) o) = a5 (ix2 3 o) + a6 (ix2 3 o) := by
  rw [host3_v40, h5]
  exact bias_apply 3 a5 a6 _ _ _ o

end Stretch3

/-! ## The last stretch: the results stacked -/

/-- The last stretch stacks the four layers' results on a new last axis. -/
theorem host4_v46 (W : Valuation τ sig (Elt Ideal)) :
    (StableHlo.after hostOps4 W (Proc.devRef .tc main_v46) : S4096x1024x4.Idx → EReal)
      = concatenate S4096x1024x4 2
         [⟨S4096x1024x1, broadcastInDim S4096x1024x1 ![0, 1] bcast_S4096x1024_S4096x1024x1_0_1 (W (Proc.devRef .tc main_v14_0) : S4096x1024.Idx → EReal)⟩,
          ⟨S4096x1024x1, broadcastInDim S4096x1024x1 ![0, 1] bcast_S4096x1024_S4096x1024x1_0_1 (W (Proc.devRef .tc main_v23_0) : S4096x1024.Idx → EReal)⟩,
          ⟨S4096x1024x1, broadcastInDim S4096x1024x1 ![0, 1] bcast_S4096x1024_S4096x1024x1_0_1 (W (Proc.devRef .tc main_v32_0) : S4096x1024.Idx → EReal)⟩,
          ⟨S4096x1024x1, broadcastInDim S4096x1024x1 ![0, 1] bcast_S4096x1024_S4096x1024x1_0_1 (W (Proc.devRef .tc main_v41_0) : S4096x1024.Idx → EReal)⟩]
         concatenates_S4096x1024x1_S4096x1024x1_S4096x1024x1_S4096x1024x1_S4096x1024x4_d2 := by
  simp only [hostOps4]
  after_results_simp
  try dsimp only [Matrix.cons_val]
  try after_results_simp
  rfl

/-- At (p, j, l) the stack holds layer `l`'s matrix at (p, j). -/
theorem host4_v46_apply (W : Valuation τ sig (Elt Ideal)) (p : Fin 4096) (j : Fin 1024) (l : Fin 4) :
    (StableHlo.after hostOps4 W (Proc.devRef .tc main_v46) : S4096x1024x4.Idx → EReal) (ix3 p j l)
      = (![(W (Proc.devRef .tc main_v14_0) : S4096x1024.Idx → EReal), (W (Proc.devRef .tc main_v23_0) : S4096x1024.Idx → EReal), (W (Proc.devRef .tc main_v32_0) : S4096x1024.Idx → EReal), (W (Proc.devRef .tc main_v41_0) : S4096x1024.Idx → EReal)] l) (ix2 p j) := by
  rw [host4_v46]
  exact Lstm.Lib.stack4_apply bcast_S4096x1024_S4096x1024x1_0_1 concatenates_S4096x1024x1_S4096x1024x1_S4096x1024x1_S4096x1024x1_S4096x1024x4_d2
    ![(W (Proc.devRef .tc main_v14_0) : S4096x1024.Idx → EReal), (W (Proc.devRef .tc main_v23_0) : S4096x1024.Idx → EReal), (W (Proc.devRef .tc main_v32_0) : S4096x1024.Idx → EReal), (W (Proc.devRef .tc main_v41_0) : S4096x1024.Idx → EReal)] p j l

/-- The last stretch stacks the four layers' results on a new last axis. -/
theorem host4_v51 (W : Valuation τ sig (Elt Ideal)) :
    (StableHlo.after hostOps4 W (Proc.devRef .tc main_v51) : S4096x1024x4.Idx → EReal)
      = concatenate S4096x1024x4 2
         [⟨S4096x1024x1, broadcastInDim S4096x1024x1 ![0, 1] bcast_S4096x1024_S4096x1024x1_0_1 (W (Proc.devRef .tc main_v14_1) : S4096x1024.Idx → EReal)⟩,
          ⟨S4096x1024x1, broadcastInDim S4096x1024x1 ![0, 1] bcast_S4096x1024_S4096x1024x1_0_1 (W (Proc.devRef .tc main_v23_1) : S4096x1024.Idx → EReal)⟩,
          ⟨S4096x1024x1, broadcastInDim S4096x1024x1 ![0, 1] bcast_S4096x1024_S4096x1024x1_0_1 (W (Proc.devRef .tc main_v32_1) : S4096x1024.Idx → EReal)⟩,
          ⟨S4096x1024x1, broadcastInDim S4096x1024x1 ![0, 1] bcast_S4096x1024_S4096x1024x1_0_1 (W (Proc.devRef .tc main_v41_1) : S4096x1024.Idx → EReal)⟩]
         concatenates_S4096x1024x1_S4096x1024x1_S4096x1024x1_S4096x1024x1_S4096x1024x4_d2 := by
  simp only [hostOps4]
  after_results_simp
  try dsimp only [Matrix.cons_val]
  try after_results_simp
  rfl

/-- At (p, j, l) the stack holds layer `l`'s matrix at (p, j). -/
theorem host4_v51_apply (W : Valuation τ sig (Elt Ideal)) (p : Fin 4096) (j : Fin 1024) (l : Fin 4) :
    (StableHlo.after hostOps4 W (Proc.devRef .tc main_v51) : S4096x1024x4.Idx → EReal) (ix3 p j l)
      = (![(W (Proc.devRef .tc main_v14_1) : S4096x1024.Idx → EReal), (W (Proc.devRef .tc main_v23_1) : S4096x1024.Idx → EReal), (W (Proc.devRef .tc main_v32_1) : S4096x1024.Idx → EReal), (W (Proc.devRef .tc main_v41_1) : S4096x1024.Idx → EReal)] l) (ix2 p j) := by
  rw [host4_v51]
  exact Lstm.Lib.stack4_apply bcast_S4096x1024_S4096x1024x1_0_1 concatenates_S4096x1024x1_S4096x1024x1_S4096x1024x1_S4096x1024x1_S4096x1024x4_d2
    ![(W (Proc.devRef .tc main_v14_1) : S4096x1024.Idx → EReal), (W (Proc.devRef .tc main_v23_1) : S4096x1024.Idx → EReal), (W (Proc.devRef .tc main_v32_1) : S4096x1024.Idx → EReal), (W (Proc.devRef .tc main_v41_1) : S4096x1024.Idx → EReal)] p j l

end Cert.KernelIdeal.Lstm

end
-- ==== Proof.KiResult.lean ====
import proofs.«163532_j60825326846606_2_alg».proof.Proof.KiWalk
import proofs.«163532_j60825326846606_2_alg».proof.Proof.KiValue0
import proofs.«163532_j60825326846606_2_alg».proof.Proof.KiValue1
import proofs.«163532_j60825326846606_2_alg».proof.Proof.KiValue2
import proofs.«163532_j60825326846606_2_alg».proof.Proof.KiValue3
import proofs.«163532_j60825326846606_2_alg».proof.Proof.KiHostRun

/-!
# The idealized kernel's two results are the four-layer LSTM cell of its arguments

Layer by layer: at a layer's entry its five arrays are the layer input (the batch, or the previous layer's new hidden
state), slab `l` of the two state arguments, the fused weight `[W_ih[l] | W_hh[l]]` and the fused bias
`b_ih[l] + b_hh[l]`; so its two result arrays are the reference's layer of those (one fused product equals the two
separate ones). The closing host operations stack the four hidden states and the four cell states on a last axis.
-/

set_option maxRecDepth 16384

noncomputable section

namespace Cert.KernelIdeal.Lstm

open Cert.KernelIdeal Cert.KernelIdeal.Gen
open Idealize.ShloMosaic Idealize.ShloMosaic.TcCoe Idealize.ShloMosaic.ValueIdx
open Idealize.SL.Sem
open Idealize.ShloMosaic.Pipeline (Dat)
open _root_.Lstm.Spec

variable (m : (ℓ : Loc nD τ sig) → Buf (Elt Ideal) ℓ) (ρ : Dev nD → PrngReg) (c : Dev nD)

/-- The seven argument arrays on core `c`. -/
abbrev aX : SX.Idx → EReal := m ((c.tc : Thread nD τ).loc main_arg0)
abbrev aH : SS.Idx → EReal := m ((c.tc : Thread nD τ).loc main_arg1)
abbrev aC : SS.Idx → EReal := m ((c.tc : Thread nD τ).loc main_arg2)
abbrev aWi : SW.Idx → EReal := m ((c.tc : Thread nD τ).loc main_arg3)
abbrev aWh : SW.Idx → EReal := m ((c.tc : Thread nD τ).loc main_arg4)
abbrev aBi : SB.Idx → EReal := m ((c.tc : Thread nD τ).loc main_arg5)
abbrev aBh : SB.Idx → EReal := m ((c.tc : Thread nD τ).loc main_arg6)

/-! ## Layer 0 -/

/-- The layer's input is the batch. -/
theorem hx0 : mat (Vt1 m ρ c (Pipeline.arrRef spec0 0)) = (xin0 (aX m c)) :=
  funext fun p => funext fun k => congrFun (Bd1_keep m ρ c main_arg0 (by decide)) (ix2 p k)

/-- Its hidden and cell arrays are slab 0 of the two state arguments; -/
theorem hh0 : mat (Vt1 m ρ c (Pipeline.arrRef spec0 1)) = st (aH m c) 0 :=
  funext fun p => funext fun k => host0_v7_apply (Bd0 m ρ c) p k
theorem hc0 : mat (Vt1 m ρ c (Pipeline.arrRef spec0 2)) = st (aC m c) 0 :=
  funext fun p => funext fun k => host0_v9_apply (Bd0 m ρ c) p k

/-- its weight is `[W_ih[0] | W_hh[0]]` and its bias `b_ih[0] + b_hh[0]`. -/
theorem hlo0 (o : Fin 4096) (k : Fin 1024) :
    (Vt1 m ρ c (Pipeline.arrRef spec0 3) : SW2.Idx → EReal) (ix2 o ⟨k.val, by omega⟩) = wt (aWi m c) 0 o k :=
  host0_v11_lo (Bd0 m ρ c) o k
theorem hhi0 (o : Fin 4096) (k : Fin 1024) :
    (Vt1 m ρ c (Pipeline.arrRef spec0 3) : SW2.Idx → EReal) (ix2 o ⟨1024 + k.val, by omega⟩) = wt (aWh m c) 0 o k :=
  host0_v11_hi (Bd0 m ρ c) o k
theorem hb0 (o : Fin 4096) :
    (Vt1 m ρ c (Pipeline.arrRef spec0 4) : SB1.Idx → EReal) (ix2 0 o) = bs (aBi m c) 0 o + bs (aBh m c) 0 o :=
  host0_v13_apply (Bd0 m ρ c) o

/-- Layer 0's new hidden state, as it stands in its buffer when the layer ends. -/
theorem layer0_h : (Bd2 m ρ c (Proc.devRef .tc main_v14_0) : SX.Idx → EReal)
    = fun i => stepH (aH m c) (aC m c) (aWi m c) (aWh m c) (aBi m c) (aBh m c) 0 (xin0 (aX m c)) (i 0) (i 1) := by
  refine ((Bd2_arr m ρ c 5).trans (final0_5 (Vt1 m ρ) c)).trans ?_
  have e : kHm (Vt1 m ρ c (Pipeline.arrRef spec0 0)) (Vt1 m ρ c (Pipeline.arrRef spec0 1)) (Vt1 m ρ c (Pipeline.arrRef spec0 2))
      (Vt1 m ρ c (Pipeline.arrRef spec0 3)) (Vt1 m ρ c (Pipeline.arrRef spec0 4)) = stepH (aH m c) (aC m c) (aWi m c) (aWh m c) (aBi m c) (aBh m c) 0 (xin0 (aX m c)) := by
    rw [kHm_eq _ _ _ _ _ (wt (aWi m c) 0) (wt (aWh m c) 0) (bs (aBi m c) 0) (bs (aBh m c) 0) (hlo0 m ρ c) (hhi0 m ρ c) (hb0 m ρ c),
      hx0 m ρ c, hh0 m ρ c, hc0 m ρ c]
    rfl
  funext i
  exact congrFun (congrFun e (i 0)) (i 1)

/-- Layer 0's new cell state, as it stands in its buffer when the layer ends. -/
theorem layer0_c : (Bd2 m ρ c (Proc.devRef .tc main_v14_1) : SX.Idx → EReal)
    = fun i => stepC (aH m c) (aC m c) (aWi m c) (aWh m c) (aBi m c) (aBh m c) 0 (xin0 (aX m c)) (i 0) (i 1) := by
  refine ((Bd2_arr m ρ c 6).trans (final0_6 (Vt1 m ρ) c)).trans ?_
  have e : kCm (Vt1 m ρ c (Pipeline.arrRef spec0 0)) (Vt1 m ρ c (Pipeline.arrRef spec0 1)) (Vt1 m ρ c (Pipeline.arrRef spec0 2))
      (Vt1 m ρ c (Pipeline.arrRef spec0 3)) (Vt1 m ρ c (Pipeline.arrRef spec0 4)) = stepC (aH m c) (aC m c) (aWi m c) (aWh m c) (aBi m c) (aBh m c) 0 (xin0 (aX m c)) := by
    rw [kCm_eq _ _ _ _ _ (wt (aWi m c) 0) (wt (aWh m c) 0) (bs (aBi m c) 0) (bs (aBh m c) 0) (hlo0 m ρ c) (hhi0 m ρ c) (hb0 m ρ c),
      hx0 m ρ c, hh0 m ρ c, hc0 m ρ c]
    rfl
  funext i
  exact congrFun (congrFun e (i 0)) (i 1)

/-! ## Layer 1 -/

/-- The layer's input is the previous layer's new hidden state. -/
theorem hx1 : mat (Vt3 m ρ c (Pipeline.arrRef spec1 0)) = (xin1 (aX m c) (aH m c) (aC m c) (aWi m c) (aWh m c) (aBi m c) (aBh m c)) :=
  by
  have e : (Vt3 m ρ c (Pipeline.arrRef spec1 0) : SX.Idx → EReal)
      = fun i => stepH (aH m c) (aC m c) (aWi m c) (aWh m c) (aBi m c) (aBh m c) 0 (xin0 (aX m c)) (i 0) (i 1) := (Bd3_h0 m ρ c).trans (layer0_h m ρ c)
  exact (congrArg mat e).trans rfl

/-- Its hidden and cell arrays are slab 1 of the two state arguments; -/
theorem hh1 : mat (Vt3 m ρ c (Pipeline.arrRef spec1 1)) = st (aH m c) 1 :=
  funext fun p => funext fun k => host1_v16_apply (Bd2 m ρ c) (aH m c) ((Bd2_v0 m ρ c).trans (host0_v0 (Bd0 m ρ c))) p k
theorem hc1 : mat (Vt3 m ρ c (Pipeline.arrRef spec1 2)) = st (aC m c) 1 :=
  funext fun p => funext fun k => host1_v18_apply (Bd2 m ρ c) (aC m c) ((Bd2_v1 m ρ c).trans (host0_v1 (Bd0 m ρ c))) p k

/-- its weight is `[W_ih[1] | W_hh[1]]` and its bias `b_ih[1] + b_hh[1]`. -/
theorem hlo1 (o : Fin 4096) (k : Fin 1024) :
    (Vt3 m ρ c (Pipeline.arrRef spec1 3) : SW2.Idx → EReal) (ix2 o ⟨k.val, by omega⟩) = wt (aWi m c) 1 o k :=
  host1_v20_lo (Bd2 m ρ c) (aWi m c) (aWh m c) ((Bd2_v3 m ρ c).trans (host0_v3 (Bd0 m ρ c))) o k
theorem hhi1 (o : Fin 4096) (k : Fin 1024) :
    (Vt3 m ρ c (Pipeline.arrRef spec1 3) : SW2.Idx → EReal) (ix2 o ⟨1024 + k.val, by omega⟩) = wt (aWh m c) 1 o k :=
  host1_v20_hi (Bd2 m ρ c) (aWi m c) (aWh m c) ((Bd2_v3 m ρ c).trans (host0_v3 (Bd0 m ρ c))) o k
theorem hb1 (o : Fin 4096) :
    (Vt3 m ρ c (Pipeline.arrRef spec1 4) : SB1.Idx → EReal) (ix2 0 o) = bs (aBi m c) 1 o + bs (aBh m c) 1 o :=
  host1_v22_apply (Bd2 m ρ c) (aBi m c) (aBh m c) ((Bd2_v5 m ρ c).trans (host0_v5 (Bd0 m ρ c))) o

/-- Layer 1's new hidden state, as it stands in its buffer when the layer ends. -/
theorem layer1_h : (Bd4 m ρ c (Proc.devRef .tc main_v23_0) : SX.Idx → EReal)
    = fun i => stepH (aH m c) (aC m c) (aWi m c) (aWh m c) (aBi m c) (aBh m c) 1 (xin1 (aX m c) (aH m c) (aC m c) (aWi m c) (aWh m c) (aBi m c) (aBh m c)) (i 0) (i 1) := by
  refine ((Bd4_arr m ρ c 5).trans (final1_5 (Vt3 m ρ) c)).trans ?_
  have e : kHm (Vt3 m ρ c (Pipeline.arrRef spec1 0)) (Vt3 m ρ c (Pipeline.arrRef spec1 1)) (Vt3 m ρ c (Pipeline.arrRef spec1 2))
      (Vt3 m ρ c (Pipeline.arrRef spec1 3)) (Vt3 m ρ c (Pipeline.arrRef spec1 4)) = stepH (aH m c) (aC m c) (aWi m c) (aWh m c) (aBi m c) (aBh m c) 1 (xin1 (aX m c) (aH m c) (aC m c) (aWi m c) (aWh m c) (aBi m c) (aBh m c)) := by
    rw [kHm_eq _ _ _ _ _ (wt (aWi m c) 1) (wt (aWh m c) 1) (bs (aBi m c) 1) (bs (aBh m c) 1) (hlo1 m ρ c) (hhi1 m ρ c) (hb1 m ρ c),
      hx1 m ρ c, hh1 m ρ c, hc1 m ρ c]
    rfl
  funext i
  exact congrFun (congrFun e (i 0)) (i 1)

/-- Layer 1's new cell state, as it stands in its buffer when the layer ends. -/
theorem layer1_c : (Bd4 m ρ c (Proc.devRef .tc main_v23_1) : SX.Idx → EReal)
    = fun i => stepC (aH m c) (aC m c) (aWi m c) (aWh m c) (aBi m c) (aBh m c) 1 (xin1 (aX m c) (aH m c) (aC m c) (aWi m c) (aWh m c) (aBi m c) (aBh m c)) (i 0) (i 1) := by
  refine ((Bd4_arr m ρ c 6).trans (final1_6 (Vt3 m ρ) c)).trans ?_
  have e : kCm (Vt3 m ρ c (Pipeline.arrRef spec1 0)) (Vt3 m ρ c (Pipeline.arrRef spec1 1)) (Vt3 m ρ c (Pipeline.arrRef spec1 2))
      (Vt3 m ρ c (Pipeline.arrRef spec1 3)) (Vt3 m ρ c (Pipeline.arrRef spec1 4)) = stepC (aH m c) (aC m c) (aWi m c) (aWh m c) (aBi m c) (aBh m c) 1 (xin1 (aX m c) (aH m c) (aC m c) (aWi m c) (aWh m c) (aBi m c) (aBh m c)) := by
    rw [kCm_eq _ _ _ _ _ (wt (aWi m c) 1) (wt (aWh m c) 1) (bs (aBi m c) 1) (bs (aBh m c) 1) (hlo1 m ρ c) (hhi1 m ρ c) (hb1 m ρ c),
      hx1 m ρ c, hh1 m ρ c, hc1 m ρ c]
    rfl
  funext i
  exact congrFun (congrFun e (i 0)) (i 1)

/-! ## Layer 2 -/

/-- The layer's input is the previous layer's new hidden state. -/
theorem hx2 : mat (Vt5 m ρ c (Pipeline.arrRef spec2 0)) = (xin2 (aX m c) (aH m c) (aC m c) (aWi m c) (aWh m c) (aBi m c) (aBh m c)) :=
  by
  have e : (Vt5 m ρ c (Pipeline.arrRef spec2 0) : SX.Idx → EReal)
      = fun i => stepH (aH m c) (aC m c) (aWi m c) (aWh m c) (aBi m c) (aBh m c) 1 (xin1 (aX m c) (aH m c) (aC m c) (aWi m c) (aWh m c) (aBi m c) (aBh m c)) (i 0) (i 1) := (Bd5_h1 m ρ c).trans (layer1_h m ρ c)
  exact (congrArg mat e).trans rfl

/-- Its hidden and cell arrays are slab 2 of the two state arguments; -/
theorem hh2 : mat (Vt5 m ρ c (Pipeline.arrRef spec2 1)) = st (aH m c) 2 :=
  funext fun p => funext fun k => host2_v25_apply (Bd4 m ρ c) (aH m c) ((Bd4_v0 m ρ c).trans (host0_v0 (Bd0 m ρ c))) p k
theorem hc2 : mat (Vt5 m ρ c (Pipeline.arrRef spec2 2)) = st (aC m c) 2 :=
  funext fun p => funext fun k => host2_v27_apply (Bd4 m ρ c) (aC m c) ((Bd4_v1 m ρ c).trans (host0_v1 (Bd0 m ρ c))) p k

/-- its weight is `[W_ih[2] | W_hh[2]]` and its bias `b_ih[2] + b_hh[2]`. -/
theorem hlo2 (o : Fin 4096) (k : Fin 1024) :
    (Vt5 m ρ c (Pipeline.arrRef spec2 3) : SW2.Idx → EReal) (ix2 o ⟨k.val, by omega⟩) = wt (aWi m c) 2 o k :=
  host2_v29_lo (Bd4 m ρ c) (aWi m c) (aWh m c) ((Bd4_v3 m ρ c).trans (host0_v3 (Bd0 m ρ c))) o k
theorem hhi2 (o : Fin 4096) (k : Fin 1024) :
    (Vt5 m ρ c (Pipeline.arrRef spec2 3) : SW2.Idx → EReal) (ix2 o ⟨1024 + k.val, by omega⟩) = wt (aWh m c) 2 o k :=
  host2_v29_hi (Bd4 m ρ c) (aWi m c) (aWh m c) ((Bd4_v3 m ρ c).trans (host0_v3 (Bd0 m ρ c))) o k
theorem hb2 (o : Fin 4096) :
    (Vt5 m ρ c (Pipeline.arrRef spec2 4) : SB1.Idx → EReal) (ix2 0 o) = bs (aBi m c) 2 o + bs (aBh m c) 2 o :=
  host2_v31_apply (Bd4 m ρ c) (aBi m c) (aBh m c) ((Bd4_v5 m ρ c).trans (host0_v5 (Bd0 m ρ c))) o

/-- Layer 2's new hidden state, as it stands in its buffer when the layer ends. -/
theorem layer2_h : (Bd6 m ρ c (Proc.devRef .tc main_v32_0) : SX.Idx → EReal)
    = fun i => stepH (aH m c) (aC m c) (aWi m c) (aWh m c) (aBi m c) (aBh m c) 2 (xin2 (aX m c) (aH m c) (aC m c) (aWi m c) (aWh m c) (aBi m c) (aBh m c)) (i 0) (i 1) := by
  refine ((Bd6_arr m ρ c 5).trans (final2_5 (Vt5 m ρ) c)).trans ?_
  have e : kHm (Vt5 m ρ c (Pipeline.arrRef spec2 0)) (Vt5 m ρ c (Pipeline.arrRef spec2 1)) (Vt5 m ρ c (Pipeline.arrRef spec2 2))
      (Vt5 m ρ c (Pipeline.arrRef spec2 3)) (Vt5 m ρ c (Pipeline.arrRef spec2 4)) = stepH (aH m c) (aC m c) (aWi m c) (aWh m c) (aBi m c) (aBh m c) 2 (xin2 (aX m c) (aH m c) (aC m c) (aWi m c) (aWh m c) (aBi m c) (aBh m c)) := by
    rw [kHm_eq _ _ _ _ _ (wt (aWi m c) 2) (wt (aWh m c) 2) (bs (aBi m c) 2) (bs (aBh m c) 2) (hlo2 m ρ c) (hhi2 m ρ c) (hb2 m ρ c),
      hx2 m ρ c, hh2 m ρ c, hc2 m ρ c]
    rfl
  funext i
  exact congrFun (congrFun e (i 0)) (i 1)

/-- Layer 2's new cell state, as it stands in its buffer when the layer ends. -/
theorem layer2_c : (Bd6 m ρ c (Proc.devRef .tc main_v32_1) : SX.Idx → EReal)
    = fun i => stepC (aH m c) (aC m c) (aWi m c) (aWh m c) (aBi m c) (aBh m c) 2 (xin2 (aX m c) (aH m c) (aC m c) (aWi m c) (aWh m c) (aBi m c) (aBh m c)) (i 0) (i 1) := by
  refine ((Bd6_arr m ρ c 6).trans (final2_6 (Vt5 m ρ) c)).trans ?_
  have e : kCm (Vt5 m ρ c (Pipeline.arrRef spec2 0)) (Vt5 m ρ c (Pipeline.arrRef spec2 1)) (Vt5 m ρ c (Pipeline.arrRef spec2 2))
      (Vt5 m ρ c (Pipeline.arrRef spec2 3)) (Vt5 m ρ c (Pipeline.arrRef spec2 4)) = stepC (aH m c) (aC m c) (aWi m c) (aWh m c) (aBi m c) (aBh m c) 2 (xin2 (aX m c) (aH m c) (aC m c) (aWi m c) (aWh m c) (aBi m c) (aBh m c)) := by
    rw [kCm_eq _ _ _ _ _ (wt (aWi m c) 2) (wt (aWh m c) 2) (bs (aBi m c) 2) (bs (aBh m c) 2) (hlo2 m ρ c) (hhi2 m ρ c) (hb2 m ρ c),
      hx2 m ρ c, hh2 m ρ c, hc2 m ρ c]
    rfl
  funext i
  exact congrFun (congrFun e (i 0)) (i 1)

/-! ## Layer 3 -/

/-- The layer's input is the previous layer's new hidden state. -/
theorem hx3 : mat (Vt7 m ρ c (Pipeline.arrRef spec3 0)) = (xin3 (aX m c) (aH m c) (aC m c) (aWi m c) (aWh m c) (aBi m c) (aBh m c)) :=
  by
  have e : (Vt7 m ρ c (Pipeline.arrRef spec3 0) : SX.Idx → EReal)
      = fun i => stepH (aH m c) (aC m c) (aWi m c) (aWh m c) (aBi m c) (aBh m c) 2 (xin2 (aX m c) (aH m c) (aC m c) (aWi m c) (aWh m c) (aBi m c) (aBh m c)) (i 0) (i 1) := (Bd7_h2 m ρ c).trans (layer2_h m ρ c)
  exact (congrArg mat e).trans rfl

/-- Its hidden and cell arrays are slab 3 of the two state arguments; -/
theorem hh3 : mat (Vt7 m ρ c (Pipeline.arrRef spec3 1)) = st (aH m c) 3 :=
  funext fun p => funext fun k => host3_v34_apply (Bd6 m ρ c) (aH m c) ((Bd6_v0 m ρ c).trans (host0_v0 (Bd0 m ρ c))) p k
theorem hc3 : mat (Vt7 m ρ c (Pipeline.arrRef spec3 2)) = st (aC m c) 3 :=
  funext fun p => funext fun k => host3_v36_apply (Bd6 m ρ c) (aC m c) ((Bd6_v1 m ρ c).trans (host0_v1 (Bd0 m ρ c))) p k

/-- its weight is `[W_ih[3] | W_hh[3]]` and its bias `b_ih[3] + b_hh[3]`. -/
theorem hlo3 (o : Fin 4096) (k : Fin 1024) :
    (Vt7 m ρ c (Pipeline.arrRef spec3 3) : SW2.Idx → EReal) (ix2 o ⟨k.val, by omega⟩) = wt (aWi m c) 3 o k :=
  host3_v38_lo (Bd6 m ρ c) (aWi m c) (aWh m c) ((Bd6_v3 m ρ c).trans (host0_v3 (Bd0 m ρ c))) o k
theorem hhi3 (o : Fin 4096) (k : Fin 1024) :
    (Vt7 m ρ c (Pipeline.arrRef spec3 3) : SW2.Idx → EReal) (ix2 o ⟨1024 + k.val, by omega⟩) = wt (aWh m c) 3 o k :=
  host3_v38_hi (Bd6 m ρ c) (aWi m c) (aWh m c) ((Bd6_v3 m ρ c).trans (host0_v3 (Bd0 m ρ c))) o k
theorem hb3 (o : Fin 4096) :
    (Vt7 m ρ c (Pipeline.arrRef spec3 4) : SB1.Idx → EReal) (ix2 0 o) = bs (aBi m c) 3 o + bs (aBh m c) 3 o :=
  host3_v40_apply (Bd6 m ρ c) (aBi m c) (aBh m c) ((Bd6_v5 m ρ c).trans (host0_v5 (Bd0 m ρ c))) o

/-- Layer 3's new hidden state, as it stands in its buffer when the layer ends. -/
theorem layer3_h : (Bd8 m ρ c (Proc.devRef .tc main_v41_0) : SX.Idx → EReal)
    = fun i => stepH (aH m c) (aC m c) (aWi m c) (aWh m c) (aBi m c) (aBh m c) 3 (xin3 (aX m c) (aH m c) (aC m c) (aWi m c) (aWh m c) (aBi m c) (aBh m c)) (i 0) (i 1) := by
  refine ((Bd8_arr m ρ c 5).trans (final3_5 (Vt7 m ρ) c)).trans ?_
  have e : kHm (Vt7 m ρ c (Pipeline.arrRef spec3 0)) (Vt7 m ρ c (Pipeline.arrRef spec3 1)) (Vt7 m ρ c (Pipeline.arrRef spec3 2))
      (Vt7 m ρ c (Pipeline.arrRef spec3 3)) (Vt7 m ρ c (Pipeline.arrRef spec3 4)) = stepH (aH m c) (aC m c) (aWi m c) (aWh m c) (aBi m c) (aBh m c) 3 (xin3 (aX m c) (aH m c) (aC m c) (aWi m c) (aWh m c) (aBi m c) (aBh m c)) := by
    rw [kHm_eq _ _ _ _ _ (wt (aWi m c) 3) (wt (aWh m c) 3) (bs (aBi m c) 3) (bs (aBh m c) 3) (hlo3 m ρ c) (hhi3 m ρ c) (hb3 m ρ c),
      hx3 m ρ c, hh3 m ρ c, hc3 m ρ c]
    rfl
  funext i
  exact congrFun (congrFun e (i 0)) (i 1)

/-- Layer 3's new cell state, as it stands in its buffer when the layer ends. -/
theorem layer3_c : (Bd8 m ρ c (Proc.devRef .tc main_v41_1) : SX.Idx → EReal)
    = fun i => stepC (aH m c) (aC m c) (aWi m c) (aWh m c) (aBi m c) (aBh m c) 3 (xin3 (aX m c) (aH m c) (aC m c) (aWi m c) (aWh m c) (aBi m c) (aBh m c)) (i 0) (i 1) := by
  refine ((Bd8_arr m ρ c 6).trans (final3_6 (Vt7 m ρ) c)).trans ?_
  have e : kCm (Vt7 m ρ c (Pipeline.arrRef spec3 0)) (Vt7 m ρ c (Pipeline.arrRef spec3 1)) (Vt7 m ρ c (Pipeline.arrRef spec3 2))
      (Vt7 m ρ c (Pipeline.arrRef spec3 3)) (Vt7 m ρ c (Pipeline.arrRef spec3 4)) = stepC (aH m c) (aC m c) (aWi m c) (aWh m c) (aBi m c) (aBh m c) 3 (xin3 (aX m c) (aH m c) (aC m c) (aWi m c) (aWh m c) (aBi m c) (aBh m c)) := by
    rw [kCm_eq _ _ _ _ _ (wt (aWi m c) 3) (wt (aWh m c) 3) (bs (aBi m c) 3) (bs (aBh m c) 3) (hlo3 m ρ c) (hhi3 m ρ c) (hb3 m ρ c),
      hx3 m ρ c, hh3 m ρ c, hc3 m ρ c]
    rfl
  funext i
  exact congrFun (congrFun e (i 0)) (i 1)

/-! ## The stacked results -/

/-- The first result: the four layers' new hidden states stacked on the last axis. -/
theorem result_h : (Bd9 m ρ c (Proc.devRef .tc main_v46) : SS.Idx → EReal) = outH (aX m c) (aH m c) (aC m c) (aWi m c) (aWh m c) (aBi m c) (aBh m c) := by
  funext i
  obtain ⟨p, j, l, rfl⟩ : ∃ (p : Fin 4096) (j : Fin 1024) (l : Fin 4), i = ix3 p j l := ⟨i 0, i 1, i 2, eq_ix3 i⟩
  refine (host4_v46_apply (Bd8 m ρ c) p j l).trans ?_
  match l with
  | ⟨0, _⟩ => exact (congrFun ((Bd8_h0 m ρ c).trans (layer0_h m ρ c)) (ix2 p j)).trans rfl
  | ⟨1, _⟩ => exact (congrFun ((Bd8_h1 m ρ c).trans (layer1_h m ρ c)) (ix2 p j)).trans rfl
  | ⟨2, _⟩ => exact (congrFun ((Bd8_h2 m ρ c).trans (layer2_h m ρ c)) (ix2 p j)).trans rfl
  | ⟨3, _⟩ => exact (congrFun (layer3_h m ρ c) (ix2 p j)).trans rfl

/-- The second result: the four layers' new cell states stacked on the last axis. -/
theorem result_c : (Bd9 m ρ c (Proc.devRef .tc main_v51) : SS.Idx → EReal) = outC (aX m c) (aH m c) (aC m c) (aWi m c) (aWh m c) (aBi m c) (aBh m c) := by
  funext i
  obtain ⟨p, j, l, rfl⟩ : ∃ (p : Fin 4096) (j : Fin 1024) (l : Fin 4), i = ix3 p j l := ⟨i 0, i 1, i 2, eq_ix3 i⟩
  refine (host4_v51_apply (Bd8 m ρ c) p j l).trans ?_
  match l with
  | ⟨0, _⟩ => exact (congrFun ((Bd8_c0 m ρ c).trans (layer0_c m ρ c)) (ix2 p j)).trans rfl
  | ⟨1, _⟩ => exact (congrFun ((Bd8_c1 m ρ c).trans (layer1_c m ρ c)) (ix2 p j)).trans rfl
  | ⟨2, _⟩ => exact (congrFun ((Bd8_c2 m ρ c).trans (layer2_c m ρ c)) (ix2 p j)).trans rfl
  | ⟨3, _⟩ => exact (congrFun (layer3_c m ρ c) (ix2 p j)).trans rfl

/-! ## The run -/

/-- Every weakly fair execution of the idealized kernel's program terminates, nothing faulting, with its two results at
    the four-layer cell of the arguments and the arguments as launched. -/
theorem run_spec : θ_run (defs (F := Ideal)) (onTc (τ := τ) (main (F := Ideal))) ⟨m, fun _ => 0, ρ⟩ fun r => ∀ c : Dev nD,
      r.2.mem ((c.tc : Thread nD τ).loc main_v46) = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v51) = outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c _ (mem_uc main_v46 (by decide))).trans (result_h m ρ c),
     (h c _ (mem_uc main_v51 (by decide))).trans (result_c m ρ c),
     (h c _ (mem_uc main_arg0 (by decide))).trans (Bd9_main_arg0 m ρ c),
     (h c _ (mem_uc main_arg1 (by decide))).trans (Bd9_main_arg1 m ρ c),
     (h c _ (mem_uc main_arg2 (by decide))).trans (Bd9_main_arg2 m ρ c),
     (h c _ (mem_uc main_arg3 (by decide))).trans (Bd9_main_arg3 m ρ c),
     (h c _ (mem_uc main_arg4 (by decide))).trans (Bd9_main_arg4 m ρ c),
     (h c _ (mem_uc main_arg5 (by decide))).trans (Bd9_main_arg5 m ρ c),
     (h c _ (mem_uc main_arg6 (by decide))).trans (Bd9_main_arg6 m ρ c)⟩) (runAll m ρ)

end Cert.KernelIdeal.Lstm

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostDot.lean ====
/-
  A plain matrix product on the host, read at an index.

  The host's `dot_general` of an `R × n` matrix with an `n × k` matrix, contracting the shared axis and nothing batched,
  is at `(q, o)` the sum over the shared axis of the products of the entries, on the extended reals.
-/
import proofs.«163532_j60825326846606_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainHostDot_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    Host.dotGeneral (plainDims R n k wf) prec A B (ix2 q o) = ∑ c : Fin n, A (ix2 q c) * B (ix2 c o) := by
  simp only [Host.dotGeneral]
  rw [Ideal.dotGeneral_apply, ← Equiv.sum_comp (plainContr wf).symm]
  refine Finset.sum_congr rfl fun c _ => ?_
  rw [plainDims_lhsIdx, plainDims_rhsIdx]

end Cert.PointConv

end
-- ==== Proof.RefLayer.lean ====
/-
  One layer of the cell, as the host spells it, read at an index.

  The host computes a layer's gate pre-activations as a [4096, 4096] matrix
  `x · W_ihᵀ + b_ih + h · W_hhᵀ + b_hh` (two plain products with transposed weight matrices, two row vectors
  broadcast down the rows, added left to right), cuts it into four column blocks of width 1024, and combines them
  with the old cell state; its sigmoid is spelt `1 / (1 + exp (-g))` with the constant `1.0`. This module reads
  each of those composed terms at one index and finds the specification's `gate`, `cellC` and `cellH` there.
  Every statement is over arbitrary arrays of the literal shapes, and over arbitrary proofs of the shape facts.
-/
import Idealize.ShloMosaic.Lib.Pipeline.Value
import proofs.«163532_j60825326846606_2_alg».proof.Proof.Spec
import proofs.«163532_j60825326846606_2_alg».proof.Proof.LibPlainHostDot

noncomputable section

namespace Cert.ReferenceIdeal.RefValue

open Idealize.ShloMosaic Idealize.ShloMosaic.ValueIdx Cert.PointConv Lstm.Spec

/-- The shapes of one layer: a state or weight matrix, its transpose, the gate matrix, a bias row. -/
abbrev SM : Shape := ⟨2, ![4096, 1024]⟩
abbrev SMT : Shape := ⟨2, ![1024, 4096]⟩
abbrev SG : Shape := ⟨2, ![4096, 4096]⟩
abbrev SV : Shape := ⟨1, ![4096]⟩
abbrev SV1 : Shape := ⟨2, ![1, 4096]⟩
abbrev S0 : Shape := ⟨0, ![]⟩

/-! ## The pieces of the gate matrix at an index -/

/-- A transposed weight matrix at `(c, o)` is the matrix at `(o, c)`. -/
theorem transpose_at (W : FVec Ideal SM .f32) (hT : SM.Transposes [1, 0] SMT) (c : Fin 1024) (o : Fin 4096) :
    transpose SMT [1, 0] W hT (ix2 c o) = W (ix2 o c) :=
  transpose_apply [1, 0] W hT (ix2 c o) (ix2 o c) (fun b => match b with | ⟨0, _⟩ => rfl | ⟨1, _⟩ => rfl)

/-- A bias row broadcast down the rows of the gate matrix, at `(p, o)`, is its entry `o`. -/
theorem bias_at (b : FVec Ideal SV .f32) (h1 : SV.BroadcastsInDim SV1 ![1]) (h2 : SV1.BroadcastsInDim SG ![0, 1])
    (p o : Fin 4096) :
    broadcastInDim SG ![0, 1] h2 (broadcastInDim SV1 ![1] h1 b) (ix2 p o) = b (ix1 o) := by
  refine (broadcastInDim_apply ![0, 1] h2 _ (ix2 p o) (ix2 0 o)
    (fun a => match a with | ⟨0, _⟩ => rfl | ⟨1, _⟩ => rfl)).trans ?_
  exact broadcastInDim_apply ![1] h1 b (ix2 0 o) (ix1 o) (fun a => match a with | ⟨0, _⟩ => rfl)

/-- A product with a transposed weight matrix, at `(p, o)`: row `p` of the left matrix against row `o` of the weights. -/
theorem hostDotT_apply (wf : DotDims.WF SM SMT SG [1] [0] [0] [1] [] []) (hT : SM.Transposes [1, 0] SMT)
    (x W : FVec Ideal SM .f32) (p o : Fin 4096) :
    Host.dotGeneral (plainDims 4096 1024 4096 wf) none x (transpose SMT [1, 0] W hT) (ix2 p o)
      = ∑ k : Fin 1024, x (ix2 p k) * W (ix2 o k) := by
  rw [plainHostDot_apply]
  exact Finset.sum_congr rfl fun c _ => by rw [transpose_at]

/-- The host's gate matrix of one layer. -/
def gatesT (wf : DotDims.WF SM SMT SG [1] [0] [0] [1] [] []) (hT : SM.Transposes [1, 0] SMT)
    (h1 : SV.BroadcastsInDim SV1 ![1]) (h2 : SV1.BroadcastsInDim SG ![0, 1])
    (x h Wih Whh : FVec Ideal SM .f32) (bih bhh : FVec Ideal SV .f32) : FVec Ideal SG .f32 :=
  addf (addf (addf (Host.dotGeneral (plainDims 4096 1024 4096 wf) none x (transpose SMT [1, 0] Wih hT))
      (broadcastInDim SG ![0, 1] h2 (broadcastInDim SV1 ![1] h1 bih)))
    (Host.dotGeneral (plainDims 4096 1024 4096 wf) none h (transpose SMT [1, 0] Whh hT)))
    (broadcastInDim SG ![0, 1] h2 (broadcastInDim SV1 ![1] h1 bhh))

/-- The host's gate matrix at `(p, o)` is the specification's gate pre-activation of row `p` and gate column `o`. -/
theorem gatesT_apply (wf) (hT) (h1) (h2) (x h Wih Whh : FVec Ideal SM .f32) (bih bhh : FVec Ideal SV .f32)
    (p o : Fin 4096) :
    gatesT wf hT h1 h2 x h Wih Whh bih bhh (ix2 p o)
      = gates (fun p k => x (ix2 p k)) (fun p k => h (ix2 p k)) (fun o k => Wih (ix2 o k)) (fun o k => Whh (ix2 o k))
          (fun o => bih (ix1 o)) (fun o => bhh (ix1 o)) p o := by
  unfold gatesT gates gate
  rw [addf_apply, addf_apply, addf_apply, hostDotT_apply, hostDotT_apply, bias_at, bias_at]

/-! ## The sigmoid the host spells out -/

/-- The pattern `0x3F800000` is the number one. -/
theorem one_bits : Ideal.ofBits .f32 0x3F800000#32 = 1 := by
  simp [Ideal.ofBits, Ideal.ieee, -EReal.coe_mul]; norm_num

/-- The constant `1.0` broadcast over a matrix. -/
def onesT (hb : S0.BroadcastsInDim SM ![]) : FVec Ideal SM .f32 :=
  broadcastInDim SM ![] hb (constant S0 .f32 0x3F800000#32)

theorem onesT_apply (hb) (i : SM.Idx) : onesT hb i = 1 := by
  unfold onesT
  refine (broadcastInDim_apply ![] hb _ i ix0 (fun a => a.elim0)).trans ?_
  rw [constant_apply, one_bits]

/-- The host's sigmoid of a matrix: `1 / (1 + exp (-g))`. -/
def sigT (hb : S0.BroadcastsInDim SM ![]) (g : FVec Ideal SM .f32) : FVec Ideal SM .f32 :=
  Host.divf (onesT hb) (addf (onesT hb) (Host.exp (Host.negf g)))

theorem sigT_apply (hb) (g : FVec Ideal SM .f32) (i : SM.Idx) : sigT hb g i = Ideal.logistic (g i) := by
  show Ideal.div (onesT hb i) (onesT hb i + Ideal.exp (-(g i))) = _
  rw [onesT_apply]
  rfl

/-! ## The column blocks and the two states -/

/-- Column block `s` of the gate matrix, at `(p, j)`: the matrix at column `1024 s + j`. -/
theorem block_at (g : FVec Ideal SG .f32) (s : Fin 4) (hs : SG.Slices ![0, 1024 * s.val] SM) (p : Fin 4096) (j : Fin 1024) :
    extractStridedSlice SM ![0, 1024 * s.val] g hs (ix2 p j) = g (ix2 p (col s j)) :=
  extractStridedSlice_apply ![0, 1024 * s.val] g hs (ix2 p j) (ix2 p (col s j))
    (fun a => match a with
      | ⟨0, _⟩ => by show p.val = 0 + p.val; omega
      | ⟨1, _⟩ => rfl)

/-- The host's new cell state from a gate matrix and the old cell state. -/
def cellCT (hb : S0.BroadcastsInDim SM ![]) (hs0 : SG.Slices ![0, 0] SM) (hs1 : SG.Slices ![0, 1024] SM)
    (hs2 : SG.Slices ![0, 2048] SM) (g : FVec Ideal SG .f32) (c : FVec Ideal SM .f32) : FVec Ideal SM .f32 :=
  addf (mulf (sigT hb (extractStridedSlice SM ![0, 1024] g hs1)) c)
    (mulf (sigT hb (extractStridedSlice SM ![0, 0] g hs0)) (Host.tanh (extractStridedSlice SM ![0, 2048] g hs2)))

/-- The host's new hidden state from a gate matrix and the new cell state. -/
def cellHT (hb : S0.BroadcastsInDim SM ![]) (hs3 : SG.Slices ![0, 3072] SM)
    (g : FVec Ideal SG .f32) (c' : FVec Ideal SM .f32) : FVec Ideal SM .f32 :=
  mulf (sigT hb (extractStridedSlice SM ![0, 3072] g hs3)) (Host.tanh c')

theorem cellCT_apply (hb) (hs0) (hs1) (hs2) (g : FVec Ideal SG .f32) (c : FVec Ideal SM .f32) (p : Fin 4096) (j : Fin 1024) :
    cellCT hb hs0 hs1 hs2 g c (ix2 p j)
      = cellC (g (ix2 p (col 0 j))) (g (ix2 p (col 1 j))) (g (ix2 p (col 2 j))) (c (ix2 p j)) := by
  unfold cellCT cellC
  rw [addf_apply, mulf_apply, mulf_apply, sigT_apply, sigT_apply]
  show Ideal.logistic (extractStridedSlice SM ![0, 1024 * (1 : Fin 4).val] g hs1 (ix2 p j)) * c (ix2 p j)
    + Ideal.logistic (extractStridedSlice SM ![0, 1024 * (0 : Fin 4).val] g hs0 (ix2 p j))
      * Ideal.tanh (extractStridedSlice SM ![0, 1024 * (2 : Fin 4).val] g hs2 (ix2 p j)) = _
  rw [block_at, block_at, block_at]

theorem cellHT_apply (hb) (hs3) (g : FVec Ideal SG .f32) (c' : FVec Ideal SM .f32) (p : Fin 4096) (j : Fin 1024) :
    cellHT hb hs3 g c' (ix2 p j) = Ideal.logistic (g (ix2 p (col 3 j))) * Ideal.tanh (c' (ix2 p j)) := by
  unfold cellHT
  rw [mulf_apply, sigT_apply]
  show Ideal.logistic (extractStridedSlice SM ![0, 1024 * (3 : Fin 4).val] g hs3 (ix2 p j)) * Ideal.tanh (c' (ix2 p j)) = _
  rw [block_at]

end Cert.ReferenceIdeal.RefValue

end
-- ==== Proof.RefStack.lean ====
/-
  One layer on the slabs of the argument arrays, as the host spells it, read at an index.

  Layer `l` takes its old states from slab `l` of the state arrays (a unit-width slice along the last axis, viewed as a
  matrix) and its weights and biases from slab `l` of the weight and bias arrays (a unit-width slice along the first
  axis, viewed without it). This module reads those slabs and one layer built on them at an index, over arbitrary
  arrays of the literal shapes and arbitrary proofs of the shape facts.
-/
import proofs.«163532_j60825326846606_2_alg».proof.Proof.RefLayer

noncomputable section

namespace Cert.ReferenceIdeal.RefValue

open Idealize.ShloMosaic Idealize.ShloMosaic.ValueIdx Cert.PointConv Lstm.Spec

/-- One layer's slab of a state array, and of a weight array. -/
abbrev SS1 : Shape := ⟨3, ![4096, 1024, 1]⟩
abbrev SW1 : Shape := ⟨3, ![1, 4096, 1024]⟩

/-! ## The slabs of the arguments -/

/-- Layer `l`'s slab of a state array, viewed as a matrix, at `(p, k)`. -/
theorem stT_apply (s : FVec Ideal SS .f32) (l : Fin 4) (hs : SS.Slices ![0, 0, l.val] SS1) (hc : SS1.ShapeCasts SM)
    (p : Fin 4096) (k : Fin 1024) :
    shapeCast SM (extractStridedSlice SS1 ![0, 0, l.val] s hs) hc (ix2 p k) = st s l p k := by
  refine (shapeCast_apply _ hc (ix2 p k) (ix3 p k 0) ?_).trans ?_
  · rw [Shape.rowMajor_val_three, Shape.rowMajor_val_two]
    show (p.val * 1024 + k.val) * 1 + 0 = p.val * 1024 + k.val
    omega
  · exact extractStridedSlice_apply ![0, 0, l.val] s hs (ix3 p k 0) (ix3 p k l)
      (fun a => match a with
        | ⟨0, _⟩ => by show p.val = 0 + p.val; omega
        | ⟨1, _⟩ => by show k.val = 0 + k.val; omega
        | ⟨2, _⟩ => by show l.val = l.val + 0; omega)

/-- Layer `l`'s weight matrix at `(o, k)`. -/
theorem wtT_apply (W : FVec Ideal SW .f32) (l : Fin 4) (hs : SW.Slices ![l.val, 0, 0] SW1) (hc : SW1.ShapeCasts SM)
    (o : Fin 4096) (k : Fin 1024) :
    shapeCast SM (extractStridedSlice SW1 ![l.val, 0, 0] W hs) hc (ix2 o k) = wt W l o k := by
  refine (shapeCast_apply _ hc (ix2 o k) (ix3 0 o k) ?_).trans ?_
  · rw [Shape.rowMajor_val_three, Shape.rowMajor_val_two]
    show (0 * 4096 + o.val) * 1024 + k.val = o.val * 1024 + k.val
    omega
  · exact extractStridedSlice_apply ![l.val, 0, 0] W hs (ix3 0 o k) (ix3 l o k)
      (fun a => match a with
        | ⟨0, _⟩ => by show l.val = l.val + 0; omega
        | ⟨1, _⟩ => by show o.val = 0 + o.val; omega
        | ⟨2, _⟩ => by show k.val = 0 + k.val; omega)

/-- Layer `l`'s bias row at `o`. -/
theorem bsT_apply (b : FVec Ideal SB .f32) (l : Fin 4) (hs : SB.Slices ![l.val, 0] SV1) (hc : SV1.ShapeCasts SV)
    (o : Fin 4096) :
    shapeCast SV (extractStridedSlice SV1 ![l.val, 0] b hs) hc (ix1 o) = bs b l o := by
  refine (shapeCast_apply _ hc (ix1 o) (ix2 0 o) ?_).trans ?_
  · rw [Shape.rowMajor_val_two, Shape.rowMajor_val_one]
    show 0 * 4096 + o.val = o.val
    omega
  · exact extractStridedSlice_apply ![l.val, 0] b hs (ix2 0 o) (ix2 l o)
      (fun a => match a with
        | ⟨0, _⟩ => by show l.val = l.val + 0; omega
        | ⟨1, _⟩ => by show o.val = 0 + o.val; omega)

/-! ## One layer on the slabs -/

section Layer

variable (wf : DotDims.WF SM SMT SG [1] [0] [0] [1] [] []) (hT : SM.Transposes [1, 0] SMT)
  (h1 : SV.BroadcastsInDim SV1 ![1]) (h2 : SV1.BroadcastsInDim SG ![0, 1]) (hb : S0.BroadcastsInDim SM ![])
  (hs0 : SG.Slices ![0, 0] SM) (hs1 : SG.Slices ![0, 1024] SM) (hs2 : SG.Slices ![0, 2048] SM)
  (hs3 : SG.Slices ![0, 3072] SM)
  (h0 c0 : FVec Ideal SS .f32) (Wih Whh : FVec Ideal SW .f32) (bih bhh : FVec Ideal SB .f32)
  (l : Fin 4) (hsS : SS.Slices ![0, 0, l.val] SS1) (hcS : SS1.ShapeCasts SM)
  (hsW : SW.Slices ![l.val, 0, 0] SW1) (hcW : SW1.ShapeCasts SM)
  (hsB : SB.Slices ![l.val, 0] SV1) (hcB : SV1.ShapeCasts SV)

/-- The host's gate matrix of layer `l` on an input matrix. -/
def layerG (xin : FVec Ideal SM .f32) : FVec Ideal SG .f32 :=
  gatesT wf hT h1 h2 xin (shapeCast SM (extractStridedSlice SS1 ![0, 0, l.val] h0 hsS) hcS)
    (shapeCast SM (extractStridedSlice SW1 ![l.val, 0, 0] Wih hsW) hcW)
    (shapeCast SM (extractStridedSlice SW1 ![l.val, 0, 0] Whh hsW) hcW)
    (shapeCast SV (extractStridedSlice SV1 ![l.val, 0] bih hsB) hcB)
    (shapeCast SV (extractStridedSlice SV1 ![l.val, 0] bhh hsB) hcB)

/-- The host's new cell state of layer `l`. -/
def layerCT (xin : FVec Ideal SM .f32) : FVec Ideal SM .f32 :=
  cellCT hb hs0 hs1 hs2 (layerG wf hT h1 h2 h0 Wih Whh bih bhh l hsS hcS hsW hcW hsB hcB xin)
    (shapeCast SM (extractStridedSlice SS1 ![0, 0, l.val] c0 hsS) hcS)

/-- The host's new hidden state of layer `l`. -/
def layerHT (xin : FVec Ideal SM .f32) : FVec Ideal SM .f32 :=
  cellHT hb hs3 (layerG wf hT h1 h2 h0 Wih Whh bih bhh l hsS hcS hsW hcW hsB hcB xin)
    (layerCT wf hT h1 h2 hb hs0 hs1 hs2 h0 c0 Wih Whh bih bhh l hsS hcS hsW hcW hsB hcB xin)

variable (xin : FVec Ideal SM .f32) (xs : Mat) (hx : ∀ p k, xin (ix2 p k) = xs p k)
include hx

/-- Layer `l`'s gate matrix on an input that is `xs` entry by entry: the specification's gates on `xs` and the slabs. -/
theorem layerG_apply (p o : Fin 4096) :
    layerG wf hT h1 h2 h0 Wih Whh bih bhh l hsS hcS hsW hcW hsB hcB xin (ix2 p o)
      = gates xs (st h0 l) (wt Wih l) (wt Whh l) (bs bih l) (bs bhh l) p o := by
  unfold layerG
  rw [gatesT_apply]
  have e1 : (fun p k => xin (ix2 p k)) = xs := funext fun p => funext fun k => hx p k
  have e2 : (fun p k => shapeCast SM (extractStridedSlice SS1 ![0, 0, l.val] h0 hsS) hcS (ix2 p k)) = st h0 l :=
    funext fun p => funext fun k => stT_apply h0 l hsS hcS p k
  have e3 : (fun o k => shapeCast SM (extractStridedSlice SW1 ![l.val, 0, 0] Wih hsW) hcW (ix2 o k)) = wt Wih l :=
    funext fun o => funext fun k => wtT_apply Wih l hsW hcW o k
  have e4 : (fun o k => shapeCast SM (extractStridedSlice SW1 ![l.val, 0, 0] Whh hsW) hcW (ix2 o k)) = wt Whh l :=
    funext fun o => funext fun k => wtT_apply Whh l hsW hcW o k
  have e5 : (fun o => shapeCast SV (extractStridedSlice SV1 ![l.val, 0] bih hsB) hcB (ix1 o)) = bs bih l :=
    funext fun o => bsT_apply bih l hsB hcB o
  have e6 : (fun o => shapeCast SV (extractStridedSlice SV1 ![l.val, 0] bhh hsB) hcB (ix1 o)) = bs bhh l :=
    funext fun o => bsT_apply bhh l hsB hcB o
  rw [e1, e2, e3, e4, e5, e6]

/-- Layer `l`'s new cell state, entry by entry. -/
theorem layerCT_apply (p : Fin 4096) (j : Fin 1024) :
    layerCT wf hT h1 h2 hb hs0 hs1 hs2 h0 c0 Wih Whh bih bhh l hsS hcS hsW hcW hsB hcB xin (ix2 p j)
      = stepC h0 c0 Wih Whh bih bhh l xs p j := by
  unfold layerCT stepC layerC
  rw [cellCT_apply, layerG_apply (hx := hx), layerG_apply (hx := hx), layerG_apply (hx := hx), stT_apply]

/-- Layer `l`'s new hidden state, entry by entry. -/
theorem layerHT_apply (p : Fin 4096) (j : Fin 1024) :
    layerHT wf hT h1 h2 hb hs0 hs1 hs2 hs3 h0 c0 Wih Whh bih bhh l hsS hcS hsW hcW hsB hcB xin (ix2 p j)
      = stepH h0 c0 Wih Whh bih bhh l xs p j := by
  unfold layerHT
  rw [cellHT_apply, layerCT_apply (hx := hx), layerG_apply (hx := hx)]
  rfl

end Layer

end Cert.ReferenceIdeal.RefValue

end
-- ==== Proof.RefValue.lean ====
/-
  The reference's results are the specification's.

  The reference's run leaves, in its two result buffers, composed terms of host operations over the arguments'
  contents (the generated module names each layer's gate matrix, new cell state and new hidden state). Each of those
  terms is, by unfolding, one layer of the host's spelling built on the slabs of the arguments, so the layer lemmas read
  it entry by entry as the specification's layer; the next layer's input is the previous layer's new hidden state;
  and the final concatenation lays the four layers' states on the last axis, as the specification's results do.
-/
import proofs.«163532_j60825326846606_2_alg».proof.Proof.Gen.ReferenceIdeal.Run
import proofs.«163532_j60825326846606_2_alg».proof.Proof.RefStack
import proofs.«163532_j60825326846606_2_alg».proof.Proof.LibStackLast

set_option maxRecDepth 16384

noncomputable section

namespace Cert.ReferenceIdeal.RefValue

open Cert.ReferenceIdeal Cert.ReferenceIdeal.Value Idealize.ShloMosaic Idealize.ShloMosaic.ValueIdx
  Idealize.ShloMosaic.TcCoe Idealize.SL.Sem Idealize.ShloMosaic.StableHlo Lstm.Spec Lstm.Lib

variable (V0 : Valuation τ sig (Elt Ideal))

/-! ## The layers, entry by entry: each one's input is the previous one's new hidden state -/

theorem c0_apply (p : Fin 4096) (j : Fin 1024) :
    res_main_v48 V0 (ix2 p j) = stepC (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 0 (xinOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 0) p j :=
  layerCT_apply _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 0 _ _ _ _ _ _ (V0 (Proc.devRef .tc main_arg0)) (xin0 (V0 (Proc.devRef .tc main_arg0))) (fun _ _ => rfl) p j

theorem h0_apply (p : Fin 4096) (j : Fin 1024) :
    res_main_v50 V0 (ix2 p j) = stepH (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 0 (xinOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 0) p j :=
  layerHT_apply _ _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 0 _ _ _ _ _ _ (V0 (Proc.devRef .tc main_arg0)) (xin0 (V0 (Proc.devRef .tc main_arg0))) (fun _ _ => rfl) p j

theorem c1_apply (p : Fin 4096) (j : Fin 1024) :
    res_main_v99 V0 (ix2 p j) = stepC (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 1 (xinOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 1) p j :=
  layerCT_apply _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 1 _ _ _ _ _ _ (res_main_v50 V0) (xin1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (h0_apply V0) p j

theorem h1_apply (p : Fin 4096) (j : Fin 1024) :
    res_main_v101 V0 (ix2 p j) = stepH (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 1 (xinOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 1) p j :=
  layerHT_apply _ _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 1 _ _ _ _ _ _ (res_main_v50 V0) (xin1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (h0_apply V0) p j

theorem c2_apply (p : Fin 4096) (j : Fin 1024) :
    res_main_v150 V0 (ix2 p j) = stepC (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 2 (xinOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 2) p j :=
  layerCT_apply _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 2 _ _ _ _ _ _ (res_main_v101 V0) (xin2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (h1_apply V0) p j

theorem h2_apply (p : Fin 4096) (j : Fin 1024) :
    res_main_v152 V0 (ix2 p j) = stepH (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 2 (xinOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 2) p j :=
  layerHT_apply _ _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 2 _ _ _ _ _ _ (res_main_v101 V0) (xin2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (h1_apply V0) p j

theorem c3_apply (p : Fin 4096) (j : Fin 1024) :
    res_main_v201 V0 (ix2 p j) = stepC (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 3 (xinOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 3) p j :=
  layerCT_apply _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 3 _ _ _ _ _ _ (res_main_v152 V0) (xin3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (h2_apply V0) p j

/-! ## The two results -/

/-- The first result buffer after the run holds the specification's stacked hidden states. -/
theorem result_h : val4 V0 (Proc.devRef .tc main_v208) = outH (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  refine (val4_main_v208 V0).trans ?_
  funext i
  obtain ⟨p, j, l, rfl⟩ : ∃ p j l, i = ix3 p j l := ⟨i 0, i 1, i 2, eq_ix3 i⟩
  match l with
  | ⟨0, _⟩ => exact (stack4_at0 _ _ _ _ _ _ p j).trans (h0_apply V0 p j)
  | ⟨1, _⟩ => exact (stack4_at1 _ _ _ _ _ _ p j).trans (h1_apply V0 p j)
  | ⟨2, _⟩ => exact (stack4_at2 _ _ _ _ _ _ p j).trans (h2_apply V0 p j)
  | ⟨3, _⟩ =>
    exact (stack4_at3 _ _ _ _ _ _ p j).trans
      (layerHT_apply _ _ _ _ _ _ _ _ _ (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) 3 _ _ _ _ _ _ (res_main_v152 V0) (xin3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (h2_apply V0) p j)

/-- The second result buffer after the run holds the specification's stacked cell states. -/
theorem result_c : val4 V0 (Proc.devRef .tc main_v213) = outC (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  refine (val4_main_v213 V0).trans ?_
  funext i
  obtain ⟨p, j, l, rfl⟩ : ∃ p j l, i = ix3 p j l := ⟨i 0, i 1, i 2, eq_ix3 i⟩
  match l with
  | ⟨0, _⟩ => exact (stack4_at0 _ _ _ _ _ _ p j).trans (c0_apply V0 p j)
  | ⟨1, _⟩ => exact (stack4_at1 _ _ _ _ _ _ p j).trans (c1_apply V0 p j)
  | ⟨2, _⟩ => exact (stack4_at2 _ _ _ _ _ _ p j).trans (c2_apply V0 p j)
  | ⟨3, _⟩ => exact (stack4_at3 _ _ _ _ _ _ p j).trans (c3_apply V0 p j)

/-! ## The run -/

/-- On every device, from any memory with zero counters: every weakly fair execution of the reference terminates with
    its two results at the specification's stacked hidden and cell states of the arguments' launch contents, and the
    arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v208) = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v213) = outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c).1.trans ((val4_main_v208 (launchContents m c)).symm.trans (result_h (launchContents m c))),
        (h c).2.1.trans ((val4_main_v213 (launchContents m c)).symm.trans (result_c (launchContents m c))),
        (h c).2.2⟩)
    (Value.run m ρ)

end Cert.ReferenceIdeal.RefValue

end
-- ==== Proof.lean ====
/-
  The certificate of a four-layer LSTM cell: `Cert.Claim` (proofs.«163532_j60825326846606_2_alg».proof.Defs).

  Three programs take the same seven arrays — an input batch `x : [4096, 1024]`, the previous hidden and cell states
  `h0, c0 : [4096, 1024, 4]` of four layers on the last axis, and the layers' weights `W_ih, W_hh : [4, 4096, 1024]` and
  biases `b_ih, b_hh : [4, 4096]` — and return the new hidden and cell states of the four layers, `[4096, 1024, 4]` each.
  The kernel runs each layer as a grid of sixteen tiles of 256 batch rows: a tile multiplies its rows of the layer's
  input and old hidden state, joined along the columns, by the layer's two weight matrices joined the same way, adds
  the sum of the two bias rows, cuts the 4096 gate columns into four blocks and updates the two states; host
  operations before, between and after the layers cut the arguments into the layers' slabs, join the weights, add the
  biases, and at the end stack the four layers' states. The idealized kernel is the same text read over the
  extended reals, where a change of float format is the identity. The idealized reference is one chain of host
  operations: per layer two matrix products with transposed weights, the two bias rows added one after the other, the
  cut into four gate blocks, sigmoids spelt `1 / (1 + exp (-g))`, `tanh`, the two state updates, then the same
  stacking.

  * The three frames. Each program's run is known with a post that fixes every buffer's final contents; an argument
    is written by no operation, so it ends as launched. The kernel's two frames are its run with everything but the
    arguments dropped; the reference's is its run with the two results dropped.
  * `preserves`. The idealization rewrote no operation: the idealized kernel is the kernel's own text at the
    extended reals, and there is nothing to restate.
  * `algebraic`. `Lstm.Spec.outH` and `Lstm.Spec.outC` (Proof/Spec.lean) are the cell as one function of the seven
    arrays over the extended reals: layer `l`'s gate pre-activations
    `x_l · W_ih[l]ᵀ + b_ih[l] + h0[:, :, l] · W_hh[l]ᵀ + b_hh[l]`, its new cell state `σ(f) · c0[:, :, l] + σ(i) · tanh g`,
    its new hidden state `σ(o) · tanh c'`, the next layer's input that hidden state, the results the four states on the
    last axis. The idealized kernel ends with its two results at `outH` and `outC` of its arguments, and so does the
    idealized reference; from memories that agree on the arguments the two pairs of results are therefore equal,
    element by element, and each program leaves its arguments unchanged.
-/
import proofs.«163532_j60825326846606_2_alg».proof.Defs
import proofs.«163532_j60825326846606_2_alg».proof.Proof.Gen.Kernel
import proofs.«163532_j60825326846606_2_alg».proof.Proof.Gen.KernelIdeal
import proofs.«163532_j60825326846606_2_alg».proof.Proof.Gen.ReferenceIdeal
import proofs.«163532_j60825326846606_2_alg».proof.Proof.Gen.Pre_finite_inputs
import proofs.«163532_j60825326846606_2_alg».proof.Proof.KRun
import proofs.«163532_j60825326846606_2_alg».proof.Proof.KiResult
import proofs.«163532_j60825326846606_2_alg».proof.Proof.RefValue

noncomputable section

namespace Cert.Proof

open Idealize.ShloMosaic Idealize.SL.Sem

/-- The kernel's arguments end as launched. -/
theorem frame_k : Cert.frame_Kernel := fun m ρ _ => Cert.Kernel.Lstm.frame m ρ

/-- The idealized kernel's arguments end as launched. -/
theorem frame_ki : Cert.frame_KernelIdeal := fun m ρ _ => Cert.KernelIdeal.Lstm.frame m ρ

/-- The idealized reference's arguments end as launched: its run, the two results dropped. -/
theorem frame_ri : Cert.frame_ReferenceIdeal := fun m ρ _ =>
  (θ_run Cert.ReferenceIdeal.defs _ _).mono (fun _ h c => (h c).2.2) (Cert.ReferenceIdeal.RefValue.run_spec m ρ)

/-- Nothing was rewritten, so nothing is to be restated. -/
theorem preserves : Cert.preserves_Kernel_KernelIdeal := trivial

/-- Both programs end with their results at the specification's stacked states of their own arguments; the
    arguments agree, so the results are equal. -/
theorem algebraic : Cert.algebraic_KernelIdeal_ReferenceIdeal := by
  intro m ρ m' ρ' _ hagree
  refine ⟨fun c => Lstm.Spec.outH
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
      fun c => Lstm.Spec.outC
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
      Cert.KernelIdeal.Lstm.run_spec m ρ, ?_⟩
  refine (θ_run Cert.ReferenceIdeal.defs _ _).mono (fun _ h c => ?_) (Cert.ReferenceIdeal.RefValue.run_spec m' ρ')
  obtain ⟨e0, e1, e2, e3, e4, e5, e6⟩ := hagree c
  refine ⟨(h c).1.trans ?_, (h c).2.1.trans ?_, (h c).2.2⟩
  · rw [e0, e1, e2, e3, e4, e5, e6]
  · rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
